-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024x16 : Shape := ⟨3, ![1024, 1024, 16]⟩
abbrev S64x240 : Shape := ⟨2, ![64, 240]⟩
abbrev S64 : Shape := ⟨1, ![64]⟩
abbrev S64x64 : Shape := ⟨2, ![64, 64]⟩
abbrev S_ : Shape := ⟨0, ![]⟩

class Facts : Prop where
  bcast_S_S1024x1024x16 : S_.BroadcastsInDim S1024x1024x16 (![] : Fin 0 → Fin S1024x1024x16.rank)
  reducesTo_S1024x1024x16_S_d0_1_2 : S1024x1024x16.ReducesTo [0, 1, 2] S_
  h_S_ : 0 < S_.numel
  bcast_S_S64x240 : S_.BroadcastsInDim S64x240 (![] : Fin 0 → Fin S64x240.rank)
  reducesTo_S64x240_S_d0_1 : S64x240.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S1024x1024x16 .f32) (main_arg1 : IVec S1024x1024x16 1) (main_arg2 : FVec F S64x240 .f32) (main_arg3 : FVec F S64 .f32) (main_arg4 : FVec F S64x64 .f32) (main_arg5 : FVec F S64 .f32) : IVec S_ 1 :=
  let main_v0 : FVec F S1024x1024x16 .f32 := Host.absf main_arg0
  let main_cst : FVec F S_ .f32 := constant S_ .f32 0x7F800000#32
  let main_v1 : FVec F S1024x1024x16 .f32 := broadcastInDim S1024x1024x16 ![] bcast_S_S1024x1024x16 main_cst
  let main_v2 : IVec S1024x1024x16 1 := cmpf .olt main_v0 main_v1
  let main_c : IVec S_ 1 := constantI S_ 1 1#1
  let main_v3 : IVec S_ 1 := (fun x v => Host.reduce IntOp.andi x v reducesTo_S1024x1024x16_S_d0_1_2 h_S_) main_v2 main_c
  let main_v4 : FVec F S64x240 .f32 := Host.absf main_arg2
  let main_cst_0 : FVec F S_ .f32 := constant S_ .f32 0x7F800000#32
  let main_v5 : FVec F S64x240 .f32 := broadcastInDim S64x240 ![] bcast_S_S64x240 main_cst_0
  let main_v6 : IVec S64x240 1 := cmpf .olt main_v4 main_v5
  let main_c_1 : IVec S_ 1 := constantI S_ 1 1#1
  let main_v7 : IVec S_ 1 := (fun x v => Host.reduce IntOp.andi x v reducesTo_S64x240_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S1024x1024x16 : Shape := ⟨3, ![1024, 1024, 16]⟩
abbrev S64x240 : Shape := ⟨2, ![64, 240]⟩
abbrev S64 : Shape := ⟨1, ![64]⟩
abbrev S64x64 : Shape := ⟨2, ![64, 64]⟩
abbrev S_ : Shape := ⟨0, ![]⟩
abbrev S16x1024x1024 : Shape := ⟨3, ![16, 1024, 1024]⟩
abbrev S1024 : Shape := ⟨1, ![1024]⟩
abbrev S1024x1 : Shape := ⟨2, ![1024, 1]⟩
abbrev S1024x2 : Shape := ⟨2, ![1024, 2]⟩
abbrev S16x1024 : Shape := ⟨2, ![16, 1024]⟩
abbrev S1024x16 : Shape := ⟨2, ![1024, 16]⟩
abbrev S16 : Shape := ⟨1, ![16]⟩
abbrev S1x16 : Shape := ⟨2, ![1, 16]⟩
abbrev S1x64 : Shape := ⟨2, ![1, 64]⟩
abbrev S1024x1024x64 : Shape := ⟨3, ![1024, 1024, 64]⟩
abbrev S64x64x16 : Shape := ⟨3, ![64, 64, 16]⟩
abbrev S64x16 : Shape := ⟨2, ![64, 16]⟩
abbrev S64x64x64 : Shape := ⟨3, ![64, 64, 64]⟩
abbrev S64x64x1 : Shape := ⟨3, ![64, 64, 1]⟩
abbrev S1x64x16 : Shape := ⟨3, ![1, 64, 16]⟩
abbrev S64x1x16 : Shape := ⟨3, ![64, 1, 16]⟩
abbrev S1x1x16 : Shape := ⟨3, ![1, 1, 16]⟩
abbrev S64x64x240 : Shape := ⟨3, ![64, 64, 240]⟩
abbrev S4096x240 : Shape := ⟨2, ![4096, 240]⟩
abbrev S240x64 : Shape := ⟨2, ![240, 64]⟩
abbrev S4096x64 : Shape := ⟨2, ![4096, 64]⟩

abbrev nBuf : Space → Nat
  | .hbm => 47
  | .vmem => 24
  | .smem => 0
  | _ => 0

abbrev bufTy : (tb : Table) → Fin (tcTables nBuf tb) → BufTy
  | .hbm, ⟨0, _⟩ => ⟨S1024x1024x16, .f32⟩
  | .hbm, ⟨1, _⟩ => ⟨S1024x1024x16, .i1⟩
  | .hbm, ⟨2, _⟩ => ⟨S64x240, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S_, .f32⟩
  | .hbm, ⟨7, _⟩ => ⟨S1024x1024x16, .f32⟩
  | .hbm, ⟨8, _⟩ => ⟨S1024x1024x16, .f32⟩
  | .hbm, ⟨9, _⟩ => ⟨S1024x1024x16, .f32⟩
  | .hbm, ⟨10, _⟩ => ⟨S16x1024x1024, .f32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S_, .i32⟩
  | .hbm, ⟨17, _⟩ => ⟨S1024, .i32⟩
  | .hbm, ⟨18, _⟩ => ⟨S1024, .i32⟩
  | .hbm, ⟨19, _⟩ => ⟨S1024, .i32⟩
  | .hbm, ⟨20, _⟩ => ⟨S_, .i32⟩
  | .hbm, ⟨21, _⟩ => ⟨S1024, .i32⟩
  | .hbm, ⟨22, _⟩ => ⟨S1024, .i1⟩
  | .hbm, ⟨23, _⟩ => ⟨S_, .i32⟩
  | .hbm, ⟨24, _⟩ => ⟨S1024, .i32⟩
  | .hbm, ⟨25, _⟩ => ⟨S1024, .i32⟩
  | .hbm, ⟨26, _⟩ => ⟨S1024, .i32⟩
  | .hbm, ⟨27, _⟩ => ⟨S1024x1, .i32⟩
  | .hbm, ⟨28, _⟩ => ⟨S1024x1, .i32⟩
  | .hbm, ⟨29, _⟩ => ⟨S1024x2, .i32⟩
  | .hbm, ⟨30, _⟩ => ⟨S16x1024, .f32⟩
  | .hbm, ⟨31, _⟩ => ⟨S1024x16, .f32⟩
  | .hbm, ⟨32, _⟩ => ⟨S_, .f32⟩
  | .hbm, ⟨33, _⟩ => ⟨S16, .f32⟩
  | .hbm, ⟨34, _⟩ => ⟨S1x16, .f32⟩
  | .hbm, ⟨35, _⟩ => ⟨S_, .f32⟩
  | .hbm, ⟨36, _⟩ => ⟨S1024x16, .f32⟩
  | .hbm, ⟨37, _⟩ => ⟨S_, .f32⟩
  | .hbm, ⟨38, _⟩ => ⟨S1024x16, .f32⟩
  | .hbm, ⟨39, _⟩ => ⟨S_, .f32⟩
  | .hbm, ⟨40, _⟩ => ⟨S16, .f32⟩
  | .hbm, ⟨41, _⟩ => ⟨S1x16, .f32⟩
  | .hbm, ⟨42, _⟩ => ⟨S64x240, .bf16⟩
  | .hbm, ⟨43, _⟩ => ⟨S64x64, .bf16⟩
  | .hbm, ⟨44, _⟩ => ⟨S1x64, .f32⟩
  | .hbm, ⟨45, _⟩ => ⟨S1x64, .f32⟩
  | .hbm, ⟨46, _⟩ => ⟨S1024x1024x64, .f32⟩
  | .local _ .vmem, ⟨0, _⟩ => ⟨S64x64x16, .f32⟩
  | .local _ .vmem, ⟨1, _⟩ => ⟨S64x64x16, .f32⟩
  | .local _ .vmem, ⟨2, _⟩ => ⟨S64x64x16, .f32⟩
  | .local _ .vmem, ⟨3, _⟩ => ⟨S64x64x16, .f32⟩
  | .local _ .vmem, ⟨4, _⟩ => ⟨S64x16, .f32⟩
  | .local _ .vmem, ⟨5, _⟩ => ⟨S64x16, .f32⟩
  | .local _ .vmem, ⟨6, _⟩ => ⟨S64x16, .f32⟩
  | .local _ .vmem, ⟨7, _⟩ => ⟨S64x16, .f32⟩
  | .local _ .vmem, ⟨8, _⟩ => ⟨S64x16, .f32⟩
  | .local _ .vmem, ⟨9, _⟩ => ⟨S64x16, .f32⟩
  | .local _ .vmem, ⟨10, _⟩ => ⟨S64x16, .f32⟩
  | .local _ .vmem, ⟨11, _⟩ => ⟨S64x16, .f32⟩
  | .local _ .vmem, ⟨12, _⟩ => ⟨S64x16, .f32⟩
  | .local _ .vmem, ⟨13, _⟩ => ⟨S64x16, .f32⟩
  | .local _ .vmem, ⟨14, _⟩ => ⟨S64x16, .f32⟩
  | .local _ .vmem, ⟨15, _⟩ => ⟨S64x16, .f32⟩
  | .local _ .vmem, ⟨16, _⟩ => ⟨S1x16, .f32⟩
  | .local _ .vmem, ⟨17, _⟩ => ⟨S1x16, .f32⟩
  | .local _ .vmem, ⟨18, _⟩ => ⟨S64x240, .bf16⟩
  | .local _ .vmem, ⟨19, _⟩ => ⟨S1x64, .f32⟩
  | .local _ .vmem, ⟨20, _⟩ => ⟨S64x64, .bf16⟩
  | .local _ .vmem, ⟨21, _⟩ => ⟨S1x64, .f32⟩
  | .local _ .vmem, ⟨22, _⟩ => ⟨S64x64x64, .f32⟩
  | .local _ .vmem, ⟨23, _⟩ => ⟨S64x64x64, .f32⟩
  | _, _ => ⟨S1024x1024x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_call1_v0 : Ref sig .tc := ⟨.hbm, 10, rfl⟩
abbrev main_call1_v1 : Ref sig .tc := ⟨.hbm, 11, rfl⟩
abbrev main_call1_v2 : Ref sig .tc := ⟨.hbm, 12, rfl⟩
abbrev main_call1_c : Ref sig .tc := ⟨.hbm, 13, rfl⟩
abbrev main_call1_v3 : Ref sig .tc := ⟨.hbm, 14, rfl⟩
abbrev main_call1_v4 : Ref sig .tc := ⟨.hbm, 15, rfl⟩
abbrev main_call1_c_0 : Ref sig .tc := ⟨.hbm, 16, rfl⟩
abbrev main_call1_v5 : Ref sig .tc := ⟨.hbm, 17, rfl⟩
abbrev main_call1_v6 : Ref sig .tc := ⟨.hbm, 18, rfl⟩
abbrev main_call1_v7 : Ref sig .tc := ⟨.hbm, 19, rfl⟩
abbrev main_call1_c_1 : Ref sig .tc := ⟨.hbm, 20, rfl⟩
abbrev main_call1_v8 : Ref sig .tc := ⟨.hbm, 21, rfl⟩
abbrev main_call1_v9 : Ref sig .tc := ⟨.hbm, 22, rfl⟩
abbrev main_call1_c_2 : Ref sig .tc := ⟨.hbm, 23, rfl⟩
abbrev main_call1_v10 : Ref sig .tc := ⟨.hbm, 24, rfl⟩
abbrev main_call1_v11 : Ref sig .tc := ⟨.hbm, 25, rfl⟩
abbrev main_call1_v12 : Ref sig .tc := ⟨.hbm, 26, rfl⟩
abbrev main_call1_v13 : Ref sig .tc := ⟨.hbm, 27, rfl⟩
abbrev main_call1_v14 : Ref sig .tc := ⟨.hbm, 28, rfl⟩
abbrev main_call1_v15 : Ref sig .tc := ⟨.hbm, 29, rfl⟩
abbrev main_v2 : Ref sig .tc := ⟨.hbm, 30, rfl⟩
abbrev main_v3 : Ref sig .tc := ⟨.hbm, 31, rfl⟩
abbrev main_cst_0 : Ref sig .tc := ⟨.hbm, 32, rfl⟩
abbrev main_v4 : Ref sig .tc := ⟨.hbm, 33, rfl⟩
abbrev main_v5 : Ref sig .tc := ⟨.hbm, 34, rfl⟩
abbrev main_cst_1 : Ref sig .tc := ⟨.hbm, 35, rfl⟩
abbrev main_v6 : Ref sig .tc := ⟨.hbm, 36, rfl⟩
abbrev main_cst_2 : Ref sig .tc := ⟨.hbm, 37, rfl⟩
abbrev main_v7 : Ref sig .tc := ⟨.hbm, 38, rfl⟩
abbrev main_cst_3 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨2, ![16, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S64x64x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x64x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S64x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S64x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S64x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S64x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S64x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64x240 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S64x64 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S64x64x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

class Facts₀ : Prop where
  bcast_S_S1024x1024x16 : S_.BroadcastsInDim S1024x1024x16 (![] : Fin 0 → Fin S1024x1024x16.rank)
  transposes_S1024x1024x16_S1024x1024x16_1_0_2 : S1024x1024x16.Transposes [1, 0, 2] S1024x1024x16
  transposes_S1024x1024x16_S16x1024x1024_2_0_1 : S1024x1024x16.Transposes [2, 0, 1] S16x1024x1024
  bcast_S_S1024 : S_.BroadcastsInDim S1024 (![] : Fin 0 → Fin S1024.rank)
  bcast_S1024_S1024x1_0 : S1024.BroadcastsInDim S1024x1 (![0] : Fin 1 → Fin S1024x1.rank)
  concatenates_S1024x1_S1024x1_S1024x2_d1 : Shape.Concatenates [S1024x1, S1024x1] S1024x2 1
  transposes_S16x1024_S1024x16_1_0 : S16x1024.Transposes [1, 0] S1024x16
  reducesTo_S1024x16_S16_d0 : S1024x16.ReducesTo [0] S16
  h_S_ : 0 < S_.numel
  shapeCasts_S16_S1x16 : S16.ShapeCasts S1x16
  reducesTo_S1024x1024x16_S1024x16_d0 : S1024x1024x16.ReducesTo [0] S1024x16
  reducesTo_S1024x1024x16_S1024x16_d1 : S1024x1024x16.ReducesTo [1] S1024x16
  bitsLt_bf16_f32 : FTy.bits .bf16 < FTy.bits .f32
  shapeCasts_S64_S1x64 : S64.ShapeCasts S1x64
  iota_S64x64_d0_w32 : S64x64.Iotas .tc 32 [0]
  iota_S64x64_d1_w32 : S64x64.Iotas .tc 32 [1]
  natLt_1_32 : 1 < 32
  shapeCasts_S64x64_S64x64x1 : S64x64.ShapeCasts S64x64x1
  inb_S64x64x16_S64x64x16_0_0_0 : ∀ a, (![0, 0, 0] : Fin 3 → Nat) a + S64x64x16.size a ≤ S64x64x16.size a
  h_S64x64x16 : 0 < S64x64x16.numel
  shapeCasts_S64x64x16_S64x64x16 : S64x64x16.ShapeCasts S64x64x16
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  shapeCasts_S64x16_S1x64x16 : S64x16.ShapeCasts S1x64x16
  shapeCasts_S1x64x16_S1x64x16 : S1x64x16.ShapeCasts S1x64x16
  broadcasts_S1x64x16_S64x64x16 : S1x64x16.Broadcasts S64x64x16
  shapeCasts_S64x16_S64x1x16 : S64x16.ShapeCasts S64x1x16
  shapeCasts_S64x1x16_S64x1x16 : S64x1x16.ShapeCasts S64x1x16
  broadcasts_S64x1x16_S64x64x16 : S64x1x16.Broadcasts S64x64x16
  shapeCasts_S1x16_S1x1x16 : S1x16.ShapeCasts S1x1x16
  shapeCasts_S1x1x16_S1x1x16 : S1x1x16.ShapeCasts S1x1x16
  broadcasts_S1x1x16_S64x64x16 : S1x1x16.Broadcasts S64x64x16
  broadcasts_S64x64x1_S64x64x16 : S64x64x1.Broadcasts S64x64x16
  concatenates_S64x64x16_S64x64x16_S64x64x16_S64x64x16_S64x64x16_S64x64x16_S64x64x16_S64x64x16_S64x64x16_S64x64x16_S64x64x16_S64x64x16_S64x64x16_S64x64x16_S64x64x16_S64x64x240_d2 : Shape.Concatenates [S64x64x16, S64x64x16, S64x64x16, S64x64x16, S64x64x16, S64x64x16, S64x64x16, S64x64x16, S64x64x16, S64x64x16, S64x64x16, S64x64x16, S64x64x16, S64x64x16, S64x64x16] S64x64x240 2
  shapeCasts_S64x64x240_S4096x240 : S64x64x240.ShapeCasts S4096x240
  inb_S64x240_S64x240_0_0 : ∀ a, (![0, 0] : Fin 2 → Nat) a + S64x240.size a ≤ S64x240.size a
  h_S64x240 : 0 < S64x240.numel
  shapeCasts_S64x240_S64x240 : S64x240.ShapeCasts S64x240
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  transposes_S64x240_p1_0_S240x64 : S64x240.Transposes [1, 0] S240x64
  broadcasts_S1x64_S4096x64 : S1x64.Broadcasts S4096x64
  transposes_S64x64_p1_0_S64x64 : S64x64.Transposes [1, 0] S64x64
  shapeCasts_S4096x64_S64x64x64 : S4096x64.ShapeCasts S64x64x64
  inb_S64x64x64_S64x64x64_0_0_0 : ∀ a, (![0, 0, 0] : Fin 3 → Nat) a + S64x64x64.size a ≤ S64x64x64.size a
  h_S64x64x64 : 0 < S64x64x64.numel
  gather_S16x1024x1024_S1024x2_S16x1024_0_12_n_n_12_1_1611_wf : GatherDims.WF S16x1024x1024 S1024x2 S16x1024 [0] [1, 2] [] [1, 2] [] 1 ![16, 1, 1]
  dot_S4096x240_S240x64_S4096x64_1_0_0_1_n_n_wf : DotDims.WF S4096x240 S240x64 S4096x64 [1] [0] [0] [1] [] []
  dot_S4096x64_S64x64_S4096x64_1_0_0_1_n_n_wf : DotDims.WF S4096x64 S64x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x64x16.size a ≤ S1024x1024x16.size a
  hwx0_0 : ∀ i : grid0.Coords, EltTy.bits .f32 = 32 ∨ (Rect.block (s := S1024x1024x16) S64x64x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x64x16.size a ≤ S1024x1024x16.size a
  hwx0_1 : ∀ i : grid0.Coords, EltTy.bits .f32 = 32 ∨ (Rect.block (s := S1024x1024x16) S64x64x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x16.size a ≤ S1024x16.size a
  hwx0_2 : ∀ i : grid0.Coords, EltTy.bits .f32 = 32 ∨ (Rect.block (s := S1024x16) S64x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x16.size a ≤ S1024x16.size a
  hwx0_3 : ∀ i : grid0.Coords, EltTy.bits .f32 = 32 ∨ (Rect.block (s := S1024x16) S64x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x16.size a ≤ S1024x16.size a
  hwx0_4 : ∀ i : grid0.Coords, EltTy.bits .f32 = 32 ∨ (Rect.block (s := S1024x16) S64x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x16.size a ≤ S1024x16.size a
  hwx0_5 : ∀ i : grid0.Coords, EltTy.bits .f32 = 32 ∨ (Rect.block (s := S1024x16) S64x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x16.size a ≤ S1024x16.size a
  hwx0_6 : ∀ i : grid0.Coords, EltTy.bits .f32 = 32 ∨ (Rect.block (s := S1024x16) S64x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x16.size a ≤ S1024x16.size a
  hwx0_7 : ∀ i : grid0.Coords, EltTy.bits .f32 = 32 ∨ (Rect.block (s := S1024x16) S64x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x16.size a ≤ S1x16.size a
  hwx0_8 : ∀ i : grid0.Coords, EltTy.bits .f32 = 32 ∨ (Rect.block (s := S1x16) S1x16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x16.size a ≤ S1x16.size a
  hwx0_9 : ∀ i : grid0.Coords, EltTy.bits .f32 = 32 ∨ (Rect.block (s := S1x16) S1x16.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x240.size a ≤ S64x240.size a
  hwx0_10 : ∀ i : grid0.Coords, EltTy.bits .bf16 = 32 ∨ (Rect.block (s := S64x240) S64x240.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64x64.size a ≤ S64x64.size a
  hwx0_12 : ∀ i : grid0.Coords, EltTy.bits .bf16 = 32 ∨ (Rect.block (s := S64x64) S64x64.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x64.size a ≤ S1x64.size a
  hwx0_13 : ∀ i : grid0.Coords, EltTy.bits .f32 = 32 ∨ (Rect.block (s := S1x64) S1x64.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S64x64x64.size a ≤ S1024x1024x64.size a
  hwx0_14 : ∀ i : grid0.Coords, EltTy.bits .f32 = 32 ∨ (Rect.block (s := S1024x1024x64) S64x64x64.size (cc0_transform_14 i) (hinb0_14 i)).WholeWords (EltTy.packing .f32)

variable [Facts₀]

def gather_S16x1024x1024_S1024x2_S16x1024_0_12_n_n_12_1_1611 : GatherDims S16x1024x1024 S1024x2 S16x1024 where
  offsetDims := [0]
  collapsedSliceDims := [1, 2]
  operandBatchingDims := []
  startIndicesBatchingDims := []
  startIndexMap := [1, 2]
  indexVectorDim := 1
  sliceSizes := ![16, 1, 1]
  wf := gather_S16x1024x1024_S1024x2_S16x1024_0_12_n_n_12_1_1611_wf
def dot_S4096x240_S240x64_S4096x64_1_0_0_1_n_n : DotDims S4096x240 S240x64 S4096x64 where
  lhsContracting := [1]
  rhsContracting := [0]
  lhsNonContracting := [0]
  rhsNonContracting := [1]
  lhsBatch := []
  rhsBatch := []
  wf := dot_S4096x240_S240x64_S4096x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

abbrev win0_0 : Pipeline.Window sig grid0 :=
  Pipeline.Window.ofSpec (Memref.whole main_v0) S64x64x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x64x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S64x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S64x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S64x16.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S64x16.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7) S64x16.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7) S64x16.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1x16.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S64x240.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v12) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v11) S64x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v13) S1x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v14) S64x64x64.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S1024x1024x16 : Shape := ⟨3, ![1024, 1024, 16]⟩
abbrev S64x240 : Shape := ⟨2, ![64, 240]⟩
abbrev S64 : Shape := ⟨1, ![64]⟩
abbrev S64x64 : Shape := ⟨2, ![64, 64]⟩
abbrev S_ : Shape := ⟨0, ![]⟩
abbrev S16x1024x1024 : Shape := ⟨3, ![16, 1024, 1024]⟩
abbrev S1024 : Shape := ⟨1, ![1024]⟩
abbrev S1024x1 : Shape := ⟨2, ![1024, 1]⟩
abbrev S1024x2 : Shape := ⟨2, ![1024, 2]⟩
abbrev S16x1024 : Shape := ⟨2, ![16, 1024]⟩
abbrev S1024x16 : Shape := ⟨2, ![1024, 16]⟩
abbrev S16 : Shape := ⟨1, ![16]⟩
abbrev S1024x1024 : Shape := ⟨2, ![1024, 1024]⟩
abbrev S1024x1024x1 : Shape := ⟨3, ![1024, 1024, 1]⟩
abbrev S1x1024x16 : Shape := ⟨3, ![1, 1024, 16]⟩
abbrev S1024x1x16 : Shape := ⟨3, ![1024, 1, 16]⟩
abbrev S1x1x16 : Shape := ⟨3, ![1, 1, 16]⟩
abbrev S1024x1024x240 : Shape := ⟨3, ![1024, 1024, 240]⟩
abbrev S1024x1024x64 : Shape := ⟨3, ![1024, 1024, 64]⟩
abbrev S1x1x64 : Shape := ⟨3, ![1, 1, 64]⟩

abbrev nBuf : Space → Nat
  | .hbm => 96
  | .vmem => 0
  | .smem => 0
  | _ => 0

abbrev bufTy : (tb : Table) → Fin (tcTables nBuf tb) → BufTy
  | .hbm, ⟨0, _⟩ => ⟨S1024x1024x16, .f32⟩
  | .hbm, ⟨1, _⟩ => ⟨S1024x1024x16, .i1⟩
  | .hbm, ⟨2, _⟩ => ⟨S64x240, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S_, .f32⟩
  | .hbm, ⟨7, _⟩ => ⟨S1024x1024x16, .f32⟩
  | .hbm, ⟨8, _⟩ => ⟨S1024x1024x16, .f32⟩
  | .hbm, ⟨9, _⟩ => ⟨S16x1024x1024, .f32⟩
  | .hbm, ⟨10, _⟩ => ⟨S1024, .i32⟩
  | .hbm, ⟨11, _⟩ => ⟨S1024, .i32⟩
  | .hbm, ⟨12, _⟩ => ⟨S_, .i32⟩
  | .hbm, ⟨13, _⟩ => ⟨S1024, .i32⟩
  | .hbm, ⟨14, _⟩ => ⟨S1024, .i1⟩
  | .hbm, ⟨15, _⟩ => ⟨S_, .i32⟩
  | .hbm, ⟨16, _⟩ => ⟨S1024, .i32⟩
  | .hbm, ⟨17, _⟩ => ⟨S1024, .i32⟩
  | .hbm, ⟨18, _⟩ => ⟨S1024, .i32⟩
  | .hbm, ⟨19, _⟩ => ⟨S_, .i32⟩
  | .hbm, ⟨20, _⟩ => ⟨S1024, .i32⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S1024x1, .i32⟩
  | .hbm, ⟨28, _⟩ => ⟨S1024x2, .i32⟩
  | .hbm, ⟨29, _⟩ => ⟨S16x1024, .f32⟩
  | .hbm, ⟨30, _⟩ => ⟨S1024x16, .f32⟩
  | .hbm, ⟨31, _⟩ => ⟨S_, .f32⟩
  | .hbm, ⟨32, _⟩ => ⟨S16, .f32⟩
  | .hbm, ⟨33, _⟩ => ⟨S_, .f32⟩
  | .hbm, ⟨34, _⟩ => ⟨S1024x16, .f32⟩
  | .hbm, ⟨35, _⟩ => ⟨S_, .f32⟩
  | .hbm, ⟨36, _⟩ => ⟨S1024x16, .f32⟩
  | .hbm, ⟨37, _⟩ => ⟨S_, .f32⟩
  | .hbm, ⟨38, _⟩ => ⟨S16, .f32⟩
  | .hbm, ⟨39, _⟩ => ⟨S1024x1024, .i32⟩
  | .hbm, ⟨40, _⟩ => ⟨S1024x1024, .i32⟩
  | .hbm, ⟨41, _⟩ => ⟨S_, .i32⟩
  | .hbm, ⟨42, _⟩ => ⟨S1024x1024, .i32⟩
  | .hbm, ⟨43, _⟩ => ⟨S1024x1024, .i32⟩
  | .hbm, ⟨44, _⟩ => ⟨S1024x1024, .i1⟩
  | .hbm, ⟨45, _⟩ => ⟨S1024x1024, .f32⟩
  | .hbm, ⟨46, _⟩ => ⟨S1024x1024x1, .f32⟩
  | .hbm, ⟨47, _⟩ => ⟨S1x1024x16, .f32⟩
  | .hbm, ⟨48, _⟩ => ⟨S1024x1024x16, .f32⟩
  | .hbm, ⟨49, _⟩ => ⟨S1024x1024x16, .f32⟩
  | .hbm, ⟨50, _⟩ => ⟨S1024x1024x16, .f32⟩
  | .hbm, ⟨51, _⟩ => ⟨S1x1024x16, .f32⟩
  | .hbm, ⟨52, _⟩ => ⟨S1024x1024x16, .f32⟩
  | .hbm, ⟨53, _⟩ => ⟨S1024x1x16, .f32⟩
  | .hbm, ⟨54, _⟩ => ⟨S1024x1024x16, .f32⟩
  | .hbm, ⟨55, _⟩ => ⟨S1x1024x16, .f32⟩
  | .hbm, ⟨56, _⟩ => ⟨S1024x1024x16, .f32⟩
  | .hbm, ⟨57, _⟩ => ⟨S1024x1024x16, .f32⟩
  | .hbm, ⟨58, _⟩ => ⟨S1024x1024x16, .f32⟩
  | .hbm, ⟨59, _⟩ => ⟨S1x1024x16, .f32⟩
  | .hbm, ⟨60, _⟩ => ⟨S1024x1024x16, .f32⟩
  | .hbm, ⟨61, _⟩ => ⟨S1024x1024x16, .f32⟩
  | .hbm, ⟨62, _⟩ => ⟨S1024x1024x16, .f32⟩
  | .hbm, ⟨63, _⟩ => ⟨S1x1x16, .f32⟩
  | .hbm, ⟨64, _⟩ => ⟨S1024x1024x16, .f32⟩
  | .hbm, ⟨65, _⟩ => ⟨S1024x1024x16, .f32⟩
  | .hbm, ⟨66, _⟩ => ⟨S1024x1024x16, .f32⟩
  | .hbm, ⟨67, _⟩ => ⟨S1024x1024x16, .f32⟩
  | .hbm, ⟨68, _⟩ => ⟨S1x1x16, .f32⟩
  | .hbm, ⟨69, _⟩ => ⟨S1024x1024x16, .f32⟩
  | .hbm, ⟨70, _⟩ => ⟨S1x1024x16, .f32⟩
  | .hbm, ⟨71, _⟩ => ⟨S1024x1024x16, .f32⟩
  | .hbm, ⟨72, _⟩ => ⟨S1x1024x16, .f32⟩
  | .hbm, ⟨73, _⟩ => ⟨S1024x1024x16, .f32⟩
  | .hbm, ⟨74, _⟩ => ⟨S1x1x16, .f32⟩
  | .hbm, ⟨75, _⟩ => ⟨S1024x1024x16, .f32⟩
  | .hbm, ⟨76, _⟩ => ⟨S1024x1024x16, .f32⟩
  | .hbm, ⟨77, _⟩ => ⟨S1024x1024x16, .f32⟩
  | .hbm, ⟨78, _⟩ => ⟨S1024x1x16, .f32⟩
  | .hbm, ⟨79, _⟩ => ⟨S1024x1024x16, .f32⟩
  | .hbm, ⟨80, _⟩ => ⟨S1024x1x16, .f32⟩
  | .hbm, ⟨81, _⟩ => ⟨S1024x1024x16, .f32⟩
  | .hbm, ⟨82, _⟩ => ⟨S1x1x16, .f32⟩
  | .hbm, ⟨83, _⟩ => ⟨S1024x1024x16, .f32⟩
  | .hbm, ⟨84, _⟩ => ⟨S1024x1024x240, .f32⟩
  | .hbm, ⟨85, _⟩ => ⟨S1024x1024x64, .f32⟩
  | .hbm, ⟨86, _⟩ => ⟨S1x1x64, .f32⟩
  | .hbm, ⟨87, _⟩ => ⟨S1024x1024x64, .f32⟩
  | .hbm, ⟨88, _⟩ => ⟨S1024x1024x64, .f32⟩
  | .hbm, ⟨89, _⟩ => ⟨S_, .f32⟩
  | .hbm, ⟨90, _⟩ => ⟨S1024x1024x64, .f32⟩
  | .hbm, ⟨91, _⟩ => ⟨S1024x1024x64, .f32⟩
  | .hbm, ⟨92, _⟩ => ⟨S1024x1024x64, .f32⟩
  | .hbm, ⟨93, _⟩ => ⟨S1x1x64, .f32⟩
  | .hbm, ⟨94, _⟩ => ⟨S1024x1024x64, .f32⟩
  | .hbm, ⟨95, _⟩ => ⟨S1024x1024x64, .f32⟩
  | _, _ => ⟨S1024x1024x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_call0_v0 : Ref sig .tc := ⟨.hbm, 7, rfl⟩
abbrev main_v0 : Ref sig .tc := ⟨.hbm, 8, rfl⟩
abbrev main_call1_v0 : Ref sig .tc := ⟨.hbm, 9, rfl⟩
abbrev main_call1_v1 : Ref sig .tc := ⟨.hbm, 10, rfl⟩
abbrev main_call1_v2 : Ref sig .tc := ⟨.hbm, 11, rfl⟩
abbrev main_call1_c : Ref sig .tc := ⟨.hbm, 12, rfl⟩
abbrev main_call1_v3 : Ref sig .tc := ⟨.hbm, 13, rfl⟩
abbrev main_call1_v4 : Ref sig .tc := ⟨.hbm, 14, rfl⟩
abbrev main_call1_c_0 : Ref sig .tc := ⟨.hbm, 15, rfl⟩
abbrev main_call1_v5 : Ref sig .tc := ⟨.hbm, 16, rfl⟩
abbrev main_call1_v6 : Ref sig .tc := ⟨.hbm, 17, rfl⟩
abbrev main_call1_v7 : Ref sig .tc := ⟨.hbm, 18, rfl⟩
abbrev main_call1_c_1 : Ref sig .tc := ⟨.hbm, 19, rfl⟩
abbrev main_call1_v8 : Ref sig .tc := ⟨.hbm, 20, rfl⟩
abbrev main_call1_v9 : Ref sig .tc := ⟨.hbm, 21, rfl⟩
abbrev main_call1_c_2 : Ref sig .tc := ⟨.hbm, 22, rfl⟩
abbrev main_call1_v10 : Ref sig .tc := ⟨.hbm, 23, rfl⟩
abbrev main_call1_v11 : Ref sig .tc := ⟨.hbm, 24, rfl⟩
abbrev main_call1_v12 : Ref sig .tc := ⟨.hbm, 25, rfl⟩
abbrev main_call1_v13 : Ref sig .tc := ⟨.hbm, 26, rfl⟩
abbrev main_call1_v14 : Ref sig .tc := ⟨.hbm, 27, rfl⟩
abbrev main_call1_v15 : Ref sig .tc := ⟨.hbm, 28, rfl⟩
abbrev main_v1 : Ref sig .tc := ⟨.hbm, 29, rfl⟩
abbrev main_v2 : Ref sig .tc := ⟨.hbm, 30, rfl⟩
abbrev main_cst_0 : Ref sig .tc := ⟨.hbm, 31, rfl⟩
abbrev main_v3 : Ref sig .tc := ⟨.hbm, 32, rfl⟩
abbrev main_cst_1 : Ref sig .tc := ⟨.hbm, 33, rfl⟩
abbrev main_v4 : Ref sig .tc := ⟨.hbm, 34, rfl⟩
abbrev main_cst_2 : Ref sig .tc := ⟨.hbm, 35, rfl⟩
abbrev main_v5 : Ref sig .tc := ⟨.hbm, 36, rfl⟩
abbrev main_cst_3 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_c : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_call2_cst : Ref sig .tc := ⟨.hbm, 89, rfl⟩
abbrev main_call2_v0 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩

abbrev nD : Nat := 1
abbrev τ : Topo := Topo.v7x

variable {F : FTy → Type} [FloatOps F]

class Facts₀ : Prop where
  bcast_S_S1024x1024x16 : S_.BroadcastsInDim S1024x1024x16 (![] : Fin 0 → Fin S1024x1024x16.rank)
  transposes_S1024x1024x16_S16x1024x1024_2_0_1 : S1024x1024x16.Transposes [2, 0, 1] S16x1024x1024
  bcast_S_S1024 : S_.BroadcastsInDim S1024 (![] : Fin 0 → Fin S1024.rank)
  bcast_S1024_S1024x1_0 : S1024.BroadcastsInDim S1024x1 (![0] : Fin 1 → Fin S1024x1.rank)
  concatenates_S1024x1_S1024x1_S1024x2_d1 : Shape.Concatenates [S1024x1, S1024x1] S1024x2 1
  transposes_S16x1024_S1024x16_1_0 : S16x1024.Transposes [1, 0] S1024x16
  reducesTo_S1024x16_S16_d0 : S1024x16.ReducesTo [0] S16
  h_S_ : 0 < S_.numel
  reducesTo_S1024x1024x16_S1024x16_d0 : S1024x1024x16.ReducesTo [0] S1024x16
  reducesTo_S1024x1024x16_S1024x16_d1 : S1024x1024x16.ReducesTo [1] S1024x16
  reducesTo_S1024x1024x16_S16_d0_1 : S1024x1024x16.ReducesTo [0, 1] S16
  bcast_S_S1024x1024 : S_.BroadcastsInDim S1024x1024 (![] : Fin 0 → Fin S1024x1024.rank)
  bcast_S1024x1024_S1024x1024x1_0_1 : S1024x1024.BroadcastsInDim S1024x1024x1 (![0, 1] : Fin 2 → Fin S1024x1024x1.rank)
  bcast_S1024x16_S1x1024x16_1_2 : S1024x16.BroadcastsInDim S1x1024x16 (![1, 2] : Fin 2 → Fin S1x1024x16.rank)
  bcast_S1024x1024x1_S1024x1024x16_0_1_2 : S1024x1024x1.BroadcastsInDim S1024x1024x16 (![0, 1, 2] : Fin 3 → Fin S1024x1024x16.rank)
  bcast_S1x1024x16_S1024x1024x16_0_1_2 : S1x1024x16.BroadcastsInDim S1024x1024x16 (![0, 1, 2] : Fin 3 → Fin S1024x1024x16.rank)
  bcast_S1024x16_S1024x1x16_0_2 : S1024x16.BroadcastsInDim S1024x1x16 (![0, 2] : Fin 2 → Fin S1024x1x16.rank)
  bcast_S1024x1x16_S1024x1024x16_0_1_2 : S1024x1x16.BroadcastsInDim S1024x1024x16 (![0, 1, 2] : Fin 3 → Fin S1024x1024x16.rank)
  bcast_S16_S1x1x16_2 : S16.BroadcastsInDim S1x1x16 (![2] : Fin 1 → Fin S1x1x16.rank)
  bcast_S1x1x16_S1024x1024x16_0_1_2 : S1x1x16.BroadcastsInDim S1024x1024x16 (![0, 1, 2] : Fin 3 → Fin S1024x1024x16.rank)
  transposes_S1024x1024x16_S1024x1024x16_1_0_2 : S1024x1024x16.Transposes [1, 0, 2] S1024x1024x16
  concatenates_S1024x1024x16_S1024x1024x16_S1024x1024x16_S1024x1024x16_S1024x1024x16_S1024x1024x16_S1024x1024x16_S1024x1024x16_S1024x1024x16_S1024x1024x16_S1024x1024x16_S1024x1024x16_S1024x1024x16_S1024x1024x16_S1024x1024x16_S1024x1024x240_d2 : Shape.Concatenates [S1024x1024x16, S1024x1024x16, S1024x1024x16, S1024x1024x16, S1024x1024x16, S1024x1024x16, S1024x1024x16, S1024x1024x16, S1024x1024x16, S1024x1024x16, S1024x1024x16, S1024x1024x16, S1024x1024x16, S1024x1024x16, S1024x1024x16] S1024x1024x240 2
  bcast_S64_S1x1x64_2 : S64.BroadcastsInDim S1x1x64 (![2] : Fin 1 → Fin S1x1x64.rank)
  bcast_S1x1x64_S1024x1024x64_0_1_2 : S1x1x64.BroadcastsInDim S1024x1024x64 (![0, 1, 2] : Fin 3 → Fin S1024x1024x64.rank)
  bcast_S_S1024x1024x64 : S_.BroadcastsInDim S1024x1024x64 (![] : Fin 0 → Fin S1024x1024x64.rank)
  gather_S16x1024x1024_S1024x2_S16x1024_0_12_n_n_12_1_1611_wf : GatherDims.WF S16x1024x1024 S1024x2 S16x1024 [0] [1, 2] [] [1, 2] [] 1 ![16, 1, 1]
  dot_S1024x1024x240_S64x240_S1024x1024x64_2_1_01_0_n_n_wf : DotDims.WF S1024x1024x240 S64x240 S1024x1024x64 [2] [1] [0, 1] [0] [] []
  dot_S1024x1024x64_S64x64_S1024x1024x64_2_1_01_0_n_n_wf : DotDims.WF S1024x1024x64 S64x64 S1024x1024x64 [2] [1] [0, 1] [0] [] []

variable [Facts₀]

def gather_S16x1024x1024_S1024x2_S16x1024_0_12_n_n_12_1_1611 : GatherDims S16x1024x1024 S1024x2 S16x1024 where
  offsetDims := [0]
  collapsedSliceDims := [1, 2]
  operandBatchingDims := []
  startIndicesBatchingDims := []
  startIndexMap := [1, 2]
  indexVectorDim := 1
  sliceSizes := ![16, 1, 1]
  wf := gather_S16x1024x1024_S1024x2_S16x1024_0_12_n_n_12_1_1611_wf
def dot_S1024x1024x240_S64x240_S1024x1024x64_2_1_01_0_n_n : DotDims S1024x1024x240 S64x240 S1024x1024x64 where
  lhsContracting := [2]
  rhsContracting := [1]
  lhsNonContracting := [0, 1]
  rhsNonContracting := [0]
  lhsBatch := []
  rhsBatch := []
  wf := dot_S1024x1024x240_S64x240_S1024x1024x64_2_1_01_0_n_n_wf
def dot_S1024x1024x64_S64x64_S1024x1024x64_2_1_01_0_n_n : DotDims S1024x1024x64 S64x64 S1024x1024x64 where
  lhsContracting := [2]
  rhsContracting := [1]
  lhsNonContracting := [0, 1]
  rhsNonContracting := [0]
  lhsBatch := []
  rhsBatch := []
  wf := dot_S1024x1024x64_S64x64_S1024x1024x64_2_1_01_0_n_n_wf

class Facts : Prop extends Facts₀ where

variable [Facts]
-- ==== Proof.KI.Entry.lean ====
/-
  The program up to its one region. The host operations before the region (five stretches: a constant, the masking,
  a transpose, the diagonal's gather chain, and the sums, reshapes and roundings) leave every TensorCore buffer at the
  fold of those operations over the launch memory; none of them writes an argument. A window's block at a grid
  point is read off its array as the region finds it, and an input window's current staging buffer holds that
  block at every point, fetched there or not.
-/
import proofs.«101839_j68650757259668_2_alg».proof.Proof.Gen.KernelIdeal.Launch
import proofs.«101839_j68650757259668_2_alg».proof.Proof.Gen.KernelIdeal.Points
import Idealize.ShloMosaic.Lib.Pipeline.FrameBody
import Idealize.ShloMosaic.Lib.Pipeline.Frame

set_option maxRecDepth 16384

noncomputable section

namespace Cert.KernelIdeal.Fr

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region-entry contents -/

/-- Core `c`'s TensorCore buffers when the region is entered: after the five stretches of host operations. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- The program up to the region: the stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes,
      StableHlo.TRef.nullary, StableHlo.TRef.unary, StableHlo.TRef.binary, StableHlo.TRef.ternary, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes,
      StableHlo.TRef.nullary, StableHlo.TRef.unary, StableHlo.TRef.binary, StableHlo.TRef.ternary, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes,
      StableHlo.TRef.nullary, StableHlo.TRef.unary, StableHlo.TRef.binary, StableHlo.TRef.ternary, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes,
      StableHlo.TRef.nullary, StableHlo.TRef.unary, StableHlo.TRef.binary, StableHlo.TRef.ternary, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes,
      StableHlo.TRef.nullary, StableHlo.TRef.unary, StableHlo.TRef.binary, StableHlo.TRef.ternary, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes,
      StableHlo.TRef.nullary, StableHlo.TRef.unary, StableHlo.TRef.binary, StableHlo.TRef.ternary, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.KernelIdeal.Fr

end
-- ==== Proof.KI.Body.lean ====
/-
  The kernel body's triple. Called on fifteen whole staging buffers — fourteen inputs at read contents
  x0 … x13 and the output at anything — the body loads every input whole, computes, and stores one value over the
  whole output buffer; it returns every input as it found it and the output holding that value: the stored
  payload of the loaded blocks, which also reads the grid point (through the diagonal's indicator).
-/
import proofs.«101839_j68650757259668_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body loads and stores through -/

abbrev rA : Rect S64x64x16 := Rect.unit (s := S64x64x16) ![0, 0, 0] S64x64x16.size inb_S64x64x16_S64x64x16_0_0_0
abbrev rB : Rect S64x16 := Rect.unit (s := S64x16) ![0, 0] S64x16.size inb_S64x16_S64x16_0_0
abbrev rC : Rect S1x16 := Rect.unit (s := S1x16) ![0, 0] S1x16.size inb_S1x16_S1x16_0_0
abbrev rD : Rect S64x240 := Rect.unit (s := S64x240) ![0, 0] S64x240.size inb_S64x240_S64x240_0_0
abbrev rE : Rect S1x64 := Rect.unit (s := S1x64) ![0, 0] S1x64.size inb_S1x64_S1x64_0_0
abbrev rG : Rect S64x64 := Rect.unit (s := S64x64) ![0, 0] S64x64.size inb_S64x64_S64x64_0_0
abbrev rO : Rect S64x64x64 := Rect.unit (s := S64x64x64) ![0, 0, 0] S64x64x64.size inb_S64x64x64_S64x64x64_0_0_0

/-! ## What the body leaves in the output buffer -/

/-- The value the body stores, as a function of the grid point and of the fourteen input buffers' contents. -/
def stored (i : grid0.Coords) (x0 x1 : Vec F S64x64x16 .f32) (x2 x3 x4 x5 x6 x7 : Vec F S64x16 .f32) (x8 x9 : Vec F S1x16 .f32)
    (x10 : Vec F S64x240 .bf16) (x11 : Vec F S1x64 .f32) (x12 : Vec F S64x64 .bf16) (x13 : Vec F S1x64 .f32) : Vec F S64x64x64 .f32 :=
  k0_pay1
    (k0_pay11 (k0_pay2 (F := F) i) (k0_pay3 (View.ld x0 rA)) (k0_pay4 (View.ld x1 rA)) (k0_pay5 (View.ld x2 rB)) (k0_pay6 (View.ld x3 rB))
      (k0_pay7 (View.ld x4 rB)) (k0_pay8 (View.ld x5 rB)) (k0_pay9 (View.ld x6 rB)) (k0_pay10 (View.ld x7 rB)) (View.ld x8 rC) (View.ld x9 rC))
    (k0_pay12 (View.ld x10 rD)) (k0_pay13 (View.ld x11 rE)) (k0_pay14 (View.ld x12 rG)) (View.ld x13 rE)

/-- The output buffer after the body: its one store, over the whole buffer. -/
def out14 (i : grid0.Coords) (x0 x1 : Vec F S64x64x16 .f32) (x2 x3 x4 x5 x6 x7 : Vec F S64x16 .f32) (x8 x9 : Vec F S1x16 .f32)
    (x10 : Vec F S64x240 .bf16) (x11 : Vec F S1x64 .f32) (x12 : Vec F S64x64 .bf16) (x13 : Vec F S1x64 .f32) : Vec F S64x64x64 .f32 :=
  View.canon [⟨rO, stored i x0 x1 x2 x3 x4 x5 x6 x7 x8 x9 x10 x11 x12 x13⟩]

/-- The one store tiles the buffer, so it covers it. -/
theorem cover14 (p0 : Vec F S64x64x64 .f32) (y : S64x64x64.Idx) :
    ∃ pc ∈ ([⟨rO, p0⟩] : List (View.Piece (Elt F) S64x64x64 .f32)), y ∈ pc.1.set :=
  View.cover_of_tiled [⟨rO, p0⟩] S64x64x64.size (by rfl) y

/-! ## The body's triple -/

set_option maxHeartbeats 4000000 in
theorem sound_kernel (c : Dev nD) (E : Set ℕ) (i : grid0.Coords)
    (arg2 : Memref sig .tc .vmem S64x64x16 .f32) (harg2 : arg2.IsWhole) (arg3 : Memref sig .tc .vmem S64x64x16 .f32) (harg3 : arg3.IsWhole)
    (arg4 : Memref sig .tc .vmem S64x16 .f32) (harg4 : arg4.IsWhole) (arg5 : Memref sig .tc .vmem S64x16 .f32) (harg5 : arg5.IsWhole)
    (arg6 : Memref sig .tc .vmem S64x16 .f32) (harg6 : arg6.IsWhole) (arg7 : Memref sig .tc .vmem S64x16 .f32) (harg7 : arg7.IsWhole)
    (arg8 : Memref sig .tc .vmem S64x16 .f32) (harg8 : arg8.IsWhole) (arg9 : Memref sig .tc .vmem S64x16 .f32) (harg9 : arg9.IsWhole)
    (arg10 : Memref sig .tc .vmem S1x16 .f32) (harg10 : arg10.IsWhole) (arg11 : Memref sig .tc .vmem S1x16 .f32) (harg11 : arg11.IsWhole)
    (arg12 : Memref sig .tc .vmem S64x240 .bf16) (harg12 : arg12.IsWhole) (arg13 : Memref sig .tc .vmem S1x64 .f32) (harg13 : arg13.IsWhole)
    (arg14 : Memref sig .tc .vmem S64x64 .bf16) (harg14 : arg14.IsWhole) (arg15 : Memref sig .tc .vmem S1x64 .f32) (harg15 : arg15.IsWhole)
    (arg16 : Memref sig .tc .vmem S64x64x64 .f32) (harg16 : arg16.IsWhole)
    (x0 x1 : Vec F S64x64x16 .f32) (x2 x3 x4 x5 x6 x7 : Vec F S64x16 .f32) (x8 x9 : Vec F S1x16 .f32)
    (x10 : Vec F S64x240 .bf16) (x11 : Vec F S1x64 .f32) (x12 : Vec F S64x64 .bf16) (x13 : Vec F S1x64 .f32)
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ owns (c : Thread nD τ) arg8 fullShare x6 ∗ owns (c : Thread nD τ) arg9 fullShare x7
        ∗ owns (c : Thread nD τ) arg10 fullShare x8 ∗ owns (c : Thread nD τ) arg11 fullShare x9
        ∗ owns (c : Thread nD τ) arg12 fullShare x10 ∗ owns (c : Thread nD τ) arg13 fullShare x11
        ∗ owns (c : Thread nD τ) arg14 fullShare x12 ∗ owns (c : Thread nD τ) arg15 fullShare x13
        ∗ (∃ d, owns (c : Thread nD τ) arg16 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ owns (c : Thread nD τ) arg8 fullShare x6 ∗ owns (c : Thread nD τ) arg9 fullShare x7
            ∗ owns (c : Thread nD τ) arg10 fullShare x8 ∗ owns (c : Thread nD τ) arg11 fullShare x9
            ∗ owns (c : Thread nD τ) arg12 fullShare x10 ∗ owns (c : Thread nD τ) arg13 fullShare x11
            ∗ owns (c : Thread nD τ) arg14 fullShare x12 ∗ owns (c : Thread nD τ) arg15 fullShare x13
            ∗ owns (c : Thread nD τ) arg16 fullShare (out14 i x0 x1 x2 x3 x4 x5 x6 x7 x8 x9 x10 x11 x12 x13)) -∗ K ⟨⟩))
      ⊢ wp frame (wpE (defs₀ (F := F)) Variants.none c none) E
          (cc0__t2t2_kernel i arg2 harg2 arg3 harg3 arg4 harg4 arg5 harg5 arg6 harg6 arg7 harg7 arg8 harg8 arg9 harg9 arg10 harg10
            arg11 harg11 arg12 harg12 arg13 harg13 arg14 harg14 arg15 harg15 arg16 harg16) K := by
  simp only [cc0__t2t2_kernel_eq_skeleton]; unfold cc0__t2t2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩,
    ⟨%d14, %f14, -, H14⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  exact View.read_writes_eq_canon _ _ _ (cover14 _)

end Cert.KernelIdeal.Fr

end
-- ==== Proof.KI.Data.lean ====
/-
  The frame run of the program: the proof data of its one pipeline, the share of each array at the region's entry, the
  body obligation at a generic grid point, the launch, and the frame claim.

  Three arrays are each staged by TWO input windows (the diagonal, the row sums and the column sums are each read
  once by row block and once by column block). Both windows only read, so the array's full share is dealt between
  them in halves at the entry; every other input array is held at the full share and the output's at the full
  share. The body touches no scratch and no generator state, so the region's invariant is the scoped rest alone.
-/
import proofs.«101839_j68650757259668_2_alg».proof.Proof.KI.Entry
import proofs.«101839_j68650757259668_2_alg».proof.Proof.KI.Body
import Idealize.ShloMosaic.Lib.Pipeline.Launch

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- What the body leaves in the output window's buffer at point `t`: the stored value of the point's input blocks. -/
def outAt (c : Dev nD) (t : Fin cfg0.N) : Vec F S64x64x64 .f32 :=
  out14 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- The proof data on core `c`: the arrays as the region finds them; after the body at point `t` each input's buffer
    at its block and the output's at `outAt`; the invariant the scoped rest; nothing owed; the three twice-staged
    arrays dealt in halves between their two windows, every other array at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => outAt m c t
  Φ _ := Pipeline.scopedRest spec0 c
  q w := match w with
    | ⟨0, _⟩ => fullShare
    | ⟨1, _⟩ => fullShare
    | ⟨2, _⟩ => fullShare.left
    | ⟨3, _⟩ => fullShare.right
    | ⟨4, _⟩ => fullShare.left
    | ⟨5, _⟩ => fullShare.right
    | ⟨6, _⟩ => fullShare.left
    | ⟨7, _⟩ => fullShare.right
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = outAt m c t := by dsimp only [dats]

/-! ## Each input's current staging buffer holds its block at every point, fetched there or not -/

theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl)
    (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl)
    (fun t => by rw [after_9]; unfold Dat.blockOf iblk; rw [A_eq]; try rfl) t d).trans
    (by unfold Dat.fetched Dat.blockOf iblk; rw [A_eq]; try rfl)
theorem before_10 (c : Dev nD) (t : Fin cfg0.N) (d) : (dats m 0 c).before 10 t d = iblk m c 10 t :=
  ((dats m 0 c).before_in_eq_fetched 10 rfl (fun _ => rfl) (fun _ _ _ => rfl)
    (fun t => by rw [after_10]; unfold Dat.blockOf iblk; rw [A_eq]; try rfl) t d).trans
    (by unfold Dat.fetched Dat.blockOf iblk; rw [A_eq]; try rfl)
theorem before_11 (c : Dev nD) (t : Fin cfg0.N) (d) : (dats m 0 c).before 11 t d = iblk m c 11 t :=
  ((dats m 0 c).before_in_eq_fetched 11 rfl (fun _ => rfl) (fun _ _ _ => rfl)
    (fun t => by rw [after_11]; unfold Dat.blockOf iblk; rw [A_eq]; try rfl) t d).trans
    (by unfold Dat.fetched Dat.blockOf iblk; rw [A_eq]; try rfl)
theorem before_12 (c : Dev nD) (t : Fin cfg0.N) (d) : (dats m 0 c).before 12 t d = iblk m c 12 t :=
  ((dats m 0 c).before_in_eq_fetched 12 rfl (fun _ => rfl) (fun _ _ _ => rfl)
    (fun t => by rw [after_12]; unfold Dat.blockOf iblk; rw [A_eq]; try rfl) t d).trans
    (by unfold Dat.fetched Dat.blockOf iblk; rw [A_eq]; try rfl)
theorem before_13 (c : Dev nD) (t : Fin cfg0.N) (d) : (dats m 0 c).before 13 t d = iblk m c 13 t :=
  ((dats m 0 c).before_in_eq_fetched 13 rfl (fun _ => rfl) (fun _ _ _ => rfl)
    (fun t => by rw [after_13]; unfold Dat.blockOf iblk; rw [A_eq]; try rfl) t d).trans
    (by unfold Dat.fetched Dat.blockOf iblk; rw [A_eq]; try rfl)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel c Set.univ (grid0.coords t) _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  unfold outAt
  iexact H14

theorem body_obligation (c : Dev nD) : BodyObligation (dats (F := F) m 0 c) (defs₀ (F := F)) Variants.none () Set.univ := fun t => by
  rw [bigSep_W0, bigSep_W0]
  exact sound_body m c t

end Cert.KernelIdeal.Fr

end
-- ==== Proof.KI.Run.lean ====
/-
  The launch and the frame. The region is entered holding every buffer behind a window's array whole; the three
  arrays that two windows stage are split in halves between those windows, which is what the proof data asks at the
  entry. The run then ends with every array of the pipeline at what the write-backs made of it and every other
  unscoped buffer — the six arguments among them — as the region found it; the host operations before the region
  write no argument, so the arguments end as launched.
-/
import proofs.«101839_j68650757259668_2_alg».proof.Proof.KI.Data

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the entry -/

/-- The twelve distinct buffers behind the fifteen windows' arrays. -/
theorem arr_image : Finset.univ.image (Pipeline.arrRef spec0)
    = ([main_v0, main_v1, main_v3, main_v6, main_v7, main_v5, main_v9, main_v10, main_v12, main_v11, main_v13, main_v14] : List (Ref sig .tc)).toFinset := by
  decide

/-- At the entry each array holds what the region finds. -/
theorem arrAt_zero (c : Dev nD) (w : Fin cfg0.W) : (dats m 0 c).arrAt w 0 = V m c (Pipeline.arrRef spec0 w) := A_eq m c w

theorem share_0 (c : Dev nD) : (dats m 0 c).share 0 = fullShare := by
  unfold Dat.share; dsimp only [dats]; rfl
theorem share_1 (c : Dev nD) : (dats m 0 c).share 1 = fullShare := by
  unfold Dat.share; dsimp only [dats]; rfl
theorem share_2 (c : Dev nD) : (dats m 0 c).share 2 = fullShare.left := by
  unfold Dat.share; dsimp only [dats]; rfl
theorem share_3 (c : Dev nD) : (dats m 0 c).share 3 = fullShare.right := by
  unfold Dat.share; dsimp only [dats]; rfl
theorem share_4 (c : Dev nD) : (dats m 0 c).share 4 = fullShare.left := by
  unfold Dat.share; dsimp only [dats]; rfl
theorem share_5 (c : Dev nD) : (dats m 0 c).share 5 = fullShare.right := by
  unfold Dat.share; dsimp only [dats]; rfl
theorem share_6 (c : Dev nD) : (dats m 0 c).share 6 = fullShare.left := by
  unfold Dat.share; dsimp only [dats]; rfl
theorem share_7 (c : Dev nD) : (dats m 0 c).share 7 = fullShare.right := by
  unfold Dat.share; dsimp only [dats]; rfl
theorem share_8 (c : Dev nD) : (dats m 0 c).share 8 = fullShare := by
  unfold Dat.share; dsimp only [dats]; rfl
theorem share_9 (c : Dev nD) : (dats m 0 c).share 9 = fullShare := by
  unfold Dat.share; dsimp only [dats]; rfl
theorem share_10 (c : Dev nD) : (dats m 0 c).share 10 = fullShare := by
  unfold Dat.share; dsimp only [dats]; rfl
theorem share_11 (c : Dev nD) : (dats m 0 c).share 11 = fullShare := by
  unfold Dat.share; dsimp only [dats]; rfl
theorem share_12 (c : Dev nD) : (dats m 0 c).share 12 = fullShare := by
  unfold Dat.share; dsimp only [dats]; rfl
theorem share_13 (c : Dev nD) : (dats m 0 c).share 13 = fullShare := by
  unfold Dat.share; dsimp only [dats]; rfl
theorem share_14 (c : Dev nD) : (dats m 0 c).share 14 = fullShare := by
  unfold Dat.share; dsimp only [dats]; rfl

/-- The buffers behind the arrays, conjoined one by one. -/
theorem bigSep_arr {M : Type} [URA M] (Φ : Ref sig .tc → sProp M) :
    bigSep (Finset.univ.image (Pipeline.arrRef spec0)) Φ
      = iprop(Φ main_v0 ∗ Φ main_v1 ∗ Φ main_v3 ∗ Φ main_v6 ∗ Φ main_v7 ∗ Φ main_v5 ∗ Φ main_v9 ∗ Φ main_v10 ∗ Φ main_v12 ∗ Φ main_v11 ∗ Φ main_v13 ∗ Φ main_v14) :=
  bigSep_eq_bigSepL_of_eq [main_v0, main_v1, main_v3, main_v6, main_v7, main_v5, main_v9, main_v10, main_v12, main_v11, main_v13, main_v14] arr_image (by decide) Φ

/-- At the entry the proof data's arrays are the buffers behind them, the three twice-staged ones split in halves. -/
theorem hsplit (c : Dev nD) :
    (Pipeline.arrBufs spec0 c (V m c) : sProp 𝕄) ⊢ (dats m 0 c).arrays ((dats m 0 c).arrAt · 0) := by
  unfold Pipeline.arrBufs Dat.arrays
  rw [bigSep_arr, bigSep_W0]
  simp only [View.set_whole, arrAt_zero, share_0, share_1, share_2, share_3, share_4, share_5, share_6, share_7, share_8, share_9, share_10, share_11, share_12, share_13, share_14]
  have h3 : (c.tc.loc main_v3 ↦{fullShare} V m c main_v3 : sProp 𝕄)
      ⊢ iprop((c.tc.loc main_v3 ↦{fullShare.left} V m c main_v3) ∗ (c.tc.loc main_v3 ↦{fullShare.right} V m c main_v3)) :=
    (pointsTo_share (PosShare.mem_left_op_right fullShare)).1
  have h6 : (c.tc.loc main_v6 ↦{fullShare} V m c main_v6 : sProp 𝕄)
      ⊢ iprop((c.tc.loc main_v6 ↦{fullShare.left} V m c main_v6) ∗ (c.tc.loc main_v6 ↦{fullShare.right} V m c main_v6)) :=
    (pointsTo_share (PosShare.mem_left_op_right fullShare)).1
  have h7 : (c.tc.loc main_v7 ↦{fullShare} V m c main_v7 : sProp 𝕄)
      ⊢ iprop((c.tc.loc main_v7 ↦{fullShare.left} V m c main_v7) ∗ (c.tc.loc main_v7 ↦{fullShare.right} V m c main_v7)) :=
    (pointsTo_share (PosShare.mem_left_op_right fullShare)).1
  iintro ⟨H0, H1, H3, H6, H7, H5, H9, H10, H12, H11, H13, H14⟩
  ihave H3 := h3 $$ H3
  icases H3 with ⟨H3a, H3b⟩
  ihave H6 := h6 $$ H6
  icases H6 with ⟨H6a, H6b⟩
  ihave H7 := h7 $$ H7
  icases H7 with ⟨H7a, H7b⟩
  isplitl [H0]; · iexact H0
  isplitl [H1]; · iexact H1
  isplitl [H3a]; · iexact H3a
  isplitl [H3b]; · iexact H3b
  isplitl [H6a]; · iexact H6a
  isplitl [H6b]; · iexact H6b
  isplitl [H7a]; · iexact H7a
  isplitl [H7b]; · iexact H7b
  isplitl [H5]; · iexact H5
  isplitl [H9]; · iexact H9
  isplitl [H10]; · iexact H10
  isplitl [H12]; · iexact H12
  isplitl [H11]; · iexact H11
  isplitl [H13]; · iexact H13
  iexact H14

/-! ## The run and the frame -/

set_option backward.isDefEq.respectTransparency.types false in
/-- Every weakly fair execution of the program terminates, nothing faulting, every array of the pipeline ending at
    what the write-backs made of it and every other unscoped buffer as the region found it. -/
theorem run_main : θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj))
    (hu₀ := .rfl)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr [H]; · iempintro
                       iexact H)
    (hin := fun c => (show iprop(iprop(emp) ∗ Pipeline.scopedRest spec0 c) ⊢ Pipeline.scopedRest spec0 c from by iintro ⟨-, H⟩; iexact H))
    (hout := fun c => (show Pipeline.scopedRest spec0 c ⊢ iprop(iprop(emp) ∗ Pipeline.scopedRest spec0 c) from by
      iintro H; isplitr [H]; · iempintro
      iexact H))
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h => show Pipeline.FramePost cfgs (dats m) 0 (V m) (⟨⟩, s) from fun c => ⟨(h c).1, (h c).2⟩)

/-- The frame: the program runs and its six argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).2 main_arg2 (Pipeline.mem_restRefs_of main_arg2 (by decide) (by decide))).trans (V_main_arg2 m c),
     ((h c).2 main_arg3 (Pipeline.mem_restRefs_of main_arg3 (by decide) (by decide))).trans (V_main_arg3 m c),
     ((h c).2 main_arg4 (Pipeline.mem_restRefs_of main_arg4 (by decide) (by decide))).trans (V_main_arg4 m c),
     ((h c).2 main_arg5 (Pipeline.mem_restRefs_of main_arg5 (by decide) (by decide))).trans (V_main_arg5 m c)⟩) (run_main m ρ)

end Cert.KernelIdeal.Fr

end
-- ==== Proof.Spec.lean ====
/-
  The common specification of the two programs, index by index, on the extended reals.

  At a position (i, j) of the 1024 × 1024 grid of node pairs, the fifteen equivariant basis terms are
  fifteen groups of 16 channels laid side by side (240 features). Each group is one of ten channel vectors
  seen from (i, j) — the diagonal entries at j and at i, the row sums at j and at i, the column sums at j and at i,
  the transposed and the plain masked entry, the trace, the total sum — some of them multiplied by the
  indicator e of the diagonal (e = 1 when i = j, 0 otherwise). `feat` is that feature vector as a function of
  those ingredients; `mlp` is the two-layer map applied to one feature vector: a linear layer (weights W1,
  bias b1), the positive part, a second linear layer (weights W2, bias b2).
-/
import Mathlib.Data.EReal.Basic
import Mathlib.Algebra.BigOperators.Fin

noncomputable section

namespace Cert.Spec

open scoped BigOperators

/-- The diagonal's indicator. -/
def eye (i j : Fin 1024) : EReal := if i = j then 1 else 0

/-- The channel of feature `k`: its position inside its group of 16. -/
def chan (k : Fin 240) : Fin 16 := ⟨k.val % 16, Nat.mod_lt _ (by norm_num)⟩

/-- The 240 features at one position: group `k / 16` at channel `k % 16`.
    `e` the diagonal's indicator there; `dJ dI` the diagonal entries at the column and at the row;
    `rJ rI` the row sums, `cJ cI` the column sums, likewise; `tt tm` the transposed and the plain masked entry;
    `tr` the trace and `tot` the total sum. -/
def feat (e : EReal) (dJ dI rJ rI cJ cI tt tm tr tot : Fin 16 → EReal) (k : Fin 240) : EReal :=
  match k.val / 16 with
  | 0 => e * dJ (chan k)
  | 1 => dJ (chan k)
  | 2 => dI (chan k)
  | 3 => e * rJ (chan k)
  | 4 => e * cJ (chan k)
  | 5 => e * tr (chan k)
  | 6 => tt (chan k)
  | 7 => tm (chan k)
  | 8 => tr (chan k)
  | 9 => rJ (chan k)
  | 10 => cJ (chan k)
  | 11 => e * tot (chan k)
  | 12 => cI (chan k)
  | 13 => rI (chan k)
  | _ => tot (chan k)

/-- The two-layer map on one feature vector, at output channel `o`:
    `∑ h, max (∑ k, x k · W1 h k + b1 h) 0 · W2 o h + b2 o`. -/
def mlp (x : Fin 240 → EReal) (W1 : Fin 64 → Fin 240 → EReal) (b1 : Fin 64 → EReal)
    (W2 : Fin 64 → Fin 64 → EReal) (b2 : Fin 64 → EReal) (o : Fin 64) : EReal :=
  (∑ h : Fin 64, max ((∑ k : Fin 240, x k * W1 h k) + b1 h) 0 * W2 o h) + b2 o

end Cert.Spec

end
-- ==== Proof.KernelFeat.lean ====
/-
  The kernel body's one stored value, read at an index, is the specification applied to the loaded blocks.

  The body loads fourteen whole blocks — the masked entries and their transpose (`64 × 64 × 16`), the diagonal,
  row-sum and column-sum rows at the block's rows and at its columns (`64 × 16` each), the trace and the total
  (`1 × 16`), the two weight matrices and the two bias rows — and builds, for each pair `(p, q)` of the block, fifteen
  groups of 16 channels laid side by side: each group is one of those channel vectors broadcast along the rows, along
  the columns or over the whole block, five of them multiplied by the 0/1 indicator of the grid's diagonal. The
  `64 × 64 × 240` block is read as `4096 × 240` (row `p·64 + q`), multiplied by the transposed first weight matrix,
  the first bias added, the positive part taken, multiplied by the transposed second weight matrix, the second bias
  added, and the `4096 × 64` result read back as `64 × 64 × 64`.

  The steps, each a lemma at literal shapes and coordinates:
  • the indicator block at `(p, q)` (`eye_apply`): 32-bit words `a·64 + p` with `a < 16`, `p < 64` do not wrap;
  • the four broadcast forms at `(p, q, c)` (`alongCols_apply`, `alongRows_apply`, `everywhere_apply`,
    `overChannels_apply`);
  • the fifteen-piece concatenation at feature `k`: piece `k / 16`, channel `k % 16` (`concat15_apply`), hence the
    feature block at row `p·64 + q` (`feat_apply`);
  • the two block products into a zero accumulator as sums over their one contracting axis (`mm1_apply`,
    `mm2_apply`), hence the stored block at `(p, q, o)` as the two-layer map of its feature row (`out_apply`);
  • `payload_apply`: all of it, with each loaded block's format change read through (the extended reals do not round).
-/
import proofs.«101839_j68650757259668_2_alg».proof.Proof.Gen.KernelIdeal.Skeleton
import proofs.«101839_j68650757259668_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelSide

open Cert.KernelIdeal Cert.KernelIdeal.Gen Idealize.ShloMosaic Idealize.ShloMosaic.ValueIdx
open scoped BigOperators

/-- Two words `a·64 + p` and `b·64 + q` with `a, b < 16` and `p, q < 64` are equal exactly when the naturals are:
    nothing wraps below `2^32`. -/
theorem word_eq_iff (a b p q : Nat) (ha : a < 16) (hb : b < 16) (hp : p < 64) (hq : q < 64) :
    (BitVec.ofNat 32 a * 64#32 + BitVec.ofNat 32 p = BitVec.ofNat 32 b * 64#32 + BitVec.ofNat 32 q)
      ↔ a * 64 + p = b * 64 + q := by
  rw [← BitVec.toNat_inj]
  simp only [BitVec.toNat_add, BitVec.toNat_mul, BitVec.toNat_ofNat]
  omega

/-- A one-bit word widened to 32 bits and read as a signed integer is `1` or `0`. -/
theorem bit_toEReal (c : Bool) : ((((BitVec.ofBool c).setWidth 32).toInt : ℝ) : EReal) = if c then 1 else 0 := by
  cases c <;> simp

/-- The indicator block: entry `(p, q)` is `1` when row `(i 0)·64 + p` of the whole grid is column `(i 1)·64 + q`. -/
theorem eye_apply (i : grid0.Coords) (p q : Fin 64) (u : Fin 1) :
    k0_pay2 (F := Ideal) i (ix3 p q u)
      = if (i 0).val * 64 + p.val = (i 1).val * 64 + q.val then (1 : EReal) else 0 := by
  have h0 : (i 0).val < 16 := (i 0).isLt
  have h1 : (i 1).val < 16 := (i 1).isLt
  unfold k0_pay2
  refine (shapeCast_apply _ shapeCasts_S64x64_S64x64x1 (ix3 p q u) (ix2 p q) ?_).trans ?_
  · rw [Shape.rowMajor_val_two, Shape.rowMajor_val_three]
    show p.val * 64 + q.val = (p.val * 64 + q.val) * 1 + u.val
    omega
  · show ((((BitVec.ofBool (BitVec.ofNat 32 (i 0).val * 64#32 + iota .tc S64x64 32 [0] iota_S64x64_d0_w32 (ix2 p q)
        == BitVec.ofNat 32 (i 1).val * 64#32 + iota .tc S64x64 32 [1] iota_S64x64_d1_w32 (ix2 p q))).setWidth 32).toInt : ℝ) : EReal) = _
    rw [iota_single_apply, iota_single_apply, bit_toEReal]
    show (if (BitVec.ofNat 32 (i 0).val * 64#32 + BitVec.ofNat 32 p.val == BitVec.ofNat 32 (i 1).val * 64#32 + BitVec.ofNat 32 q.val) = true then (1 : EReal) else 0) = _
    simp only [beq_iff_eq, word_eq_iff _ _ _ _ h0 h1 p.isLt q.isLt]

section Layout
variable {α : Type}

/-- A `[64, 16]` block laid along the COLUMNS of the `64 × 64` grid of pairs (`[64,16] → [1,64,16] → [64,64,16]`):
    at `(p, q, c)` it reads row `q`. -/
theorem alongCols_apply (y : S64x16.Idx → α) (p q : Fin 64) (c : Fin 16) :
    broadcastTo S64x64x16 (shapeCast S1x64x16 (shapeCast S1x64x16 y shapeCasts_S64x16_S1x64x16) shapeCasts_S1x64x16_S1x64x16)
        broadcasts_S1x64x16_S64x64x16 (ix3 p q c) = y (ix2 q c) := by
  refine (broadcastTo_apply _ broadcasts_S1x64x16_S64x64x16 (ix3 p q c) (ix3 (0 : Fin 1) q c) fun a => ?_).trans ?_
  · match a with
    | ⟨0, _⟩ => rfl
    | ⟨1, _⟩ => rfl
    | ⟨2, _⟩ => rfl
  · rw [shapeCast_self]
    exact shapeCast_ab_1ab_apply y shapeCasts_S64x16_S1x64x16 0 q c

/-- A `[64, 16]` block laid along the ROWS (`[64,16] → [64,1,16] → [64,64,16]`): at `(p, q, c)` it reads row `p`. -/
theorem alongRows_apply (y : S64x16.Idx → α) (p q : Fin 64) (c : Fin 16) :
    broadcastTo S64x64x16 (shapeCast S64x1x16 (shapeCast S64x1x16 y shapeCasts_S64x16_S64x1x16) shapeCasts_S64x1x16_S64x1x16)
        broadcasts_S64x1x16_S64x64x16 (ix3 p q c) = y (ix2 p c) := by
  refine (broadcastTo_apply _ broadcasts_S64x1x16_S64x64x16 (ix3 p q c) (ix3 p (0 : Fin 1) c) fun a => ?_).trans ?_
  · match a with
    | ⟨0, _⟩ => rfl
    | ⟨1, _⟩ => rfl
    | ⟨2, _⟩ => rfl
  · rw [shapeCast_self]
    refine shapeCast_apply y shapeCasts_S64x16_S64x1x16 (ix3 p (0 : Fin 1) c) (ix2 p c) ?_
    rw [Shape.rowMajor_val_two, Shape.rowMajor_val_three]
    show p.val * 16 + c.val = (p.val * 1 + 0) * 16 + c.val
    omega

/-- A `[1, 16]` row laid over the whole grid (`[1,16] → [1,1,16] → [64,64,16]`): at `(p, q, c)` it reads entry `c`. -/
theorem everywhere_apply (y : S1x16.Idx → α) (p q : Fin 64) (c : Fin 16) :
    broadcastTo S64x64x16 (shapeCast S1x1x16 (shapeCast S1x1x16 y shapeCasts_S1x16_S1x1x16) shapeCasts_S1x1x16_S1x1x16)
        broadcasts_S1x1x16_S64x64x16 (ix3 p q c) = y (ix2 (0 : Fin 1) c) := by
  refine (broadcastTo_apply _ broadcasts_S1x1x16_S64x64x16 (ix3 p q c) (ix3 (0 : Fin 1) (0 : Fin 1) c) fun a => ?_).trans ?_
  · match a with
    | ⟨0, _⟩ => rfl
    | ⟨1, _⟩ => rfl
    | ⟨2, _⟩ => rfl
  · rw [shapeCast_self]
    exact shapeCast_ab_1ab_apply y shapeCasts_S1x16_S1x1x16 0 0 c

/-- The indicator block `[64, 64, 1]` laid over the 16 channels: at `(p, q, c)` it reads `(p, q, 0)`. -/
theorem overChannels_apply (e : S64x64x1.Idx → α) (p q : Fin 64) (c : Fin 16) :
    broadcastTo S64x64x16 e broadcasts_S64x64x1_S64x64x16 (ix3 p q c) = e (ix3 p q (0 : Fin 1)) := by
  refine broadcastTo_apply _ broadcasts_S64x64x1_S64x64x16 (ix3 p q c) (ix3 p q (0 : Fin 1)) fun a => ?_
  match a with
  | ⟨0, _⟩ => rfl
  | ⟨1, _⟩ => rfl
  | ⟨2, _⟩ => rfl

end Layout

/-- The first product's dimension numbers: `[4096, 240] × [240, 64]`, one contracting axis. -/
abbrev D1 : DotDims S4096x240 S240x64 S4096x64 := dot_S4096x240_S240x64_S4096x64_1_0_0_1_n_n
/-- The second product's: `[4096, 64] × [64, 64]`. -/
abbrev D2 : DotDims S4096x64 S64x64 S4096x64 := dot_S4096x64_S64x64_S4096x64_1_0_0_1_n_n

/-- The operand indices of the first product at output `j` and contraction index `k`: row `j 0` and column `k` on the
    left, row `k` and column `j 1` on the right. -/
theorem D1_lhs0 (j : S4096x64.Idx) (k : D1.contr.Idx) : (D1.lhsIdx j k 0).val = (j 0).val := by
  unfold DotDims.lhsIdx
  rw [dif_neg (show ¬(0 : Fin S4096x240.rank) ∈ D1.lhsBatch by decide), dif_pos (show (0 : Fin S4096x240.rank) ∈ D1.lhsNonContracting by decide)]
  rfl
theorem D1_lhs1 (j : S4096x64.Idx) (k : D1.contr.Idx) : (D1.lhsIdx j k 1).val = (k ⟨0, by decide⟩).val :=
  D1.lhsIdx_val_of_single rfl j k
theorem D1_rhs0 (j : S4096x64.Idx) (k : D1.contr.Idx) : (D1.rhsIdx j k 0).val = (k ⟨0, by decide⟩).val :=
  D1.rhsIdx_val_of_single rfl j k
theorem D1_rhs1 (j : S4096x64.Idx) (k : D1.contr.Idx) : (D1.rhsIdx j k 1).val = (j 1).val := by
  unfold DotDims.rhsIdx
  rw [dif_neg (show ¬(1 : Fin S240x64.rank) ∈ D1.rhsBatch by decide), dif_pos (show (1 : Fin S240x64.rank) ∈ D1.rhsNonContracting by decide)]
  rfl

/-- The same four coordinates for the second product. -/
theorem D2_lhs0 (j : S4096x64.Idx) (k : D2.contr.Idx) : (D2.lhsIdx j k 0).val = (j 0).val := by
  unfold DotDims.lhsIdx
  rw [dif_neg (show ¬(0 : Fin S4096x64.rank) ∈ D2.lhsBatch by decide), dif_pos (show (0 : Fin S4096x64.rank) ∈ D2.lhsNonContracting by decide)]
  rfl
theorem D2_lhs1 (j : S4096x64.Idx) (k : D2.contr.Idx) : (D2.lhsIdx j k 1).val = (k ⟨0, by decide⟩).val :=
  D2.lhsIdx_val_of_single rfl j k
theorem D2_rhs0 (j : S4096x64.Idx) (k : D2.contr.Idx) : (D2.rhsIdx j k 0).val = (k ⟨0, by decide⟩).val :=
  D2.rhsIdx_val_of_single rfl j k
theorem D2_rhs1 (j : S4096x64.Idx) (k : D2.contr.Idx) : (D2.rhsIdx j k 1).val = (j 1).val := by
  unfold DotDims.rhsIdx
  rw [dif_neg (show ¬(1 : Fin S64x64.rank) ∈ D2.rhsBatch by decide), dif_pos (show (1 : Fin S64x64.rank) ∈ D2.rhsNonContracting by decide)]
  rfl

/-- The first block product into a zero accumulator, at `(r, h)`: the sum over the 240 features of row `r` times column `h`. -/
theorem mm1_apply (A : FVec Ideal S4096x240 .bf16) (B : FVec Ideal S240x64 .bf16) (r : Fin 4096) (h : Fin 64) :
    matmul D1 none A B (constant (F := Ideal) S4096x64 .f32 0x00000000#32) (ix2 r h)
      = ∑ k : Fin 240, A (ix2 r k) * B (ix2 k h) := by
  simp only [matmul]
  rw [Ideal.matmul_constant_zero_apply, ← Equiv.sum_comp (contrEquiv1 D1 240 rfl rfl).symm]
  refine Finset.sum_congr rfl fun k _ => ?_
  have hk := contrEquiv1_symm_val D1 240 rfl rfl k
  have el : D1.lhsIdx (ix2 r h) ((contrEquiv1 D1 240 rfl rfl).symm k) = ix2 r k := funext fun a => Fin.ext (by
    match a with
    | ⟨0, _⟩ => exact D1_lhs0 _ _
    | ⟨1, _⟩ => exact (D1_lhs1 _ _).trans hk)
  have er : D1.rhsIdx (ix2 r h) ((contrEquiv1 D1 240 rfl rfl).symm k) = ix2 k h := funext fun a => Fin.ext (by
    match a with
    | ⟨0, _⟩ => exact (D1_rhs0 _ _).trans hk
    | ⟨1, _⟩ => exact D1_rhs1 _ _)
  rw [el, er]

/-- The second block product into a zero accumulator, at `(r, o)`: the sum over the 64 hidden units. -/
theorem mm2_apply (A : FVec Ideal S4096x64 .bf16) (B : FVec Ideal S64x64 .bf16) (r : Fin 4096) (o : Fin 64) :
    matmul D2 none A B (constant (F := Ideal) S4096x64 .f32 0x00000000#32) (ix2 r o)
      = ∑ h : Fin 64, A (ix2 r h) * B (ix2 h o) := by
  simp only [matmul]
  rw [Ideal.matmul_constant_zero_apply, ← Equiv.sum_comp (contrEquiv1 D2 64 rfl rfl).symm]
  refine Finset.sum_congr rfl fun k _ => ?_
  have hk := contrEquiv1_symm_val D2 64 rfl rfl k
  have el : D2.lhsIdx (ix2 r o) ((contrEquiv1 D2 64 rfl rfl).symm k) = ix2 r k := funext fun a => Fin.ext (by
    match a with
    | ⟨0, _⟩ => exact D2_lhs0 _ _
    | ⟨1, _⟩ => exact (D2_lhs1 _ _).trans hk)
  have er : D2.rhsIdx (ix2 r o) ((contrEquiv1 D2 64 rfl rfl).symm k) = ix2 k o := funext fun a => Fin.ext (by
    match a with
    | ⟨0, _⟩ => exact (D2_rhs0 _ _).trans hk
    | ⟨1, _⟩ => exact D2_rhs1 _ _)
  rw [el, er]

/-- Selection of one of fifteen by its number (the last for every number from 14 on). -/
def sel15 {β : Sort _} (n : Nat) (a0 a1 a2 a3 a4 a5 a6 a7 a8 a9 a10 a11 a12 a13 a14 : β) : β :=
  match n with
  | 0 => a0 | 1 => a1 | 2 => a2 | 3 => a3 | 4 => a4 | 5 => a5 | 6 => a6 | 7 => a7
  | 8 => a8 | 9 => a9 | 10 => a10 | 11 => a11 | 12 => a12 | 13 => a13 | _ => a14

/-- Fifteen blocks of 16 channels laid side by side on the feature axis: feature `k` of the result is channel
    `k % 16` of block `k / 16`. -/
theorem concat15_apply {α : Type} (f0 f1 f2 f3 f4 f5 f6 f7 f8 f9 f10 f11 f12 f13 f14 : S64x64x16.Idx → α)
    (h : Shape.Concatenates (([⟨S64x64x16, f0⟩, ⟨S64x64x16, f1⟩, ⟨S64x64x16, f2⟩, ⟨S64x64x16, f3⟩, ⟨S64x64x16, f4⟩, ⟨S64x64x16, f5⟩, ⟨S64x64x16, f6⟩, ⟨S64x64x16, f7⟩, ⟨S64x64x16, f8⟩, ⟨S64x64x16, f9⟩, ⟨S64x64x16, f10⟩, ⟨S64x64x16, f11⟩, ⟨S64x64x16, f12⟩, ⟨S64x64x16, f13⟩, ⟨S64x64x16, f14⟩] : List ((s : Shape) × (s.Idx → α))).map (·.1)) S64x64x240 2)
    (p q : Fin 64) (k : Fin 240) (n : Nat) (hn : k.val / 16 = n) :
    concatenate S64x64x240 2 [⟨S64x64x16, f0⟩, ⟨S64x64x16, f1⟩, ⟨S64x64x16, f2⟩, ⟨S64x64x16, f3⟩, ⟨S64x64x16, f4⟩, ⟨S64x64x16, f5⟩, ⟨S64x64x16, f6⟩, ⟨S64x64x16, f7⟩, ⟨S64x64x16, f8⟩, ⟨S64x64x16, f9⟩, ⟨S64x64x16, f10⟩, ⟨S64x64x16, f11⟩, ⟨S64x64x16, f12⟩, ⟨S64x64x16, f13⟩, ⟨S64x64x16, f14⟩] h (ix3 p q k)
      = sel15 n f0 f1 f2 f3 f4 f5 f6 f7 f8 f9 f10 f11 f12 f13 f14 (ix3 p q (Cert.Spec.chan k)) := by
  have hk := k.isLt
  have key : ∀ m : Fin 15, k.val / 16 = m.val →
      concatenate S64x64x240 2 [⟨S64x64x16, f0⟩, ⟨S64x64x16, f1⟩, ⟨S64x64x16, f2⟩, ⟨S64x64x16, f3⟩, ⟨S64x64x16, f4⟩, ⟨S64x64x16, f5⟩, ⟨S64x64x16, f6⟩, ⟨S64x64x16, f7⟩, ⟨S64x64x16, f8⟩, ⟨S64x64x16, f9⟩, ⟨S64x64x16, f10⟩, ⟨S64x64x16, f11⟩, ⟨S64x64x16, f12⟩, ⟨S64x64x16, f13⟩, ⟨S64x64x16, f14⟩] h (ix3 p q k)
        = (![f0, f1, f2, f3, f4, f5, f6, f7, f8, f9, f10, f11, f12, f13, f14] m) (ix3 p q (Cert.Spec.chan k)) := fun m hm =>
    concatenate_ofFn_apply (t := S64x64x240) (s₁ := S64x64x16) (2 : Fin 3) ![f0, f1, f2, f3, f4, f5, f6, f7, f8, f9, f10, f11, f12, f13, f14] h rfl 16 rfl (ix3 p q k) m hm (ix3 p q (Cert.Spec.chan k)) rfl
      (fun b => match b with
        | ⟨0, _⟩ => fun _ => rfl
        | ⟨1, _⟩ => fun _ => rfl
        | ⟨2, _⟩ => fun hb => absurd rfl hb)
  have hlt : n < 15 := by omega
  interval_cases n
  · exact key ⟨0, by omega⟩ hn
  · exact key ⟨1, by omega⟩ hn
  · exact key ⟨2, by omega⟩ hn
  · exact key ⟨3, by omega⟩ hn
  · exact key ⟨4, by omega⟩ hn
  · exact key ⟨5, by omega⟩ hn
  · exact key ⟨6, by omega⟩ hn
  · exact key ⟨7, by omega⟩ hn
  · exact key ⟨8, by omega⟩ hn
  · exact key ⟨9, by omega⟩ hn
  · exact key ⟨10, by omega⟩ hn
  · exact key ⟨11, by omega⟩ hn
  · exact key ⟨12, by omega⟩ hn
  · exact key ⟨13, by omega⟩ hn
  · exact key ⟨14, by omega⟩ hn

/-- The feature block at row `r = p·64 + q` of its `4096 × 240` form: the 240 features of the pair `(p, q)`. -/
theorem feat_apply (e : FVec Ideal S64x64x1 .bf16) (y0 y1 : FVec Ideal S64x64x16 .bf16)
    (y2 y3 y4 y5 y6 y7 : FVec Ideal S64x16 .bf16) (x8 x9 : Vec Ideal S1x16 .f32)
    (p q : Fin 64) (r : Fin 4096) (hr : r.val = p.val * 64 + q.val) (k : Fin 240) :
    k0_pay11 (F := Ideal) e y0 y1 y2 y3 y4 y5 y6 y7 x8 x9 (ix2 r k)
      = Cert.Spec.feat (e (ix3 p q (0 : Fin 1)))
          (fun ch => y3 (ix2 q ch)) (fun ch => y2 (ix2 p ch))
          (fun ch => y5 (ix2 q ch)) (fun ch => y4 (ix2 p ch))
          (fun ch => y7 (ix2 q ch)) (fun ch => y6 (ix2 p ch))
          (fun ch => y1 (ix3 p q ch)) (fun ch => y0 (ix3 p q ch))
          (fun ch => x8 (ix2 (0 : Fin 1) ch)) (fun ch => x9 (ix2 (0 : Fin 1) ch)) k := by
  unfold k0_pay11
  refine (shapeCast_apply _ shapeCasts_S64x64x240_S4096x240 (ix2 r k) (ix3 p q k) ?_).trans ?_
  · rw [Shape.rowMajor_val_two, Shape.rowMajor_val_three]
    show (p.val * 64 + q.val) * 240 + k.val = r.val * 240 + k.val
    rw [hr]
  · have hk := k.isLt
    unfold Cert.Spec.feat
    obtain ⟨n, hn⟩ : ∃ n, k.val / 16 = n := ⟨_, rfl⟩
    have hlt : n < 15 := by omega
    refine (concat15_apply _ _ _ _ _ _ _ _ _ _ _ _ _ _ _ _ p q k n hn).trans ?_
    rw [hn]
    interval_cases n
    · exact congrArg₂ (fun a b : EReal => a * b) (overChannels_apply e p q _) (alongCols_apply y3 p q _)
    · exact alongCols_apply y3 p q _
    · exact alongRows_apply y2 p q _
    · exact congrArg₂ (fun a b : EReal => a * b) (overChannels_apply e p q _) (alongCols_apply y5 p q _)
    · exact congrArg₂ (fun a b : EReal => a * b) (overChannels_apply e p q _) (alongCols_apply y7 p q _)
    · exact congrArg₂ (fun a b : EReal => a * b) (overChannels_apply e p q _) ((everywhere_apply _ p q _).trans (congrFun (shapeCast_self x8 _) _))
    · rfl
    · rfl
    · exact (everywhere_apply _ p q _).trans (congrFun (shapeCast_self x8 _) _)
    · exact alongCols_apply y5 p q _
    · exact alongCols_apply y7 p q _
    · exact congrArg₂ (fun a b : EReal => a * b) (overChannels_apply e p q _) ((everywhere_apply _ p q _).trans (congrFun (shapeCast_self x9 _) _))
    · exact alongRows_apply y6 p q _
    · exact alongRows_apply y4 p q _
    · exact (everywhere_apply _ p q _).trans (congrFun (shapeCast_self x9 _) _)

/-- A loaded block passes its format change unchanged: the extended reals do not round. -/
theorem pay3_apply (x : Vec Ideal S64x64x16 .f32) (j : S64x64x16.Idx) : k0_pay3 (F := Ideal) x j = x j := by
  unfold k0_pay3; rw [truncf_apply, shapeCast_self]
theorem pay4_apply (x : Vec Ideal S64x64x16 .f32) (j : S64x64x16.Idx) : k0_pay4 (F := Ideal) x j = x j := by
  unfold k0_pay4; rw [truncf_apply, shapeCast_self]
theorem pay5_apply (x : Vec Ideal S64x16 .f32) (j : S64x16.Idx) : k0_pay5 (F := Ideal) x j = x j := by
  unfold k0_pay5; rw [truncf_apply, shapeCast_self]
theorem pay6_apply (x : Vec Ideal S64x16 .f32) (j : S64x16.Idx) : k0_pay6 (F := Ideal) x j = x j := by
  unfold k0_pay6; rw [truncf_apply, shapeCast_self]
theorem pay7_apply (x : Vec Ideal S64x16 .f32) (j : S64x16.Idx) : k0_pay7 (F := Ideal) x j = x j := by
  unfold k0_pay7; rw [truncf_apply, shapeCast_self]
theorem pay8_apply (x : Vec Ideal S64x16 .f32) (j : S64x16.Idx) : k0_pay8 (F := Ideal) x j = x j := by
  unfold k0_pay8; rw [truncf_apply, shapeCast_self]
theorem pay9_apply (x : Vec Ideal S64x16 .f32) (j : S64x16.Idx) : k0_pay9 (F := Ideal) x j = x j := by
  unfold k0_pay9; rw [truncf_apply, shapeCast_self]
theorem pay10_apply (x : Vec Ideal S64x16 .f32) (j : S64x16.Idx) : k0_pay10 (F := Ideal) x j = x j := by
  unfold k0_pay10; rw [truncf_apply, shapeCast_self]
theorem pay12_apply (x : Vec Ideal S64x240 .bf16) (j : S64x240.Idx) : k0_pay12 (F := Ideal) x j = x j := by
  unfold k0_pay12; rw [shapeCast_self]
theorem pay13_apply (x : Vec Ideal S1x64 .f32) (j : S1x64.Idx) : k0_pay13 (F := Ideal) x j = x j := by
  unfold k0_pay13; rw [shapeCast_self]
theorem pay14_apply (x : Vec Ideal S64x64 .bf16) (j : S64x64.Idx) : k0_pay14 (F := Ideal) x j = x j := by
  unfold k0_pay14; rw [shapeCast_self]

/-- The stored block at `(p, q, o)`: the two-layer map applied to row `r = p·64 + q` of the feature block. Both products
    are against the transposed weights, into a zero accumulator; the bias rows are broadcast down the 4096 rows. -/
theorem out_apply (X : FVec Ideal S4096x240 .bf16) (W1 : FVec Ideal S64x240 .bf16) (b1 : FVec Ideal S1x64 .f32)
    (W2 : FVec Ideal S64x64 .bf16) (b2 : Vec Ideal S1x64 .f32) (p q o : Fin 64) (r : Fin 4096)
    (hr : r.val = p.val * 64 + q.val) :
    k0_pay1 (F := Ideal) X W1 b1 W2 b2 (ix3 p q o)
      = Cert.Spec.mlp (fun k => X (ix2 r k)) (fun h k => W1 (ix2 h k)) (fun h => b1 (ix2 (0 : Fin 1) h))
          (fun o' h => W2 (ix2 o' h)) (fun o' => b2 (ix2 (0 : Fin 1) o')) o := by
  unfold k0_pay1 Cert.Spec.mlp
  refine (shapeCast_apply _ shapeCasts_S4096x64_S64x64x64 (ix3 p q o) (ix2 r o) ?_).trans ?_
  · rw [Shape.rowMajor_val_two, Shape.rowMajor_val_three]
    show r.val * 64 + o.val = (p.val * 64 + q.val) * 64 + o.val
    rw [hr]
  · rw [addf_apply, mm2_apply, broadcastTo_1b_ab_apply, shapeCast_self]
    congr 1
    refine Finset.sum_congr rfl fun h _ => ?_
    rw [transpose_ix2_apply, truncf_apply, maximumf_apply, addf_apply, mm1_apply, broadcastTo_1b_ab_apply, broadcast_apply]
    have hz : (FloatOps.ofBits (F := Ideal) FTy.f32 0x00000000#32) = (0 : EReal) := Ideal.ofBits_zero_f32
    have hs : (∑ k : Fin 240, X (ix2 r k) * transpose S240x64 [1, 0] W1 transposes_S64x240_p1_0_S240x64 (ix2 k h))
        = ∑ k : Fin 240, X (ix2 r k) * W1 (ix2 h k) :=
      Finset.sum_congr rfl fun k _ => by rw [transpose_ix2_apply]
    rw [hz, hs]

/-- **The kernel body's stored value at an index.** With each load replaced by its block, entry `(p, q, o)` of the one
    stored block is the two-layer map applied to the 240 features of the pair `(p, q)`: the ten channel vectors seen
    from `(p, q)` — diagonal, row-sum and column-sum rows at the column `q` and at the row `p`, the transposed and the
    plain masked entry, the trace and the total — five of them also multiplied by the indicator of the grid's diagonal,
    which at grid point `i` is `1` exactly when `(i 0)·64 + p = (i 1)·64 + q`. -/
theorem payload_apply (i : grid0.Coords)
    (x0 x1 : Vec Ideal S64x64x16 .f32) (x2 x3 x4 x5 x6 x7 : Vec Ideal S64x16 .f32) (x8 x9 : Vec Ideal S1x16 .f32)
    (x10 : Vec Ideal S64x240 .bf16) (x11 : Vec Ideal S1x64 .f32) (x12 : Vec Ideal S64x64 .bf16) (x13 : Vec Ideal S1x64 .f32)
    (p q o : Fin 64) :
    k0_pay1 (F := Ideal)
        (k0_pay11 (k0_pay2 (F := Ideal) i) (k0_pay3 x0) (k0_pay4 x1) (k0_pay5 x2) (k0_pay6 x3) (k0_pay7 x4) (k0_pay8 x5) (k0_pay9 x6) (k0_pay10 x7) x8 x9)
        (k0_pay12 x10) (k0_pay13 x11) (k0_pay14 x12) x13 (ix3 p q o)
      = Cert.Spec.mlp
          (Cert.Spec.feat (if (i 0).val * 64 + p.val = (i 1).val * 64 + q.val then (1 : EReal) else 0)
            (fun ch => x3 (ix2 q ch)) (fun ch => x2 (ix2 p ch))
            (fun ch => x5 (ix2 q ch)) (fun ch => x4 (ix2 p ch))
            (fun ch => x7 (ix2 q ch)) (fun ch => x6 (ix2 p ch))
            (fun ch => x1 (ix3 p q ch)) (fun ch => x0 (ix3 p q ch))
            (fun ch => x8 (ix2 0 ch)) (fun ch => x9 (ix2 0 ch)))
          (fun h k => x10 (ix2 h k)) (fun h => x11 (ix2 0 h)) (fun o' h => x12 (ix2 o' h)) (fun o' => x13 (ix2 0 o')) o := by
  have hp := p.isLt
  have hq := q.isLt
  have hr : (⟨p.val * 64 + q.val, by omega⟩ : Fin 4096).val = p.val * 64 + q.val := rfl
  refine (out_apply _ _ _ _ _ p q o ⟨p.val * 64 + q.val, by omega⟩ hr).trans ?_
  simp only [feat_apply _ _ _ _ _ _ _ _ _ _ _ p q _ hr, eye_apply, pay3_apply, pay4_apply, pay5_apply, pay6_apply,
    pay7_apply, pay8_apply, pay9_apply, pay10_apply, pay12_apply, pay13_apply, pay14_apply]

end Cert.KernelSide
end
-- ==== Proof.KI.Value.lean ====
/-
  The kernel program's result array, index by index, in terms of the arrays the region finds. Point (a, b) of the
  16 × 16 grid writes back the 64 × 64 × 64 block at rows a·64 …, columns b·64 … of the result; its entry (p, q, o) is
  the two-layer map of the 240 features the body builds from the fourteen blocks it loaded, and each of those blocks
  is the block of a region-entry array at rows a·64 + p or columns b·64 + q (or the whole of a small array). So every
  entry (i, j, o) of the result is the two-layer map of the features of the region-entry arrays at (i, j); the blocks
  tile the result, so this holds of the whole array.
-/
import proofs.«101839_j68650757259668_2_alg».proof.Proof.KI.Run
import proofs.«101839_j68650757259668_2_alg».proof.Proof.KernelFeat
import proofs.«101839_j68650757259668_2_alg».proof.Proof.Spec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

/-- The printed index maps, decided over the grid: the two big inputs and the output move with both grid
    coordinates, the "I" windows with the first, the "J" windows with the second, the small ones not at all. -/
theorem idx_facts : ∀ t : Fin cfg0.N,
    (grid0.coords t 0).val < 16 ∧ (grid0.coords t 1).val < 16
    ∧ win0_14.index t (0 : Fin 3) = (grid0.coords t 0).val ∧ win0_14.index t (1 : Fin 3) = (grid0.coords t 1).val ∧ win0_14.index t (2 : Fin 3) = 0
    ∧ win0_0.index t (0 : Fin 3) = (grid0.coords t 0).val ∧ win0_0.index t (1 : Fin 3) = (grid0.coords t 1).val ∧ win0_0.index t (2 : Fin 3) = 0
    ∧ win0_1.index t (0 : Fin 3) = (grid0.coords t 0).val ∧ win0_1.index t (1 : Fin 3) = (grid0.coords t 1).val ∧ win0_1.index t (2 : Fin 3) = 0
    ∧ win0_2.index t (0 : Fin 2) = (grid0.coords t 0).val ∧ win0_2.index t (1 : Fin 2) = 0
    ∧ win0_3.index t (0 : Fin 2) = (grid0.coords t 1).val ∧ win0_3.index t (1 : Fin 2) = 0
    ∧ win0_4.index t (0 : Fin 2) = (grid0.coords t 0).val ∧ win0_4.index t (1 : Fin 2) = 0
    ∧ win0_5.index t (0 : Fin 2) = (grid0.coords t 1).val ∧ win0_5.index t (1 : Fin 2) = 0
    ∧ win0_6.index t (0 : Fin 2) = (grid0.coords t 0).val ∧ win0_6.index t (1 : Fin 2) = 0
    ∧ win0_7.index t (0 : Fin 2) = (grid0.coords t 1).val ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0 :=
  (by decide +kernel : ∀ t : Fin grid0.N, _)

/-- Every block of the result is some point's. -/
theorem idx_onto : ∀ (q0 q1 : Fin 16), ∃ t : Fin cfg0.N, win0_14.index t = ![q0.val, q1.val, 0] :=
  (by decide +kernel : ∀ (q0 q1 : Fin 16), ∃ t : Fin grid0.N, win0_14.index t = ![q0.val, q1.val, 0])

theorem hz3 : (![0, 0, 0] : Fin 3 → Nat) = fun _ => 0 := funext fun a => by fin_cases a <;> rfl
theorem hz2 : (![0, 0] : Fin 2 → Nat) = fun _ => 0 := funext fun a => by fin_cases a <;> rfl

/-! ## Each loaded block is a block of a region-entry array -/

theorem read0 (c : Dev nD) (t : Fin cfg0.N) (p q : Fin 64) (ch : Fin 16) (I J : Fin 1024)
    (h0 : win0_0.index t (0 : Fin 3) * 64 + p.val = I.val) (h1 : win0_0.index t (1 : Fin 3) * 64 + q.val = J.val)
    (h2 : win0_0.index t (2 : Fin 3) = 0) :
    iblk m c 0 t (ix3 p q ch) = V m c main_v0 (ix3 I J ch) := by
  unfold iblk
  show V m c main_v0 (((cfg0.win 0).blk t).view.emb (ix3 p q ch)) = _
  refine congrArg _ ?_
  funext a; apply Fin.ext
  match a with
  | ⟨0, _⟩ => show win0_0.index t (0 : Fin 3) * 64 + 1 * p.val = I.val; omega
  | ⟨1, _⟩ => show win0_0.index t (1 : Fin 3) * 64 + 1 * q.val = J.val; omega
  | ⟨2, _⟩ => show win0_0.index t (2 : Fin 3) * 16 + 1 * ch.val = ch.val; omega
theorem read1 (c : Dev nD) (t : Fin cfg0.N) (p q : Fin 64) (ch : Fin 16) (I J : Fin 1024)
    (h0 : win0_1.index t (0 : Fin 3) * 64 + p.val = I.val) (h1 : win0_1.index t (1 : Fin 3) * 64 + q.val = J.val)
    (h2 : win0_1.index t (2 : Fin 3) = 0) :
    iblk m c 1 t (ix3 p q ch) = V m c main_v1 (ix3 I J ch) := by
  unfold iblk
  show V m c main_v1 (((cfg0.win 1).blk t).view.emb (ix3 p q ch)) = _
  refine congrArg _ ?_
  funext a; apply Fin.ext
  match a with
  | ⟨0, _⟩ => show win0_1.index t (0 : Fin 3) * 64 + 1 * p.val = I.val; omega
  | ⟨1, _⟩ => show win0_1.index t (1 : Fin 3) * 64 + 1 * q.val = J.val; omega
  | ⟨2, _⟩ => show win0_1.index t (2 : Fin 3) * 16 + 1 * ch.val = ch.val; omega
theorem read2 (c : Dev nD) (t : Fin cfg0.N) (u : Fin 64) (v : Fin 16) (U : Fin 1024)
    (h0 : win0_2.index t (0 : Fin 2) * 64 + u.val = U.val) (h1 : win0_2.index t (1 : Fin 2) = 0) :
    iblk m c 2 t (ix2 u v) = V m c main_v3 (ix2 U v) := by
  unfold iblk
  show V m c main_v3 (((cfg0.win 2).blk t).view.emb (ix2 u v)) = _
  refine congrArg _ ?_
  funext a; apply Fin.ext
  match a with
  | ⟨0, _⟩ => show win0_2.index t (0 : Fin 2) * 64 + 1 * u.val = U.val; omega
  | ⟨1, _⟩ => show win0_2.index t (1 : Fin 2) * 16 + 1 * v.val = v.val; omega
theorem read3 (c : Dev nD) (t : Fin cfg0.N) (u : Fin 64) (v : Fin 16) (U : Fin 1024)
    (h0 : win0_3.index t (0 : Fin 2) * 64 + u.val = U.val) (h1 : win0_3.index t (1 : Fin 2) = 0) :
    iblk m c 3 t (ix2 u v) = V m c main_v3 (ix2 U v) := by
  unfold iblk
  show V m c main_v3 (((cfg0.win 3).blk t).view.emb (ix2 u v)) = _
  refine congrArg _ ?_
  funext a; apply Fin.ext
  match a with
  | ⟨0, _⟩ => show win0_3.index t (0 : Fin 2) * 64 + 1 * u.val = U.val; omega
  | ⟨1, _⟩ => show win0_3.index t (1 : Fin 2) * 16 + 1 * v.val = v.val; omega
theorem read4 (c : Dev nD) (t : Fin cfg0.N) (u : Fin 64) (v : Fin 16) (U : Fin 1024)
    (h0 : win0_4.index t (0 : Fin 2) * 64 + u.val = U.val) (h1 : win0_4.index t (1 : Fin 2) = 0) :
    iblk m c 4 t (ix2 u v) = V m c main_v6 (ix2 U v) := by
  unfold iblk
  show V m c main_v6 (((cfg0.win 4).blk t).view.emb (ix2 u v)) = _
  refine congrArg _ ?_
  funext a; apply Fin.ext
  match a with
  | ⟨0, _⟩ => show win0_4.index t (0 : Fin 2) * 64 + 1 * u.val = U.val; omega
  | ⟨1, _⟩ => show win0_4.index t (1 : Fin 2) * 16 + 1 * v.val = v.val; omega
theorem read5 (c : Dev nD) (t : Fin cfg0.N) (u : Fin 64) (v : Fin 16) (U : Fin 1024)
    (h0 : win0_5.index t (0 : Fin 2) * 64 + u.val = U.val) (h1 : win0_5.index t (1 : Fin 2) = 0) :
    iblk m c 5 t (ix2 u v) = V m c main_v6 (ix2 U v) := by
  unfold iblk
  show V m c main_v6 (((cfg0.win 5).blk t).view.emb (ix2 u v)) = _
  refine congrArg _ ?_
  funext a; apply Fin.ext
  match a with
  | ⟨0, _⟩ => show win0_5.index t (0 : Fin 2) * 64 + 1 * u.val = U.val; omega
  | ⟨1, _⟩ => show win0_5.index t (1 : Fin 2) * 16 + 1 * v.val = v.val; omega
theorem read6 (c : Dev nD) (t : Fin cfg0.N) (u : Fin 64) (v : Fin 16) (U : Fin 1024)
    (h0 : win0_6.index t (0 : Fin 2) * 64 + u.val = U.val) (h1 : win0_6.index t (1 : Fin 2) = 0) :
    iblk m c 6 t (ix2 u v) = V m c main_v7 (ix2 U v) := by
  unfold iblk
  show V m c main_v7 (((cfg0.win 6).blk t).view.emb (ix2 u v)) = _
  refine congrArg _ ?_
  funext a; apply Fin.ext
  match a with
  | ⟨0, _⟩ => show win0_6.index t (0 : Fin 2) * 64 + 1 * u.val = U.val; omega
  | ⟨1, _⟩ => show win0_6.index t (1 : Fin 2) * 16 + 1 * v.val = v.val; omega
theorem read7 (c : Dev nD) (t : Fin cfg0.N) (u : Fin 64) (v : Fin 16) (U : Fin 1024)
    (h0 : win0_7.index t (0 : Fin 2) * 64 + u.val = U.val) (h1 : win0_7.index t (1 : Fin 2) = 0) :
    iblk m c 7 t (ix2 u v) = V m c main_v7 (ix2 U v) := by
  unfold iblk
  show V m c main_v7 (((cfg0.win 7).blk t).view.emb (ix2 u v)) = _
  refine congrArg _ ?_
  funext a; apply Fin.ext
  match a with
  | ⟨0, _⟩ => show win0_7.index t (0 : Fin 2) * 64 + 1 * u.val = U.val; omega
  | ⟨1, _⟩ => show win0_7.index t (1 : Fin 2) * 16 + 1 * v.val = v.val; omega
theorem read8 (c : Dev nD) (t : Fin cfg0.N) (u : Fin 1) (v : Fin 16) (U : Fin 1)
    (h0 : win0_8.index t (0 : Fin 2) * 1 + u.val = U.val) (h1 : win0_8.index t (1 : Fin 2) = 0) :
    iblk m c 8 t (ix2 u v) = V m c main_v5 (ix2 U v) := by
  unfold iblk
  show V m c main_v5 (((cfg0.win 8).blk t).view.emb (ix2 u v)) = _
  refine congrArg _ ?_
  funext a; apply Fin.ext
  match a with
  | ⟨0, _⟩ => show win0_8.index t (0 : Fin 2) * 1 + 1 * u.val = U.val; omega
  | ⟨1, _⟩ => show win0_8.index t (1 : Fin 2) * 16 + 1 * v.val = v.val; omega
theorem read9 (c : Dev nD) (t : Fin cfg0.N) (u : Fin 1) (v : Fin 16) (U : Fin 1)
    (h0 : win0_9.index t (0 : Fin 2) * 1 + u.val = U.val) (h1 : win0_9.index t (1 : Fin 2) = 0) :
    iblk m c 9 t (ix2 u v) = V m c main_v9 (ix2 U v) := by
  unfold iblk
  show V m c main_v9 (((cfg0.win 9).blk t).view.emb (ix2 u v)) = _
  refine congrArg _ ?_
  funext a; apply Fin.ext
  match a with
  | ⟨0, _⟩ => show win0_9.index t (0 : Fin 2) * 1 + 1 * u.val = U.val; omega
  | ⟨1, _⟩ => show win0_9.index t (1 : Fin 2) * 16 + 1 * v.val = v.val; omega
theorem read10 (c : Dev nD) (t : Fin cfg0.N) (u : Fin 64) (v : Fin 240) (U : Fin 64)
    (h0 : win0_10.index t (0 : Fin 2) * 64 + u.val = U.val) (h1 : win0_10.index t (1 : Fin 2) = 0) :
    iblk m c 10 t (ix2 u v) = V m c main_v10 (ix2 U v) := by
  unfold iblk
  show V m c main_v10 (((cfg0.win 10).blk t).view.emb (ix2 u v)) = _
  refine congrArg _ ?_
  funext a; apply Fin.ext
  match a with
  | ⟨0, _⟩ => show win0_10.index t (0 : Fin 2) * 64 + 1 * u.val = U.val; omega
  | ⟨1, _⟩ => show win0_10.index t (1 : Fin 2) * 240 + 1 * v.val = v.val; omega
theorem read11 (c : Dev nD) (t : Fin cfg0.N) (u : Fin 1) (v : Fin 64) (U : Fin 1)
    (h0 : win0_11.index t (0 : Fin 2) * 1 + u.val = U.val) (h1 : win0_11.index t (1 : Fin 2) = 0) :
    iblk m c 11 t (ix2 u v) = V m c main_v12 (ix2 U v) := by
  unfold iblk
  show V m c main_v12 (((cfg0.win 11).blk t).view.emb (ix2 u v)) = _
  refine congrArg _ ?_
  funext a; apply Fin.ext
  match a with
  | ⟨0, _⟩ => show win0_11.index t (0 : Fin 2) * 1 + 1 * u.val = U.val; omega
  | ⟨1, _⟩ => show win0_11.index t (1 : Fin 2) * 64 + 1 * v.val = v.val; omega
theorem read12 (c : Dev nD) (t : Fin cfg0.N) (u : Fin 64) (v : Fin 64) (U : Fin 64)
    (h0 : win0_12.index t (0 : Fin 2) * 64 + u.val = U.val) (h1 : win0_12.index t (1 : Fin 2) = 0) :
    iblk m c 12 t (ix2 u v) = V m c main_v11 (ix2 U v) := by
  unfold iblk
  show V m c main_v11 (((cfg0.win 12).blk t).view.emb (ix2 u v)) = _
  refine congrArg _ ?_
  funext a; apply Fin.ext
  match a with
  | ⟨0, _⟩ => show win0_12.index t (0 : Fin 2) * 64 + 1 * u.val = U.val; omega
  | ⟨1, _⟩ => show win0_12.index t (1 : Fin 2) * 64 + 1 * v.val = v.val; omega
theorem read13 (c : Dev nD) (t : Fin cfg0.N) (u : Fin 1) (v : Fin 64) (U : Fin 1)
    (h0 : win0_13.index t (0 : Fin 2) * 1 + u.val = U.val) (h1 : win0_13.index t (1 : Fin 2) = 0) :
    iblk m c 13 t (ix2 u v) = V m c main_v13 (ix2 U v) := by
  unfold iblk
  show V m c main_v13 (((cfg0.win 13).blk t).view.emb (ix2 u v)) = _
  refine congrArg _ ?_
  funext a; apply Fin.ext
  match a with
  | ⟨0, _⟩ => show win0_13.index t (0 : Fin 2) * 1 + 1 * u.val = U.val; omega
  | ⟨1, _⟩ => show win0_13.index t (1 : Fin 2) * 64 + 1 * v.val = v.val; omega

/-- An entry of point `t`'s output block sits in the result at the block's rows and columns. -/
theorem emb14 (t : Fin cfg0.N) (p q o : Fin 64) (I J : Fin 1024)
    (h0 : win0_14.index t (0 : Fin 3) * 64 + p.val = I.val) (h1 : win0_14.index t (1 : Fin 3) * 64 + q.val = J.val)
    (h2 : win0_14.index t (2 : Fin 3) = 0) :
    ((cfg0.win 14).blk t).view.emb (ix3 p q o) = ix3 I J o := by
  funext a; apply Fin.ext
  match a with
  | ⟨0, _⟩ => show win0_14.index t (0 : Fin 3) * 64 + 1 * p.val = I.val; omega
  | ⟨1, _⟩ => show win0_14.index t (1 : Fin 3) * 64 + 1 * q.val = J.val; omega
  | ⟨2, _⟩ => show win0_14.index t (2 : Fin 3) * 64 + 1 * o.val = o.val; omega

/-! ## The result's entries, of the region-entry arrays -/

/-- Entry (i, j, o) of the result: the two-layer map of the features of the region-entry arrays at (i, j). -/
def entryK (c : Dev nD) (i j : Fin 1024) (o : Fin 64) : EReal :=
  Cert.Spec.mlp
    (Cert.Spec.feat (Cert.Spec.eye i j)
      (fun ch => V m c main_v3 (ix2 j ch)) (fun ch => V m c main_v3 (ix2 i ch))
      (fun ch => V m c main_v6 (ix2 j ch)) (fun ch => V m c main_v6 (ix2 i ch))
      (fun ch => V m c main_v7 (ix2 j ch)) (fun ch => V m c main_v7 (ix2 i ch))
      (fun ch => V m c main_v1 (ix3 i j ch)) (fun ch => V m c main_v0 (ix3 i j ch))
      (fun ch => V m c main_v5 (ix2 0 ch)) (fun ch => V m c main_v9 (ix2 0 ch)))
    (fun h k => V m c main_v10 (ix2 h k)) (fun h => V m c main_v12 (ix2 0 h))
    (fun o' h => V m c main_v11 (ix2 o' h)) (fun o' => V m c main_v13 (ix2 0 o')) o

/-- The whole result array. -/
def arrK (c : Dev nD) : Buf (Elt Ideal) ((c : Thread nD τ).loc main_v14) :=
  fun idx => entryK m c (idx 0) (idx 1) (idx 2)

set_option maxHeartbeats 1000000 in
/-- What point `t` writes back is block `t` of the result array. -/
theorem flushed_eq (c : Dev nD) (t : Fin cfg0.N) :
    (dats m 0 c).flushed 14 t = ((cfg0.win 14).blk t).view.read (Elt Ideal) (arrK m c) := by
  show (cfg0.win 14).cut (grid0.coords t) ((dats m 0 c).after 14 t) = _
  rw [after_14]
  unfold outAt out14
  rw [View.canon_unit_zero hz3]
  unfold stored
  simp only [View.ld_unit_zero (S := S64x64x16) hz3, View.ld_unit_zero (S := S64x16) hz2, View.ld_unit_zero (S := S1x16) hz2,
    View.ld_unit_zero (S := S64x240) hz2, View.ld_unit_zero (S := S1x64) hz2, View.ld_unit_zero (S := S64x64) hz2]
  funext y
  obtain ⟨p, q, o, rfl⟩ : ∃ (p q o : Fin 64), y = ix3 p q o := ⟨y 0, y 1, y 2, eq_ix3 y⟩
  obtain ⟨ha, hb, e14_0, e14_1, e14_2, e0_0, e0_1, e0_2, e1_0, e1_1, e1_2, e2_0, e2_1, e3_0, e3_1, e4_0, e4_1, e5_0, e5_1,
    e6_0, e6_1, e7_0, e7_1, e8_0, e8_1, e9_0, e9_1, e10_0, e10_1, e11_0, e11_1, e12_0, e12_1, e13_0, e13_1⟩ := idx_facts t
  -- the entry's place in the whole array
  obtain ⟨I, hI⟩ : ∃ I : Fin 1024, I.val = (grid0.coords t 0).val * 64 + p.val :=
    ⟨⟨(grid0.coords t 0).val * 64 + p.val, by have := p.isLt; omega⟩, rfl⟩
  obtain ⟨J, hJ⟩ : ∃ J : Fin 1024, J.val = (grid0.coords t 1).val * 64 + q.val :=
    ⟨⟨(grid0.coords t 1).val * 64 + q.val, by have := q.isLt; omega⟩, rfl⟩
  show k0_pay1 (F := Ideal) _ _ _ _ _ (ix3 p q o) = arrK m c (((cfg0.win 14).blk t).view.emb (ix3 p q o))
  rw [emb14 t p q o I J (by omega) (by omega) e14_2]
  show _ = entryK m c I J o
  refine (Cert.KernelSide.payload_apply (grid0.coords t) (iblk m c 0 t) (iblk m c 1 t) (iblk m c 2 t) (iblk m c 3 t) (iblk m c 4 t)
    (iblk m c 5 t) (iblk m c 6 t) (iblk m c 7 t) (iblk m c 8 t) (iblk m c 9 t) (iblk m c 10 t) (iblk m c 11 t) (iblk m c 12 t)
    (iblk m c 13 t) p q o).trans ?_
  unfold entryK
  have hE : (if (grid0.coords t 0).val * 64 + p.val = (grid0.coords t 1).val * 64 + q.val then (1 : EReal) else 0) = Cert.Spec.eye I J := by
    unfold Cert.Spec.eye
    simp only [Fin.ext_iff, hI, hJ]
  have g0 : (fun ch : Fin 16 => iblk m c 0 t (ix3 p q ch)) = fun ch => V m c main_v0 (ix3 I J ch) :=
    funext fun ch => read0 m c t p q ch I J (by omega) (by omega) e0_2
  have g1 : (fun ch : Fin 16 => iblk m c 1 t (ix3 p q ch)) = fun ch => V m c main_v1 (ix3 I J ch) :=
    funext fun ch => read1 m c t p q ch I J (by omega) (by omega) e1_2
  have g2 : (fun ch : Fin 16 => iblk m c 2 t (ix2 p ch)) = fun ch => V m c main_v3 (ix2 I ch) :=
    funext fun ch => read2 m c t p ch I (by omega) e2_1
  have g3 : (fun ch : Fin 16 => iblk m c 3 t (ix2 q ch)) = fun ch => V m c main_v3 (ix2 J ch) :=
    funext fun ch => read3 m c t q ch J (by omega) e3_1
  have g4 : (fun ch : Fin 16 => iblk m c 4 t (ix2 p ch)) = fun ch => V m c main_v6 (ix2 I ch) :=
    funext fun ch => read4 m c t p ch I (by omega) e4_1
  have g5 : (fun ch : Fin 16 => iblk m c 5 t (ix2 q ch)) = fun ch => V m c main_v6 (ix2 J ch) :=
    funext fun ch => read5 m c t q ch J (by omega) e5_1
  have g6 : (fun ch : Fin 16 => iblk m c 6 t (ix2 p ch)) = fun ch => V m c main_v7 (ix2 I ch) :=
    funext fun ch => read6 m c t p ch I (by omega) e6_1
  have g7 : (fun ch : Fin 16 => iblk m c 7 t (ix2 q ch)) = fun ch => V m c main_v7 (ix2 J ch) :=
    funext fun ch => read7 m c t q ch J (by omega) e7_1
  have g8 : (fun ch : Fin 16 => iblk m c 8 t (ix2 0 ch)) = fun ch => V m c main_v5 (ix2 0 ch) :=
    funext fun ch => read8 m c t 0 ch 0 (by simp [e8_0]) e8_1
  have g9 : (fun ch : Fin 16 => iblk m c 9 t (ix2 0 ch)) = fun ch => V m c main_v9 (ix2 0 ch) :=
    funext fun ch => read9 m c t 0 ch 0 (by simp [e9_0]) e9_1
  have g10 : (fun (h : Fin 64) (k : Fin 240) => iblk m c 10 t (ix2 h k)) = fun h k => V m c main_v10 (ix2 h k) :=
    funext fun h => funext fun k => read10 m c t h k h (by omega) e10_1
  have g11 : (fun h : Fin 64 => iblk m c 11 t (ix2 0 h)) = fun h => V m c main_v12 (ix2 0 h) :=
    funext fun h => read11 m c t 0 h 0 (by simp [e11_0]) e11_1
  have g12 : (fun (o' h : Fin 64) => iblk m c 12 t (ix2 o' h)) = fun o' h => V m c main_v11 (ix2 o' h) :=
    funext fun o' => funext fun h => read12 m c t o' h o' (by omega) e12_1
  have g13 : (fun o' : Fin 64 => iblk m c 13 t (ix2 0 o')) = fun o' => V m c main_v13 (ix2 0 o') :=
    funext fun o' => read13 m c t 0 o' 0 (by simp [e13_0]) e13_1
  rw [hE, g0, g1, g2, g3, g4, g5, g6, g7, g8, g9, g10, g11, g12, g13]

/-! ## The blocks tile the result -/

/-- An index of the result is in point `t`'s block iff each coordinate is in the block's range on its axis. -/
theorem mem_blk (t : Fin cfg0.N) (i : S1024x1024x64.Idx) :
    i ∈ ((cfg0.win 14).blk t).view.set ↔ ∀ a : Fin 3, win0_14.index t a * S64x64x64.size a ≤ (i a).val ∧ (i a).val < win0_14.index t a * S64x64x64.size a + S64x64x64.size a := by
  show i ∈ ((View.whole main_v14).slice (win0_14.rect t)).set ↔ _
  rw [View.set_slice_whole, Rect.mem_set_unit]
  exact Iff.rfl

/-- Every index of the result is in the block of the point at its row block and column block. -/
theorem cover (i : S1024x1024x64.Idx) :
    ∃ t : Fin cfg0.N, (cfg0.win 14).flush t = true ∧ i ∈ ((cfg0.win 14).blk t).view.set := by
  have hi0 : (i 0).val < 1024 := (i 0).isLt
  have hi1 : (i 1).val < 1024 := (i 1).isLt
  have hi2 : (i 2).val < 64 := (i 2).isLt
  obtain ⟨t, ht⟩ := idx_onto ⟨(i 0).val / 64, by omega⟩ ⟨(i 1).val / 64, by omega⟩
  have q0 : win0_14.index t (0 : Fin 3) = (i 0).val / 64 := congrFun ht 0
  have q1 : win0_14.index t (1 : Fin 3) = (i 1).val / 64 := congrFun ht 1
  have q2 : win0_14.index t (2 : Fin 3) = 0 := congrFun ht 2
  refine ⟨t, flush0_14 t, ?_⟩
  rw [mem_blk]
  intro a
  match a with
  | ⟨0, _⟩ => show win0_14.index t (0 : Fin 3) * 64 ≤ (i 0).val ∧ (i 0).val < win0_14.index t (0 : Fin 3) * 64 + 64; omega
  | ⟨1, _⟩ => show win0_14.index t (1 : Fin 3) * 64 ≤ (i 1).val ∧ (i 1).val < win0_14.index t (1 : Fin 3) * 64 + 64; omega
  | ⟨2, _⟩ => show win0_14.index t (2 : Fin 3) * 64 ≤ (i 2).val ∧ (i 2).val < win0_14.index t (2 : Fin 3) * 64 + 64; omega

/-- The result array after the run. -/
theorem final (c : Dev nD) : (dats m 0 c).arrAt 14 cfg0.N = arrK m c :=
  (dats m 0 c).arrAt_eq_of_cover 14 (arrK m c) (fun t _ => flushed_eq m c t) cover

/-! ## The run, read -/

/-- The frame run re-posted: the result array at `arrK`, the six arguments unchanged. -/
theorem run : θ_run defs (onTc (τ := τ) (main (F := Ideal))) ⟨m, fun _ => 0, ρ⟩ fun r => ∀ c : Dev nD,
      r.2.mem ((c.tc : Thread nD τ).loc main_v14) = arrK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨((h c).1 14).trans (final m c),
     ((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).2 main_arg2 (Pipeline.mem_restRefs_of main_arg2 (by decide) (by decide))).trans (V_main_arg2 m c),
     ((h c).2 main_arg3 (Pipeline.mem_restRefs_of main_arg3 (by decide) (by decide))).trans (V_main_arg3 m c),
     ((h c).2 main_arg4 (Pipeline.mem_restRefs_of main_arg4 (by decide) (by decide))).trans (V_main_arg4 m c),
     ((h c).2 main_arg5 (Pipeline.mem_restRefs_of main_arg5 (by decide) (by decide))).trans (V_main_arg5 m c)⟩) (run_main m ρ)

end Cert.KernelIdeal.Val

end
-- ==== Proof.KB.Entry.lean ====
/-
  The program up to its one region. The host operations before the region (five stretches: a constant, the masking,
  a transpose, the diagonal's gather chain, and the sums, reshapes and roundings) leave every TensorCore buffer at the
  fold of those operations over the launch memory; none of them writes an argument. A window's block at a grid
  point is read off its array as the region finds it, and an input window's current staging buffer holds that
  block at every point, fetched there or not.
-/
import proofs.«101839_j68650757259668_2_alg».proof.Proof.Gen.Kernel.Launch
import proofs.«101839_j68650757259668_2_alg».proof.Proof.Gen.Kernel.Points
import Idealize.ShloMosaic.Lib.Pipeline.FrameBody
import Idealize.ShloMosaic.Lib.Pipeline.Frame

set_option maxRecDepth 16384

noncomputable section

namespace Cert.Kernel.Fr

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region-entry contents -/

/-- Core `c`'s TensorCore buffers when the region is entered: after the five stretches of host operations. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- The program up to the region: the stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes,
      StableHlo.TRef.nullary, StableHlo.TRef.unary, StableHlo.TRef.binary, StableHlo.TRef.ternary, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes,
      StableHlo.TRef.nullary, StableHlo.TRef.unary, StableHlo.TRef.binary, StableHlo.TRef.ternary, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes,
      StableHlo.TRef.nullary, StableHlo.TRef.unary, StableHlo.TRef.binary, StableHlo.TRef.ternary, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes,
      StableHlo.TRef.nullary, StableHlo.TRef.unary, StableHlo.TRef.binary, StableHlo.TRef.ternary, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes,
      StableHlo.TRef.nullary, StableHlo.TRef.unary, StableHlo.TRef.binary, StableHlo.TRef.ternary, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes,
      StableHlo.TRef.nullary, StableHlo.TRef.unary, StableHlo.TRef.binary, StableHlo.TRef.ternary, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.Kernel.Fr

end
-- ==== Proof.KB.Body.lean ====
/-
  The kernel body's triple. Called on fifteen whole staging buffers — fourteen inputs at read contents
  x0 … x13 and the output at anything — the body loads every input whole, computes, and stores one value over the
  whole output buffer; it returns every input as it found it and the output holding that value: the stored
  payload of the loaded blocks, which also reads the grid point (through the diagonal's indicator).
-/
import proofs.«101839_j68650757259668_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body loads and stores through -/

abbrev rA : Rect S64x64x16 := Rect.unit (s := S64x64x16) ![0, 0, 0] S64x64x16.size inb_S64x64x16_S64x64x16_0_0_0
abbrev rB : Rect S64x16 := Rect.unit (s := S64x16) ![0, 0] S64x16.size inb_S64x16_S64x16_0_0
abbrev rC : Rect S1x16 := Rect.unit (s := S1x16) ![0, 0] S1x16.size inb_S1x16_S1x16_0_0
abbrev rD : Rect S64x240 := Rect.unit (s := S64x240) ![0, 0] S64x240.size inb_S64x240_S64x240_0_0
abbrev rE : Rect S1x64 := Rect.unit (s := S1x64) ![0, 0] S1x64.size inb_S1x64_S1x64_0_0
abbrev rG : Rect S64x64 := Rect.unit (s := S64x64) ![0, 0] S64x64.size inb_S64x64_S64x64_0_0
abbrev rO : Rect S64x64x64 := Rect.unit (s := S64x64x64) ![0, 0, 0] S64x64x64.size inb_S64x64x64_S64x64x64_0_0_0

/-! ## What the body leaves in the output buffer -/

/-- The value the body stores, as a function of the grid point and of the fourteen input buffers' contents. -/
def stored (i : grid0.Coords) (x0 x1 : Vec F S64x64x16 .f32) (x2 x3 x4 x5 x6 x7 : Vec F S64x16 .f32) (x8 x9 : Vec F S1x16 .f32)
    (x10 : Vec F S64x240 .bf16) (x11 : Vec F S1x64 .f32) (x12 : Vec F S64x64 .bf16) (x13 : Vec F S1x64 .f32) : Vec F S64x64x64 .f32 :=
  k0_pay1
    (k0_pay11 (k0_pay2 (F := F) i) (k0_pay3 (View.ld x0 rA)) (k0_pay4 (View.ld x1 rA)) (k0_pay5 (View.ld x2 rB)) (k0_pay6 (View.ld x3 rB))
      (k0_pay7 (View.ld x4 rB)) (k0_pay8 (View.ld x5 rB)) (k0_pay9 (View.ld x6 rB)) (k0_pay10 (View.ld x7 rB)) (View.ld x8 rC) (View.ld x9 rC))
    (k0_pay12 (View.ld x10 rD)) (k0_pay13 (View.ld x11 rE)) (k0_pay14 (View.ld x12 rG)) (View.ld x13 rE)

/-- The output buffer after the body: its one store, over the whole buffer. -/
def out14 (i : grid0.Coords) (x0 x1 : Vec F S64x64x16 .f32) (x2 x3 x4 x5 x6 x7 : Vec F S64x16 .f32) (x8 x9 : Vec F S1x16 .f32)
    (x10 : Vec F S64x240 .bf16) (x11 : Vec F S1x64 .f32) (x12 : Vec F S64x64 .bf16) (x13 : Vec F S1x64 .f32) : Vec F S64x64x64 .f32 :=
  View.canon [⟨rO, stored i x0 x1 x2 x3 x4 x5 x6 x7 x8 x9 x10 x11 x12 x13⟩]

/-- The one store tiles the buffer, so it covers it. -/
theorem cover14 (p0 : Vec F S64x64x64 .f32) (y : S64x64x64.Idx) :
    ∃ pc ∈ ([⟨rO, p0⟩] : List (View.Piece (Elt F) S64x64x64 .f32)), y ∈ pc.1.set :=
  View.cover_of_tiled [⟨rO, p0⟩] S64x64x64.size (by rfl) y

/-! ## The body's triple -/

set_option maxHeartbeats 4000000 in
theorem sound_kernel (c : Dev nD) (E : Set ℕ) (i : grid0.Coords)
    (arg2 : Memref sig .tc .vmem S64x64x16 .f32) (harg2 : arg2.IsWhole) (arg3 : Memref sig .tc .vmem S64x64x16 .f32) (harg3 : arg3.IsWhole)
    (arg4 : Memref sig .tc .vmem S64x16 .f32) (harg4 : arg4.IsWhole) (arg5 : Memref sig .tc .vmem S64x16 .f32) (harg5 : arg5.IsWhole)
    (arg6 : Memref sig .tc .vmem S64x16 .f32) (harg6 : arg6.IsWhole) (arg7 : Memref sig .tc .vmem S64x16 .f32) (harg7 : arg7.IsWhole)
    (arg8 : Memref sig .tc .vmem S64x16 .f32) (harg8 : arg8.IsWhole) (arg9 : Memref sig .tc .vmem S64x16 .f32) (harg9 : arg9.IsWhole)
    (arg10 : Memref sig .tc .vmem S1x16 .f32) (harg10 : arg10.IsWhole) (arg11 : Memref sig .tc .vmem S1x16 .f32) (harg11 : arg11.IsWhole)
    (arg12 : Memref sig .tc .vmem S64x240 .bf16) (harg12 : arg12.IsWhole) (arg13 : Memref sig .tc .vmem S1x64 .f32) (harg13 : arg13.IsWhole)
    (arg14 : Memref sig .tc .vmem S64x64 .bf16) (harg14 : arg14.IsWhole) (arg15 : Memref sig .tc .vmem S1x64 .f32) (harg15 : arg15.IsWhole)
    (arg16 : Memref sig .tc .vmem S64x64x64 .f32) (harg16 : arg16.IsWhole)
    (x0 x1 : Vec F S64x64x16 .f32) (x2 x3 x4 x5 x6 x7 : Vec F S64x16 .f32) (x8 x9 : Vec F S1x16 .f32)
    (x10 : Vec F S64x240 .bf16) (x11 : Vec F S1x64 .f32) (x12 : Vec F S64x64 .bf16) (x13 : Vec F S1x64 .f32)
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ owns (c : Thread nD τ) arg8 fullShare x6 ∗ owns (c : Thread nD τ) arg9 fullShare x7
        ∗ owns (c : Thread nD τ) arg10 fullShare x8 ∗ owns (c : Thread nD τ) arg11 fullShare x9
        ∗ owns (c : Thread nD τ) arg12 fullShare x10 ∗ owns (c : Thread nD τ) arg13 fullShare x11
        ∗ owns (c : Thread nD τ) arg14 fullShare x12 ∗ owns (c : Thread nD τ) arg15 fullShare x13
        ∗ (∃ d, owns (c : Thread nD τ) arg16 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ owns (c : Thread nD τ) arg8 fullShare x6 ∗ owns (c : Thread nD τ) arg9 fullShare x7
            ∗ owns (c : Thread nD τ) arg10 fullShare x8 ∗ owns (c : Thread nD τ) arg11 fullShare x9
            ∗ owns (c : Thread nD τ) arg12 fullShare x10 ∗ owns (c : Thread nD τ) arg13 fullShare x11
            ∗ owns (c : Thread nD τ) arg14 fullShare x12 ∗ owns (c : Thread nD τ) arg15 fullShare x13
            ∗ owns (c : Thread nD τ) arg16 fullShare (out14 i x0 x1 x2 x3 x4 x5 x6 x7 x8 x9 x10 x11 x12 x13)) -∗ K ⟨⟩))
      ⊢ wp frame (wpE (defs₀ (F := F)) Variants.none c none) E
          (cc0__t2t2_kernel i arg2 harg2 arg3 harg3 arg4 harg4 arg5 harg5 arg6 harg6 arg7 harg7 arg8 harg8 arg9 harg9 arg10 harg10
            arg11 harg11 arg12 harg12 arg13 harg13 arg14 harg14 arg15 harg15 arg16 harg16) K := by
  simp only [cc0__t2t2_kernel_eq_skeleton]; unfold cc0__t2t2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩,
    ⟨%d14, %f14, -, H14⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  exact View.read_writes_eq_canon _ _ _ (cover14 _)

end Cert.Kernel.Fr

end
-- ==== Proof.KB.Data.lean ====
/-
  The frame run of the program: the proof data of its one pipeline, the share of each array at the region's entry, the
  body obligation at a generic grid point, the launch, and the frame claim.

  Three arrays are each staged by TWO input windows (the diagonal, the row sums and the column sums are each read
  once by row block and once by column block). Both windows only read, so the array's full share is dealt between
  them in halves at the entry; every other input array is held at the full share and the output's at the full
  share. The body touches no scratch and no generator state, so the region's invariant is the scoped rest alone.
-/
import proofs.«101839_j68650757259668_2_alg».proof.Proof.KB.Entry
import proofs.«101839_j68650757259668_2_alg».proof.Proof.KB.Body
import Idealize.ShloMosaic.Lib.Pipeline.Launch

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- What the body leaves in the output window's buffer at point `t`: the stored value of the point's input blocks. -/
def outAt (c : Dev nD) (t : Fin cfg0.N) : Vec F S64x64x64 .f32 :=
  out14 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- The proof data on core `c`: the arrays as the region finds them; after the body at point `t` each input's buffer
    at its block and the output's at `outAt`; the invariant the scoped rest; nothing owed; the three twice-staged
    arrays dealt in halves between their two windows, every other array at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => outAt m c t
  Φ _ := Pipeline.scopedRest spec0 c
  q w := match w with
    | ⟨0, _⟩ => fullShare
    | ⟨1, _⟩ => fullShare
    | ⟨2, _⟩ => fullShare.left
    | ⟨3, _⟩ => fullShare.right
    | ⟨4, _⟩ => fullShare.left
    | ⟨5, _⟩ => fullShare.right
    | ⟨6, _⟩ => fullShare.left
    | ⟨7, _⟩ => fullShare.right
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = outAt m c t := by dsimp only [dats]

/-! ## Each input's current staging buffer holds its block at every point, fetched there or not -/

theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl)
    (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl)
    (fun t => by rw [after_9]; unfold Dat.blockOf iblk; rw [A_eq]; try rfl) t d).trans
    (by unfold Dat.fetched Dat.blockOf iblk; rw [A_eq]; try rfl)
theorem before_10 (c : Dev nD) (t : Fin cfg0.N) (d) : (dats m 0 c).before 10 t d = iblk m c 10 t :=
  ((dats m 0 c).before_in_eq_fetched 10 rfl (fun _ => rfl) (fun _ _ _ => rfl)
    (fun t => by rw [after_10]; unfold Dat.blockOf iblk; rw [A_eq]; try rfl) t d).trans
    (by unfold Dat.fetched Dat.blockOf iblk; rw [A_eq]; try rfl)
theorem before_11 (c : Dev nD) (t : Fin cfg0.N) (d) : (dats m 0 c).before 11 t d = iblk m c 11 t :=
  ((dats m 0 c).before_in_eq_fetched 11 rfl (fun _ => rfl) (fun _ _ _ => rfl)
    (fun t => by rw [after_11]; unfold Dat.blockOf iblk; rw [A_eq]; try rfl) t d).trans
    (by unfold Dat.fetched Dat.blockOf iblk; rw [A_eq]; try rfl)
theorem before_12 (c : Dev nD) (t : Fin cfg0.N) (d) : (dats m 0 c).before 12 t d = iblk m c 12 t :=
  ((dats m 0 c).before_in_eq_fetched 12 rfl (fun _ => rfl) (fun _ _ _ => rfl)
    (fun t => by rw [after_12]; unfold Dat.blockOf iblk; rw [A_eq]; try rfl) t d).trans
    (by unfold Dat.fetched Dat.blockOf iblk; rw [A_eq]; try rfl)
theorem before_13 (c : Dev nD) (t : Fin cfg0.N) (d) : (dats m 0 c).before 13 t d = iblk m c 13 t :=
  ((dats m 0 c).before_in_eq_fetched 13 rfl (fun _ => rfl) (fun _ _ _ => rfl)
    (fun t => by rw [after_13]; unfold Dat.blockOf iblk; rw [A_eq]; try rfl) t d).trans
    (by unfold Dat.fetched Dat.blockOf iblk; rw [A_eq]; try rfl)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel c Set.univ (grid0.coords t) _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  unfold outAt
  iexact H14

theorem body_obligation (c : Dev nD) : BodyObligation (dats (F := F) m 0 c) (defs₀ (F := F)) Variants.none () Set.univ := fun t => by
  rw [bigSep_W0, bigSep_W0]
  exact sound_body m c t

end Cert.Kernel.Fr

end
-- ==== Proof.KB.Run.lean ====
/-
  The launch and the frame. The region is entered holding every buffer behind a window's array whole; the three
  arrays that two windows stage are split in halves between those windows, which is what the proof data asks at the
  entry. The run then ends with every array of the pipeline at what the write-backs made of it and every other
  unscoped buffer — the six arguments among them — as the region found it; the host operations before the region
  write no argument, so the arguments end as launched.
-/
import proofs.«101839_j68650757259668_2_alg».proof.Proof.KB.Data

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the entry -/

/-- The twelve distinct buffers behind the fifteen windows' arrays. -/
theorem arr_image : Finset.univ.image (Pipeline.arrRef spec0)
    = ([main_v0, main_v1, main_v3, main_v6, main_v7, main_v5, main_v9, main_v10, main_v12, main_v11, main_v13, main_v14] : List (Ref sig .tc)).toFinset := by
  decide

/-- At the entry each array holds what the region finds. -/
theorem arrAt_zero (c : Dev nD) (w : Fin cfg0.W) : (dats m 0 c).arrAt w 0 = V m c (Pipeline.arrRef spec0 w) := A_eq m c w

theorem share_0 (c : Dev nD) : (dats m 0 c).share 0 = fullShare := by
  unfold Dat.share; dsimp only [dats]; rfl
theorem share_1 (c : Dev nD) : (dats m 0 c).share 1 = fullShare := by
  unfold Dat.share; dsimp only [dats]; rfl
theorem share_2 (c : Dev nD) : (dats m 0 c).share 2 = fullShare.left := by
  unfold Dat.share; dsimp only [dats]; rfl
theorem share_3 (c : Dev nD) : (dats m 0 c).share 3 = fullShare.right := by
  unfold Dat.share; dsimp only [dats]; rfl
theorem share_4 (c : Dev nD) : (dats m 0 c).share 4 = fullShare.left := by
  unfold Dat.share; dsimp only [dats]; rfl
theorem share_5 (c : Dev nD) : (dats m 0 c).share 5 = fullShare.right := by
  unfold Dat.share; dsimp only [dats]; rfl
theorem share_6 (c : Dev nD) : (dats m 0 c).share 6 = fullShare.left := by
  unfold Dat.share; dsimp only [dats]; rfl
theorem share_7 (c : Dev nD) : (dats m 0 c).share 7 = fullShare.right := by
  unfold Dat.share; dsimp only [dats]; rfl
theorem share_8 (c : Dev nD) : (dats m 0 c).share 8 = fullShare := by
  unfold Dat.share; dsimp only [dats]; rfl
theorem share_9 (c : Dev nD) : (dats m 0 c).share 9 = fullShare := by
  unfold Dat.share; dsimp only [dats]; rfl
theorem share_10 (c : Dev nD) : (dats m 0 c).share 10 = fullShare := by
  unfold Dat.share; dsimp only [dats]; rfl
theorem share_11 (c : Dev nD) : (dats m 0 c).share 11 = fullShare := by
  unfold Dat.share; dsimp only [dats]; rfl
theorem share_12 (c : Dev nD) : (dats m 0 c).share 12 = fullShare := by
  unfold Dat.share; dsimp only [dats]; rfl
theorem share_13 (c : Dev nD) : (dats m 0 c).share 13 = fullShare := by
  unfold Dat.share; dsimp only [dats]; rfl
theorem share_14 (c : Dev nD) : (dats m 0 c).share 14 = fullShare := by
  unfold Dat.share; dsimp only [dats]; rfl

/-- The buffers behind the arrays, conjoined one by one. -/
theorem bigSep_arr {M : Type} [URA M] (Φ : Ref sig .tc → sProp M) :
    bigSep (Finset.univ.image (Pipeline.arrRef spec0)) Φ
      = iprop(Φ main_v0 ∗ Φ main_v1 ∗ Φ main_v3 ∗ Φ main_v6 ∗ Φ main_v7 ∗ Φ main_v5 ∗ Φ main_v9 ∗ Φ main_v10 ∗ Φ main_v12 ∗ Φ main_v11 ∗ Φ main_v13 ∗ Φ main_v14) :=
  bigSep_eq_bigSepL_of_eq [main_v0, main_v1, main_v3, main_v6, main_v7, main_v5, main_v9, main_v10, main_v12, main_v11, main_v13, main_v14] arr_image (by decide) Φ

/-- At the entry the proof data's arrays are the buffers behind them, the three twice-staged ones split in halves. -/
theorem hsplit (c : Dev nD) :
    (Pipeline.arrBufs spec0 c (V m c) : sProp 𝕄) ⊢ (dats m 0 c).arrays ((dats m 0 c).arrAt · 0) := by
  unfold Pipeline.arrBufs Dat.arrays
  rw [bigSep_arr, bigSep_W0]
  simp only [View.set_whole, arrAt_zero, share_0, share_1, share_2, share_3, share_4, share_5, share_6, share_7, share_8, share_9, share_10, share_11, share_12, share_13, share_14]
  have h3 : (c.tc.loc main_v3 ↦{fullShare} V m c main_v3 : sProp 𝕄)
      ⊢ iprop((c.tc.loc main_v3 ↦{fullShare.left} V m c main_v3) ∗ (c.tc.loc main_v3 ↦{fullShare.right} V m c main_v3)) :=
    (pointsTo_share (PosShare.mem_left_op_right fullShare)).1
  have h6 : (c.tc.loc main_v6 ↦{fullShare} V m c main_v6 : sProp 𝕄)
      ⊢ iprop((c.tc.loc main_v6 ↦{fullShare.left} V m c main_v6) ∗ (c.tc.loc main_v6 ↦{fullShare.right} V m c main_v6)) :=
    (pointsTo_share (PosShare.mem_left_op_right fullShare)).1
  have h7 : (c.tc.loc main_v7 ↦{fullShare} V m c main_v7 : sProp 𝕄)
      ⊢ iprop((c.tc.loc main_v7 ↦{fullShare.left} V m c main_v7) ∗ (c.tc.loc main_v7 ↦{fullShare.right} V m c main_v7)) :=
    (pointsTo_share (PosShare.mem_left_op_right fullShare)).1
  iintro ⟨H0, H1, H3, H6, H7, H5, H9, H10, H12, H11, H13, H14⟩
  ihave H3 := h3 $$ H3
  icases H3 with ⟨H3a, H3b⟩
  ihave H6 := h6 $$ H6
  icases H6 with ⟨H6a, H6b⟩
  ihave H7 := h7 $$ H7
  icases H7 with ⟨H7a, H7b⟩
  isplitl [H0]; · iexact H0
  isplitl [H1]; · iexact H1
  isplitl [H3a]; · iexact H3a
  isplitl [H3b]; · iexact H3b
  isplitl [H6a]; · iexact H6a
  isplitl [H6b]; · iexact H6b
  isplitl [H7a]; · iexact H7a
  isplitl [H7b]; · iexact H7b
  isplitl [H5]; · iexact H5
  isplitl [H9]; · iexact H9
  isplitl [H10]; · iexact H10
  isplitl [H12]; · iexact H12
  isplitl [H11]; · iexact H11
  isplitl [H13]; · iexact H13
  iexact H14

/-! ## The run and the frame -/

set_option backward.isDefEq.respectTransparency.types false in
/-- Every weakly fair execution of the program terminates, nothing faulting, every array of the pipeline ending at
    what the write-backs made of it and every other unscoped buffer as the region found it. -/
theorem run_main : θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj))
    (hu₀ := .rfl)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr [H]; · iempintro
                       iexact H)
    (hin := fun c => (show iprop(iprop(emp) ∗ Pipeline.scopedRest spec0 c) ⊢ Pipeline.scopedRest spec0 c from by iintro ⟨-, H⟩; iexact H))
    (hout := fun c => (show Pipeline.scopedRest spec0 c ⊢ iprop(iprop(emp) ∗ Pipeline.scopedRest spec0 c) from by
      iintro H; isplitr [H]; · iempintro
      iexact H))
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h => show Pipeline.FramePost cfgs (dats m) 0 (V m) (⟨⟩, s) from fun c => ⟨(h c).1, (h c).2⟩)

/-- The frame: the program runs and its six argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).2 main_arg2 (Pipeline.mem_restRefs_of main_arg2 (by decide) (by decide))).trans (V_main_arg2 m c),
     ((h c).2 main_arg3 (Pipeline.mem_restRefs_of main_arg3 (by decide) (by decide))).trans (V_main_arg3 m c),
     ((h c).2 main_arg4 (Pipeline.mem_restRefs_of main_arg4 (by decide) (by decide))).trans (V_main_arg4 m c),
     ((h c).2 main_arg5 (Pipeline.mem_restRefs_of main_arg5 (by decide) (by decide))).trans (V_main_arg5 m c)⟩) (run_main m ρ)

end Cert.Kernel.Fr

end
-- ==== Proof.HostPrefix.lean ====
/-
  What the kernel program's host operations before its one kernel region leave in the arrays the region's windows
  stage, each as a named stage of the reference program applied to the same arguments.

  The program masks the input (entries where the mask is off become zero), exchanges its first two axes, takes the
  diagonal, and sums: the diagonal over its rows (the trace), the masked input over its first axis and over its second
  axis, and the first of these two once more over the rows (the total). It rounds the two weight matrices to bf16 (the
  identity on extended reals) and views the two bias vectors as one-row matrices. Each of these is, operation for
  operation, a stage of the reference, so each whole-array equation below is by unfolding both sides to the same term; the
  one-row views are read at an index through the reshape; and the total needs one law of finite sums: summing the first axis
  and then the rows is summing both axes at once.

  The forty operations are run in three steps — the four that mask and transpose, the twenty-one of the diagonal, the
  fifteen after it —, the last two from an arbitrary valuation, so that no step's term contains the steps before it.
-/
import proofs.«101839_j68650757259668_2_alg».proof.Proof.Gen.KernelIdeal.Launch
import proofs.«101839_j68650757259668_2_alg».proof.Proof.Gen.ReferenceIdeal.Read
import Idealize.ShloMosaic.Lib.StableHlo.Run
import Idealize.ShloMosaic.Lib.Pipeline.Frame
import Idealize.ShloMosaic.Lib.ValueIdx
import Idealize.ShloMosaic.Lib.Pipeline.Value
import Idealize.ShloMosaic.Lib.ValueLayout
import Idealize.ShloMosaic.Lib.ReduceAll
import Idealize.ShloMosaic.Lib.IdealHost
import Idealize.ShloMosaic.PureOps.Ideal.Laws

noncomputable section

namespace Cert.KernelSide.Host

open Cert.KernelIdeal Cert.KernelIdeal.Gen Idealize.ShloMosaic Idealize.ShloMosaic.TcCoe Idealize.ShloMosaic.ValueIdx Idealize.SL.Sem
open scoped BigOperators

/-! ## Sums over two axes -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- So a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The sum over the first two axes of a [1024, 1024, 16] array, at channel `ch`: the double sum over the two coordinates. -/
theorem sum01_apply (x : (⟨3, ![1024, 1024, 16]⟩ : Shape).Idx → EReal)
    (h : (⟨3, ![1024, 1024, 16]⟩ : Shape).ReducesTo [0, 1] ⟨1, ![16]⟩) (init : EReal) (ch : Fin 16) :
    Ideal.hostReduceAdd h x init (ix1 ch) = init + ∑ a : Fin 1024, ∑ b : Fin 1024, x (ix3 a b ch) := by
  unfold Ideal.hostReduceAdd
  refine congrArg (init + ·) ?_
  rw [Finset.sum_filter, sum_idx3]
  refine Finset.sum_congr rfl fun a _ => Finset.sum_congr rfl fun b _ => ?_
  have hiff : ∀ c' : Fin 16, (h.drop (ix3 a b c') = ix1 ch) ↔ c' = ch := by
    intro c'
    constructor
    · intro e
      have := congrArg (fun j => (j 0 : Nat)) e
      exact Fin.ext this
    · rintro rfl
      funext d
      match d with
      | ⟨0, _⟩ => rfl
  simp only [hiff]
  rw [Finset.sum_ite_eq' Finset.univ ch]
  simp

/-- The sum over axis 0 of a [1024, 1024, 16] array at `(b, ch)`. -/
theorem sum0_apply (x : (⟨3, ![1024, 1024, 16]⟩ : Shape).Idx → EReal)
    (h : (⟨3, ![1024, 1024, 16]⟩ : Shape).ReducesTo [0] ⟨2, ![1024, 16]⟩) (init : EReal) (b : Fin 1024) (ch : Fin 16) :
    Ideal.hostReduceAdd h x init (ix2 b ch) = init + ∑ a : Fin 1024, x (ix3 a b ch) := by
  rw [Ideal.hostReduceAdd_single h (by decide)]
  refine congrArg (init + ·) (Finset.sum_congr rfl fun k _ => ?_)
  exact congrArg x (funext fun a => Fin.ext (by match a with | ⟨0, _⟩ => rfl | ⟨1, _⟩ => rfl | ⟨2, _⟩ => rfl))

/-- The sum over axis 0 of a [1024, 16] array at `ch`. -/
theorem sumRows_apply (y : (⟨2, ![1024, 16]⟩ : Shape).Idx → EReal)
    (h : (⟨2, ![1024, 16]⟩ : Shape).ReducesTo [0] ⟨1, ![16]⟩) (init : EReal) (ch : Fin 16) :
    Ideal.hostReduceAdd h y init (ix1 ch) = init + ∑ b : Fin 1024, y (ix2 b ch) := by
  rw [Ideal.hostReduceAdd_single h (by decide)]
  refine congrArg (init + ·) (Finset.sum_congr rfl fun k _ => ?_)
  exact congrArg y (funext fun a => Fin.ext (by match a with | ⟨0, _⟩ => rfl | ⟨1, _⟩ => rfl))

/-- Summing axis 0 and then the rows, from zero each time, is the sum over both axes from zero. -/
theorem sum0_sumRows_eq_sum01 (x : (⟨3, ![1024, 1024, 16]⟩ : Shape).Idx → EReal)
    (h0 : (⟨3, ![1024, 1024, 16]⟩ : Shape).ReducesTo [0] ⟨2, ![1024, 16]⟩)
    (hr : (⟨2, ![1024, 16]⟩ : Shape).ReducesTo [0] ⟨1, ![16]⟩)
    (h01 : (⟨3, ![1024, 1024, 16]⟩ : Shape).ReducesTo [0, 1] ⟨1, ![16]⟩) (ch : Fin 16) :
    Ideal.hostReduceAdd hr (Ideal.hostReduceAdd h0 x 0) 0 (ix1 ch) = Ideal.hostReduceAdd h01 x 0 (ix1 ch) := by
  rw [sumRows_apply, sum01_apply]
  refine congrArg ((0 : EReal) + ·) ?_
  rw [Finset.sum_comm]
  refine Finset.sum_congr rfl fun b _ => ?_
  rw [sum0_apply, zero_add]

/-- The same law on the host's float sums as the two programs print them, each from the f32 zero word. -/
theorem hostSum0_sumRows_eq_sum01 (x : FVec Ideal ⟨3, ![1024, 1024, 16]⟩ .f32)
    (h0 : (⟨3, ![1024, 1024, 16]⟩ : Shape).ReducesTo [0] ⟨2, ![1024, 16]⟩)
    (hr : (⟨2, ![1024, 16]⟩ : Shape).ReducesTo [0] ⟨1, ![16]⟩)
    (h01 : (⟨3, ![1024, 1024, 16]⟩ : Shape).ReducesTo [0, 1] ⟨1, ![16]⟩)
    (hu hu' hu'' : 0 < (⟨0, ![]⟩ : Shape).numel) (ch : Fin 16) :
    Host.reduceAdd (F := Ideal) (Host.reduceAdd (F := Ideal) x (constant (F := Ideal) ⟨0, ![]⟩ .f32 0x00000000#32) h0 hu)
        (constant (F := Ideal) ⟨0, ![]⟩ .f32 0x00000000#32) hr hu' (ix1 ch)
      = Host.reduceAdd (F := Ideal) x (constant (F := Ideal) ⟨0, ![]⟩ .f32 0x00000000#32) h01 hu'' (ix1 ch) := by
  show Ideal.hostReduceAdd hr (Ideal.hostReduceAdd h0 x (Ideal.ofBits .f32 0x00000000#32)) (Ideal.ofBits .f32 0x00000000#32) (ix1 ch)
    = Ideal.hostReduceAdd h01 x (Ideal.ofBits .f32 0x00000000#32) (ix1 ch)
  rw [Ideal.ofBits_zero_f32]
  exact sum0_sumRows_eq_sum01 x h0 hr h01 ch

/-! ## The arrays when the region is entered -/

/-- Core `c`'s TensorCore buffers when the kernel region is entered: after the forty host operations before it. -/
abbrev Vk (m : (ℓ : Loc nD τ sig) → Buf (Elt Ideal) ℓ) (c : Dev nD) (b : Ref sig .tc) : Buf (Elt Ideal) ((c : Thread nD τ).loc b) :=
  StableHlo.after (List.flatten [hostOps0, hostOps0_1, hostOps0_2, hostOps0_3, hostOps0_4]) (fun b => m (c, b)) b

/-- The buffers after the first four operations: the mask applied, and the transposition. -/
abbrev Hk (m : (ℓ : Loc nD τ sig) → Buf (Elt Ideal) ℓ) (c : Dev nD) : Valuation τ sig (Elt Ideal) :=
  StableHlo.after (List.flatten [hostOps0, hostOps0_1, hostOps0_2]) (fun b => m (c, b))

/-- The forty operations in three steps. -/
theorem Vk_split (m : (ℓ : Loc nD τ sig) → Buf (Elt Ideal) ℓ) (c : Dev nD) (b : Ref sig .tc) :
    Vk m c b = StableHlo.after hostOps0_4 (StableHlo.after hostOps0_3 (Hk m c)) b := by
  dsimp only [Vk, Hk]
  rw [← StableHlo.after_append, ← StableHlo.after_append]
  simp only [List.flatten_cons, List.flatten_nil, List.append_nil, List.append_assoc]

/-! ### The diagonal's twenty-one operations, from any valuation -/

section Diagonal
variable (X : Valuation τ sig (Elt Ideal))

/-- The gathered diagonal, channel-major: the operand is the valuation's masked input, channel axis first; the start
    indices are computed from no buffer at all. -/
def diagOf (x : FVec Ideal S1024x1024x16 .f32) : FVec Ideal S16x1024 .f32 :=
  Host.gather gather_S16x1024x1024_S1024x2_S16x1024_0_12_n_n_12_1_1611
    (transpose S16x1024x1024 [2, 0, 1] x transposes_S1024x1024x16_S16x1024x1024_2_0_1)
    (concatenate S1024x2 1
      [⟨S1024x1, broadcastInDim S1024x1 ![0] bcast_S1024_S1024x1_0
          (select (cmpi .slt (iotaInDim S1024 32 0) (broadcastInDim S1024 ![] bcast_S_S1024 (constantI S_ 32 0#32)))
            (addi (iotaInDim S1024 32 0) (broadcastInDim S1024 ![] bcast_S_S1024 (constantI S_ 32 1024#32)))
            (iotaInDim S1024 32 0))⟩,
       ⟨S1024x1, broadcastInDim S1024x1 ![0] bcast_S1024_S1024x1_0
          (select (cmpi .slt (iotaInDim S1024 32 0) (broadcastInDim S1024 ![] bcast_S_S1024 (constantI S_ 32 0#32)))
            (addi (iotaInDim S1024 32 0) (broadcastInDim S1024 ![] bcast_S_S1024 (constantI S_ 32 1024#32)))
            (iotaInDim S1024 32 0))⟩]
      concatenates_S1024x1_S1024x1_S1024x2_d1)

theorem diag_v2 : (StableHlo.after hostOps0_3 X (Proc.devRef .tc main_v2) : S16x1024.Idx → EReal)
    = diagOf (X (Proc.devRef .tc main_v0)) := by
  simp only [hostOps0_3]
  after_results
  all_goals rfl

theorem diag_keep_v0 : StableHlo.after hostOps0_3 X (Proc.devRef .tc main_v0) = X (Proc.devRef .tc main_v0) := by
  simp only [hostOps0_3]
  after_results

theorem diag_keep_v1 : StableHlo.after hostOps0_3 X (Proc.devRef .tc main_v1) = X (Proc.devRef .tc main_v1) := by
  simp only [hostOps0_3]
  after_results

theorem diag_keep_arg2 : StableHlo.after hostOps0_3 X (Proc.devRef .tc main_arg2) = X (Proc.devRef .tc main_arg2) := by
  simp only [hostOps0_3]
  after_results

theorem diag_keep_arg3 : StableHlo.after hostOps0_3 X (Proc.devRef .tc main_arg3) = X (Proc.devRef .tc main_arg3) := by
  simp only [hostOps0_3]
  after_results

theorem diag_keep_arg4 : StableHlo.after hostOps0_3 X (Proc.devRef .tc main_arg4) = X (Proc.devRef .tc main_arg4) := by
  simp only [hostOps0_3]
  after_results

theorem diag_keep_arg5 : StableHlo.after hostOps0_3 X (Proc.devRef .tc main_arg5) = X (Proc.devRef .tc main_arg5) := by
  simp only [hostOps0_3]
  after_results

end Diagonal

/-! ### The fifteen operations after the diagonal, from any valuation -/

section Tail
variable (X : Valuation τ sig (Elt Ideal))

theorem tail_keep_v0 : StableHlo.after hostOps0_4 X (Proc.devRef .tc main_v0) = X (Proc.devRef .tc main_v0) := by
  simp only [hostOps0_4]
  after_results

theorem tail_keep_v1 : StableHlo.after hostOps0_4 X (Proc.devRef .tc main_v1) = X (Proc.devRef .tc main_v1) := by
  simp only [hostOps0_4]
  after_results

theorem tail_v3 : (StableHlo.after hostOps0_4 X (Proc.devRef .tc main_v3) : S1024x16.Idx → EReal)
    = transpose S1024x16 [1, 0] (X (Proc.devRef .tc main_v2) : S16x1024.Idx → EReal) transposes_S16x1024_S1024x16_1_0 := by
  simp only [hostOps0_4]
  after_results
  all_goals rfl

theorem tail_v5 : (StableHlo.after hostOps0_4 X (Proc.devRef .tc main_v5) : S1x16.Idx → EReal)
    = shapeCast S1x16 (Host.reduceAdd (F := Ideal)
        (transpose S1024x16 [1, 0] (X (Proc.devRef .tc main_v2) : S16x1024.Idx → EReal) transposes_S16x1024_S1024x16_1_0 : FVec Ideal S1024x16 .f32)
        (constant (F := Ideal) S_ .f32 0x00000000#32) reducesTo_S1024x16_S16_d0 h_S_) shapeCasts_S16_S1x16 := by
  simp only [hostOps0_4]
  after_results
  all_goals rfl

theorem tail_v6 : (StableHlo.after hostOps0_4 X (Proc.devRef .tc main_v6) : S1024x16.Idx → EReal)
    = Host.reduceAdd (F := Ideal) (X (Proc.devRef .tc main_v0) : FVec Ideal S1024x1024x16 .f32)
        (constant (F := Ideal) S_ .f32 0x00000000#32) reducesTo_S1024x1024x16_S1024x16_d0 h_S_ := by
  simp only [hostOps0_4]
  after_results
  all_goals rfl

theorem tail_v7 : (StableHlo.after hostOps0_4 X (Proc.devRef .tc main_v7) : S1024x16.Idx → EReal)
    = Host.reduceAdd (F := Ideal) (X (Proc.devRef .tc main_v0) : FVec Ideal S1024x1024x16 .f32)
        (constant (F := Ideal) S_ .f32 0x00000000#32) reducesTo_S1024x1024x16_S1024x16_d1 h_S_ := by
  simp only [hostOps0_4]
  after_results
  all_goals rfl

theorem tail_v9 : (StableHlo.after hostOps0_4 X (Proc.devRef .tc main_v9) : S1x16.Idx → EReal)
    = shapeCast S1x16 (Host.reduceAdd (F := Ideal)
        (Host.reduceAdd (F := Ideal) (X (Proc.devRef .tc main_v0) : FVec Ideal S1024x1024x16 .f32)
          (constant (F := Ideal) S_ .f32 0x00000000#32) reducesTo_S1024x1024x16_S1024x16_d0 h_S_)
        (constant (F := Ideal) S_ .f32 0x00000000#32) reducesTo_S1024x16_S16_d0 h_S_) shapeCasts_S16_S1x16 := by
  simp only [hostOps0_4]
  after_results
  all_goals rfl

theorem tail_v10 (i : S64x240.Idx) : (StableHlo.after hostOps0_4 X (Proc.devRef .tc main_v10) : S64x240.Idx → EReal) i
    = (X (Proc.devRef .tc main_arg2) : S64x240.Idx → EReal) i := by
  simp only [hostOps0_4]
  after_results
  all_goals rfl

theorem tail_v11 (i : S64x64.Idx) : (StableHlo.after hostOps0_4 X (Proc.devRef .tc main_v11) : S64x64.Idx → EReal) i
    = (X (Proc.devRef .tc main_arg4) : S64x64.Idx → EReal) i := by
  simp only [hostOps0_4]
  after_results
  all_goals rfl

theorem tail_v12 : (StableHlo.after hostOps0_4 X (Proc.devRef .tc main_v12) : S1x64.Idx → EReal)
    = shapeCast S1x64 (X (Proc.devRef .tc main_arg3) : S64.Idx → EReal) shapeCasts_S64_S1x64 := by
  simp only [hostOps0_4]
  after_results
  all_goals rfl

theorem tail_v13 : (StableHlo.after hostOps0_4 X (Proc.devRef .tc main_v13) : S1x64.Idx → EReal)
    = shapeCast S1x64 (X (Proc.devRef .tc main_arg5) : S64.Idx → EReal) shapeCasts_S64_S1x64 := by
  simp only [hostOps0_4]
  after_results
  all_goals rfl

end Tail

/-! ### The first four operations, from the launch contents -/

variable (m : (ℓ : Loc nD τ sig) → Buf (Elt Ideal) ℓ) (c : Dev nD)

theorem head_arg2 : Hk m c (Proc.devRef .tc main_arg2) = m ((c : Thread nD τ).loc main_arg2) := by
  dsimp only [Hk]
  simp only [hostOps0, hostOps0_1, hostOps0_2, List.flatten_cons, List.flatten_nil, List.append_nil, List.cons_append, List.nil_append]
  after_results
  all_goals rfl

theorem head_arg3 : Hk m c (Proc.devRef .tc main_arg3) = m ((c : Thread nD τ).loc main_arg3) := by
  dsimp only [Hk]
  simp only [hostOps0, hostOps0_1, hostOps0_2, List.flatten_cons, List.flatten_nil, List.append_nil, List.cons_append, List.nil_append]
  after_results
  all_goals rfl

theorem head_arg4 : Hk m c (Proc.devRef .tc main_arg4) = m ((c : Thread nD τ).loc main_arg4) := by
  dsimp only [Hk]
  simp only [hostOps0, hostOps0_1, hostOps0_2, List.flatten_cons, List.flatten_nil, List.append_nil, List.cons_append, List.nil_append]
  after_results
  all_goals rfl

theorem head_arg5 : Hk m c (Proc.devRef .tc main_arg5) = m ((c : Thread nD τ).loc main_arg5) := by
  dsimp only [Hk]
  simp only [hostOps0, hostOps0_1, hostOps0_2, List.flatten_cons, List.flatten_nil, List.append_nil, List.cons_append, List.nil_append]
  after_results
  all_goals rfl

theorem head_v0 : Hk m c (Proc.devRef .tc main_v0) = Cert.ReferenceIdeal.Read.val_main_v0 (F := Ideal) (m ((c : Thread nD τ).loc main_arg0)) (m ((c : Thread nD τ).loc main_arg1)) := by
  dsimp only [Hk]
  simp only [hostOps0, hostOps0_1, hostOps0_2, List.flatten_cons, List.flatten_nil, List.append_nil, List.cons_append, List.nil_append]
  after_results
  all_goals rfl

theorem head_v1 : Hk m c (Proc.devRef .tc main_v1) = Cert.ReferenceIdeal.Read.val_main_v34 (F := Ideal) (m ((c : Thread nD τ).loc main_arg0)) (m ((c : Thread nD τ).loc main_arg1)) := by
  dsimp only [Hk]
  simp only [hostOps0, hostOps0_1, hostOps0_2, List.flatten_cons, List.flatten_nil, List.append_nil, List.cons_append, List.nil_append]
  after_results
  all_goals rfl

/-- The reference's gathered diagonal is the same chain of operations on its masked input. -/
theorem diagOf_eq (x0 : FVec Ideal S1024x1024x16 .f32) (x1 : IVec S1024x1024x16 1) :
    diagOf (Cert.ReferenceIdeal.Read.val_main_v0 (F := Ideal) x0 x1) = Cert.ReferenceIdeal.Read.val_main_v1 (F := Ideal) x0 x1 := rfl

/-! ## The arrays the windows stage -/

/-- The masked input. -/
theorem v0_eq : Vk m c main_v0 = Cert.ReferenceIdeal.Read.val_main_v0 (F := Ideal) (m ((c : Thread nD τ).loc main_arg0)) (m ((c : Thread nD τ).loc main_arg1)) := by
  rw [Vk_split, tail_keep_v0, diag_keep_v0]
  exact head_v0 m c

/-- The masked input with its first two axes exchanged. -/
theorem v1_eq : Vk m c main_v1 = Cert.ReferenceIdeal.Read.val_main_v34 (F := Ideal) (m ((c : Thread nD τ).loc main_arg0)) (m ((c : Thread nD τ).loc main_arg1)) := by
  rw [Vk_split, tail_keep_v1, diag_keep_v1]
  exact head_v1 m c

/-- The diagonal of the masked input: the same chain of operations as the reference's, on the same masked input. -/
theorem v3_eq : Vk m c main_v3 = Cert.ReferenceIdeal.Read.val_main_v2 (F := Ideal) (m ((c : Thread nD τ).loc main_arg0)) (m ((c : Thread nD τ).loc main_arg1)) := by
  rw [Vk_split, tail_v3, diag_v2, head_v0, diagOf_eq]
  rfl

/-- The sums of the masked input over its first axis. -/
theorem v6_eq : Vk m c main_v6 = Cert.ReferenceIdeal.Read.val_main_v4 (F := Ideal) (m ((c : Thread nD τ).loc main_arg0)) (m ((c : Thread nD τ).loc main_arg1)) := by
  rw [Vk_split, tail_v6, diag_keep_v0, head_v0]
  rfl

/-- The sums of the masked input over its second axis. -/
theorem v7_eq : Vk m c main_v7 = Cert.ReferenceIdeal.Read.val_main_v5 (F := Ideal) (m ((c : Thread nD τ).loc main_arg0)) (m ((c : Thread nD τ).loc main_arg1)) := by
  rw [Vk_split, tail_v7, diag_keep_v0, head_v0]
  rfl

/-- The trace, as a one-row matrix: the reference's trace under the reshape. -/
theorem v5_apply (ch : Fin 16) : Vk m c main_v5 (ix2 0 ch) = Cert.ReferenceIdeal.Read.val_main_v3 (F := Ideal) (m ((c : Thread nD τ).loc main_arg0)) (m ((c : Thread nD τ).loc main_arg1)) (ix1 ch) := by
  rw [Vk_split, tail_v5, diag_v2, head_v0, diagOf_eq]
  exact shapeCast_a_1a_apply _ _ 0 ch

/-- The total, as a one-row matrix: the rows' sum of the first-axis sums of the masked input, which is the reference's sum
    over both axes. -/
theorem v9_apply (ch : Fin 16) : Vk m c main_v9 (ix2 0 ch) = Cert.ReferenceIdeal.Read.val_main_v6 (F := Ideal) (m ((c : Thread nD τ).loc main_arg0)) (m ((c : Thread nD τ).loc main_arg1)) (ix1 ch) := by
  rw [Vk_split, tail_v9, diag_keep_v0, head_v0]
  refine (shapeCast_a_1a_apply _ _ 0 ch).trans ?_
  unfold Cert.ReferenceIdeal.Read.val_main_v6
  generalize Cert.ReferenceIdeal.Read.val_main_v0 (F := Ideal) (m ((c : Thread nD τ).loc main_arg0)) (m ((c : Thread nD τ).loc main_arg1)) = x
  exact hostSum0_sumRows_eq_sum01 x _ _ _ _ _ _ ch

/-- The first layer's weights, rounded to bf16: on extended reals, themselves. -/
theorem v10_apply (h : Fin 64) (k : Fin 240) : Vk m c main_v10 (ix2 h k) = m ((c : Thread nD τ).loc main_arg2) (ix2 h k) := by
  rw [Vk_split, tail_v10, diag_keep_arg2, head_arg2]

/-- The second layer's weights, rounded to bf16: on extended reals, themselves. -/
theorem v11_apply (o h : Fin 64) : Vk m c main_v11 (ix2 o h) = m ((c : Thread nD τ).loc main_arg4) (ix2 o h) := by
  rw [Vk_split, tail_v11, diag_keep_arg4, head_arg4]

/-- The first layer's bias as a one-row matrix. -/
theorem v12_apply (h : Fin 64) : Vk m c main_v12 (ix2 0 h) = m ((c : Thread nD τ).loc main_arg3) (ix1 h) := by
  rw [Vk_split, tail_v12, diag_keep_arg3, head_arg3]
  exact shapeCast_a_1a_apply _ _ 0 h

/-- The second layer's bias as a one-row matrix. -/
theorem v13_apply (o : Fin 64) : Vk m c main_v13 (ix2 0 o) = m ((c : Thread nD τ).loc main_arg5) (ix1 o) := by
  rw [Vk_split, tail_v13, diag_keep_arg5, head_arg5]
  exact shapeCast_a_1a_apply _ _ 0 o

end Cert.KernelSide.Host

end
-- ==== Proof.RefFeat.lean ====
/-
  The reference program read at one position (i, j) and output channel o is the specification:
  its fifteen concatenated groups of 16 channels are the feature vector of the ten ingredients seen
  from (i, j), and its two contractions with the biases and the positive part are the two-layer map.
-/
import proofs.«101839_j68650757259668_2_alg».proof.Proof.Gen.ReferenceIdeal.Read
import proofs.«101839_j68650757259668_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.RefSide

open Cert.ReferenceIdeal Cert.ReferenceIdeal.Gen Cert.ReferenceIdeal.Read Idealize.ShloMosaic Idealize.ShloMosaic.ValueIdx
open scoped BigOperators

/-! ## Small tools -/

/-- At the extended reals a product of two elements is their product … -/
theorem mulfI (a b : EReal) : (FloatOps.mulf (F := Ideal) (φ := .f32) a b : EReal) = a * b := rfl
/-- … a sum their sum … -/
theorem addfI (a b : EReal) : (FloatOps.addf (F := Ideal) (φ := .f32) a b : EReal) = a + b := rfl
/-- … and a maximum their maximum. -/
theorem maxfI (a b : EReal) : (FloatOps.maximumf (F := Ideal) (φ := .f32) a b : EReal) = max a b := rfl

/-! ## The diagonal's indicator -/

/-- The indicator word: the unsigned reading of "row counter plus zero equals column counter" on 32-bit words,
    for counters below 1024, is 1 on the diagonal and 0 off it. -/
theorem eyeWord (a b : Fin 1024) :
    (FloatOps.uitofp (F := Ideal) .f32 (IntOp.cmpi .eq (IntOp.addi (BitVec.ofNat 32 a.val) 0#32) (BitVec.ofNat 32 b.val)) : EReal)
      = Cert.Spec.eye a b := by
  show (((IntOp.cmpi .eq (IntOp.addi (BitVec.ofNat 32 a.val) 0#32) (BitVec.ofNat 32 b.val)).toNat : ℝ) : EReal) = _
  unfold IntOp.cmpi IntOp.addi Cert.Spec.eye
  rw [BitVec.add_zero]
  by_cases h : a = b
  · subst h
    simp
  · have hne : ¬ (BitVec.ofNat 32 a.val = BitVec.ofNat 32 b.val) := by
      intro he
      apply h
      have := congrArg BitVec.toNat he
      simp only [BitVec.toNat_ofNat] at this
      have ha := a.isLt; have hb := b.isLt
      exact Fin.ext (by omega)
    simp [h, hne]

/-- The indicator stage at a position: the two counters compared. -/
theorem eye13_apply (p : S1024x1024x1.Idx) :
    val_main_v13 (F := Ideal) p = Cert.Spec.eye ⟨(p 0).val, (p 0).isLt⟩ ⟨(p 1).val, (p 1).isLt⟩ := by
  rw [val_main_v13_apply, val_main_v12_apply, val_main_v11_apply, val_main_v10_apply, val_main_v9_apply,
    val_main_c_apply, val_main_v7_apply, val_main_v8_apply]
  exact eyeWord _ _

/-- Its five broadcasts along the channel axis, at (i, j, c). -/
theorem eye15_apply (i j : Fin 1024) (c : Fin 16) : val_main_v15 (F := Ideal) (ix3 i j c) = Cert.Spec.eye i j := by
  rw [val_main_v15_apply, eye13_apply]
theorem eye23_apply (i j : Fin 1024) (c : Fin 16) : val_main_v23 (F := Ideal) (ix3 i j c) = Cert.Spec.eye i j := by
  rw [val_main_v23_apply, eye13_apply]
theorem eye27_apply (i j : Fin 1024) (c : Fin 16) : val_main_v27 (F := Ideal) (ix3 i j c) = Cert.Spec.eye i j := by
  rw [val_main_v27_apply, eye13_apply]
theorem eye31_apply (i j : Fin 1024) (c : Fin 16) : val_main_v31 (F := Ideal) (ix3 i j c) = Cert.Spec.eye i j := by
  rw [val_main_v31_apply, eye13_apply]
theorem eye42_apply (i j : Fin 1024) (c : Fin 16) : val_main_v42 (F := Ideal) (ix3 i j c) = Cert.Spec.eye i j := by
  rw [val_main_v42_apply, eye13_apply]

/-! ## The fifteen groups at a position -/

/-- Two indices of rank 1, 2, 3 with the same coordinates are equal. -/
local macro "idx1" : tactic => `(tactic| (funext a; match a with | ⟨0, _⟩ => rfl))
local macro "idx2" : tactic => `(tactic| (funext a; match a with | ⟨0, _⟩ => rfl | ⟨1, _⟩ => rfl))
local macro "idx3" : tactic => `(tactic| (funext a; match a with | ⟨0, _⟩ => rfl | ⟨1, _⟩ => rfl | ⟨2, _⟩ => rfl))

section Pieces
variable (x0 : (⟨S1024x1024x16, .f32⟩ : BufTy).Contents (Elt Ideal)) (x1 : (⟨S1024x1024x16, .i1⟩ : BufTy).Contents (Elt Ideal))
  (i j : Fin 1024) (c : Fin 16)

/-- A [1024,16] array laid along the columns of the grid (axes 1, 2) reads (j, c) … -/
theorem v16_at : val_main_v16 (F := Ideal) x0 x1 (ix3 i j c) = val_main_v2 (F := Ideal) x0 x1 (ix2 j c) := by
  rw [val_main_v16_apply, val_main_v14_apply]
  generalize val_main_v2 (F := Ideal) x0 x1 = d
  exact congrArg d (by idx2)
theorem v19_at : val_main_v19 (F := Ideal) x0 x1 (ix3 i j c) = val_main_v2 (F := Ideal) x0 x1 (ix2 j c) := by
  rw [val_main_v19_apply, val_main_v18_apply]
  generalize val_main_v2 (F := Ideal) x0 x1 = d
  exact congrArg d (by idx2)
/-- … and along the rows (axes 0, 2) reads (i, c). -/
theorem v21_at : val_main_v21 (F := Ideal) x0 x1 (ix3 i j c) = val_main_v2 (F := Ideal) x0 x1 (ix2 i c) := by
  rw [val_main_v21_apply, val_main_v20_apply]
  generalize val_main_v2 (F := Ideal) x0 x1 = d
  exact congrArg d (by idx2)
theorem v24_at : val_main_v24 (F := Ideal) x0 x1 (ix3 i j c) = val_main_v4 (F := Ideal) x0 x1 (ix2 j c) := by
  rw [val_main_v24_apply, val_main_v22_apply]
  generalize val_main_v4 (F := Ideal) x0 x1 = d
  exact congrArg d (by idx2)
theorem v28_at : val_main_v28 (F := Ideal) x0 x1 (ix3 i j c) = val_main_v5 (F := Ideal) x0 x1 (ix2 j c) := by
  rw [val_main_v28_apply, val_main_v26_apply]
  generalize val_main_v5 (F := Ideal) x0 x1 = d
  exact congrArg d (by idx2)
/-- A [16] vector laid over the whole grid reads c. -/
theorem v32_at : val_main_v32 (F := Ideal) x0 x1 (ix3 i j c) = val_main_v3 (F := Ideal) x0 x1 (ix1 c) := by
  rw [val_main_v32_apply, val_main_v30_apply]
  generalize val_main_v3 (F := Ideal) x0 x1 = d
  exact congrArg d (by idx1)
theorem v36_at : val_main_v36 (F := Ideal) x0 x1 (ix3 i j c) = val_main_v3 (F := Ideal) x0 x1 (ix1 c) := by
  rw [val_main_v36_apply, val_main_v35_apply]
  generalize val_main_v3 (F := Ideal) x0 x1 = d
  exact congrArg d (by idx1)
theorem v38_at : val_main_v38 (F := Ideal) x0 x1 (ix3 i j c) = val_main_v4 (F := Ideal) x0 x1 (ix2 j c) := by
  rw [val_main_v38_apply, val_main_v37_apply]
  generalize val_main_v4 (F := Ideal) x0 x1 = d
  exact congrArg d (by idx2)
theorem v40_at : val_main_v40 (F := Ideal) x0 x1 (ix3 i j c) = val_main_v5 (F := Ideal) x0 x1 (ix2 j c) := by
  rw [val_main_v40_apply, val_main_v39_apply]
  generalize val_main_v5 (F := Ideal) x0 x1 = d
  exact congrArg d (by idx2)
theorem v43_at : val_main_v43 (F := Ideal) x0 x1 (ix3 i j c) = val_main_v6 (F := Ideal) x0 x1 (ix1 c) := by
  rw [val_main_v43_apply, val_main_v41_apply]
  generalize val_main_v6 (F := Ideal) x0 x1 = d
  exact congrArg d (by idx1)
theorem v46_at : val_main_v46 (F := Ideal) x0 x1 (ix3 i j c) = val_main_v5 (F := Ideal) x0 x1 (ix2 i c) := by
  rw [val_main_v46_apply, val_main_v45_apply]
  generalize val_main_v5 (F := Ideal) x0 x1 = d
  exact congrArg d (by idx2)
theorem v48_at : val_main_v48 (F := Ideal) x0 x1 (ix3 i j c) = val_main_v4 (F := Ideal) x0 x1 (ix2 i c) := by
  rw [val_main_v48_apply, val_main_v47_apply]
  generalize val_main_v4 (F := Ideal) x0 x1 = d
  exact congrArg d (by idx2)
theorem v50_at : val_main_v50 (F := Ideal) x0 x1 (ix3 i j c) = val_main_v6 (F := Ideal) x0 x1 (ix1 c) := by
  rw [val_main_v50_apply, val_main_v49_apply]
  generalize val_main_v6 (F := Ideal) x0 x1 = d
  exact congrArg d (by idx1)

/-- The four groups carried only on the diagonal: the indicator times the array. -/
theorem v17_at : val_main_v17 (F := Ideal) x0 x1 (ix3 i j c) = Cert.Spec.eye i j * val_main_v2 (F := Ideal) x0 x1 (ix2 j c) := by
  rw [val_main_v17_apply, mulfI, eye15_apply, v16_at]
theorem v25_at : val_main_v25 (F := Ideal) x0 x1 (ix3 i j c) = Cert.Spec.eye i j * val_main_v4 (F := Ideal) x0 x1 (ix2 j c) := by
  rw [val_main_v25_apply, mulfI, eye23_apply, v24_at]
theorem v29_at : val_main_v29 (F := Ideal) x0 x1 (ix3 i j c) = Cert.Spec.eye i j * val_main_v5 (F := Ideal) x0 x1 (ix2 j c) := by
  rw [val_main_v29_apply, mulfI, eye27_apply, v28_at]
theorem v33_at : val_main_v33 (F := Ideal) x0 x1 (ix3 i j c) = Cert.Spec.eye i j * val_main_v3 (F := Ideal) x0 x1 (ix1 c) := by
  rw [val_main_v33_apply, mulfI, eye31_apply, v32_at]
theorem v44_at : val_main_v44 (F := Ideal) x0 x1 (ix3 i j c) = Cert.Spec.eye i j * val_main_v6 (F := Ideal) x0 x1 (ix1 c) := by
  rw [val_main_v44_apply, mulfI, eye42_apply, v43_at]

end Pieces

/-! ## The concatenation: group k / 16 at channel k % 16 -/

/-- The channels before piece `p` of a concatenation of `n` pieces of 16 channels: 16 · p. -/
theorem pre16 {α : Type} (xs : List ((s : Shape) × (s.Idx → α))) (n : Nat)
    (hs : xs.map (·.1) = List.replicate n S1024x1024x16) (p : Nat) (hp : p ≤ n) :
    (((xs.take p).map (·.1)).map fun s => if h : s.rank = S1024x1024x240.rank
        then s.size ((2 : Fin S1024x1024x240.rank).cast h.symm) else 0).sum = 16 * p := by
  rw [List.map_take, hs, List.take_replicate, List.map_replicate, List.sum_replicate, Nat.min_eq_left hp, smul_eq_mul]
  exact Nat.mul_comm p 16

/-- A concatenation along the last axis of fifteen pieces of 16 channels, read at (i, j, k): piece number k / 16,
    at (i, j, k % 16). -/
theorem cat_piece {α : Type} (xs : List ((s : Shape) × (s.Idx → α)))
    (h : Shape.Concatenates (xs.map (·.1)) S1024x1024x240 2) (i j : Fin 1024) (k : Fin 240)
    (p : Nat) (x₁ : S1024x1024x16.Idx → α)
    (hs : xs.map (·.1) = List.replicate 15 S1024x1024x16)
    (hxk : xs[p]? = some ⟨S1024x1024x16, x₁⟩)
    (hk : k.val / 16 = p) :
    concatenate S1024x1024x240 2 xs h (ix3 i j k) = x₁ (ix3 i j (Cert.Spec.chan k)) := by
  have hp15 : p < 15 := by have := k.isLt; omega
  obtain ⟨hp, hxk'⟩ := List.getElem?_eq_some_iff.mp hxk
  refine concatenate_apply_piece 2 xs h (ix3 i j k) p hp S1024x1024x16 x₁ hxk' rfl (16 * p)
    (pre16 xs 15 hs p (Nat.le_of_lt hp15)) (ix3 i j (Cert.Spec.chan k)) ?_ ?_
  · intro b hb
    match b with
    | ⟨0, _⟩ => rfl
    | ⟨1, _⟩ => rfl
    | ⟨2, _⟩ => exact absurd rfl hb
  · show 16 * p + k.val % 16 = k.val
    omega

/-- The specification's feature in group `p`. -/
theorem feat_group (e : EReal) (dJ dI rJ rI cJ cI tt tm tr tot : Fin 16 → EReal) (k : Fin 240) (p : Nat)
    (hk : k.val / 16 = p) :
    Cert.Spec.feat e dJ dI rJ rI cJ cI tt tm tr tot k =
      match (generalizing := false) p with
      | 0 => e * dJ (Cert.Spec.chan k)
      | 1 => dJ (Cert.Spec.chan k)
      | 2 => dI (Cert.Spec.chan k)
      | 3 => e * rJ (Cert.Spec.chan k)
      | 4 => e * cJ (Cert.Spec.chan k)
      | 5 => e * tr (Cert.Spec.chan k)
      | 6 => tt (Cert.Spec.chan k)
      | 7 => tm (Cert.Spec.chan k)
      | 8 => tr (Cert.Spec.chan k)
      | 9 => rJ (Cert.Spec.chan k)
      | 10 => cJ (Cert.Spec.chan k)
      | 11 => e * tot (Cert.Spec.chan k)
      | 12 => cI (Cert.Spec.chan k)
      | 13 => rI (Cert.Spec.chan k)
      | _ => tot (Cert.Spec.chan k) := by
  subst hk; rfl

/-- The 240 features of the reference at (i, j) are the specification's, of the ten ingredients seen from (i, j). -/
theorem feat_apply (x0 : (⟨S1024x1024x16, .f32⟩ : BufTy).Contents (Elt Ideal)) (x1 : (⟨S1024x1024x16, .i1⟩ : BufTy).Contents (Elt Ideal))
    (i j : Fin 1024) (k : Fin 240) :
    val_main_v51 (F := Ideal) x0 x1 (ix3 i j k)
      = Cert.Spec.feat (Cert.Spec.eye i j)
          (fun ch => val_main_v2 (F := Ideal) x0 x1 (ix2 j ch)) (fun ch => val_main_v2 (F := Ideal) x0 x1 (ix2 i ch))
          (fun ch => val_main_v4 (F := Ideal) x0 x1 (ix2 j ch)) (fun ch => val_main_v4 (F := Ideal) x0 x1 (ix2 i ch))
          (fun ch => val_main_v5 (F := Ideal) x0 x1 (ix2 j ch)) (fun ch => val_main_v5 (F := Ideal) x0 x1 (ix2 i ch))
          (fun ch => val_main_v34 (F := Ideal) x0 x1 (ix3 i j ch)) (fun ch => val_main_v0 (F := Ideal) x0 x1 (ix3 i j ch))
          (fun ch => val_main_v3 (F := Ideal) x0 x1 (ix1 ch)) (fun ch => val_main_v6 (F := Ideal) x0 x1 (ix1 ch)) k := by
  have hk : k.val / 16 < 15 := by have := k.isLt; omega
  unfold val_main_v51
  generalize hp : k.val / 16 = p at hk
  interval_cases p
  · rw [feat_group _ _ _ _ _ _ _ _ _ _ _ k 0 hp]
    refine (cat_piece _ _ i j k 0 (val_main_v17 (F := Ideal) x0 x1) ?_ ?_ hp).trans (v17_at x0 x1 i j _)
    · rfl
    · rfl
  · rw [feat_group _ _ _ _ _ _ _ _ _ _ _ k 1 hp]
    refine (cat_piece _ _ i j k 1 (val_main_v19 (F := Ideal) x0 x1) ?_ ?_ hp).trans (v19_at x0 x1 i j _)
    · rfl
    · rfl
  · rw [feat_group _ _ _ _ _ _ _ _ _ _ _ k 2 hp]
    refine (cat_piece _ _ i j k 2 (val_main_v21 (F := Ideal) x0 x1) ?_ ?_ hp).trans (v21_at x0 x1 i j _)
    · rfl
    · rfl
  · rw [feat_group _ _ _ _ _ _ _ _ _ _ _ k 3 hp]
    refine (cat_piece _ _ i j k 3 (val_main_v25 (F := Ideal) x0 x1) ?_ ?_ hp).trans (v25_at x0 x1 i j _)
    · rfl
    · rfl
  · rw [feat_group _ _ _ _ _ _ _ _ _ _ _ k 4 hp]
    refine (cat_piece _ _ i j k 4 (val_main_v29 (F := Ideal) x0 x1) ?_ ?_ hp).trans (v29_at x0 x1 i j _)
    · rfl
    · rfl
  · rw [feat_group _ _ _ _ _ _ _ _ _ _ _ k 5 hp]
    refine (cat_piece _ _ i j k 5 (val_main_v33 (F := Ideal) x0 x1) ?_ ?_ hp).trans (v33_at x0 x1 i j _)
    · rfl
    · rfl
  · rw [feat_group _ _ _ _ _ _ _ _ _ _ _ k 6 hp]
    refine (cat_piece _ _ i j k 6 (val_main_v34 (F := Ideal) x0 x1) ?_ ?_ hp)
    · rfl
    · rfl
  · rw [feat_group _ _ _ _ _ _ _ _ _ _ _ k 7 hp]
    refine (cat_piece _ _ i j k 7 (val_main_v0 (F := Ideal) x0 x1) ?_ ?_ hp)
    · rfl
    · rfl
  · rw [feat_group _ _ _ _ _ _ _ _ _ _ _ k 8 hp]
    refine (cat_piece _ _ i j k 8 (val_main_v36 (F := Ideal) x0 x1) ?_ ?_ hp).trans (v36_at x0 x1 i j _)
    · rfl
    · rfl
  · rw [feat_group _ _ _ _ _ _ _ _ _ _ _ k 9 hp]
    refine (cat_piece _ _ i j k 9 (val_main_v38 (F := Ideal) x0 x1) ?_ ?_ hp).trans (v38_at x0 x1 i j _)
    · rfl
    · rfl
  · rw [feat_group _ _ _ _ _ _ _ _ _ _ _ k 10 hp]
    refine (cat_piece _ _ i j k 10 (val_main_v40 (F := Ideal) x0 x1) ?_ ?_ hp).trans (v40_at x0 x1 i j _)
    · rfl
    · rfl
  · rw [feat_group _ _ _ _ _ _ _ _ _ _ _ k 11 hp]
    refine (cat_piece _ _ i j k 11 (val_main_v44 (F := Ideal) x0 x1) ?_ ?_ hp).trans (v44_at x0 x1 i j _)
    · rfl
    · rfl
  · rw [feat_group _ _ _ _ _ _ _ _ _ _ _ k 12 hp]
    refine (cat_piece _ _ i j k 12 (val_main_v46 (F := Ideal) x0 x1) ?_ ?_ hp).trans (v46_at x0 x1 i j _)
    · rfl
    · rfl
  · rw [feat_group _ _ _ _ _ _ _ _ _ _ _ k 13 hp]
    refine (cat_piece _ _ i j k 13 (val_main_v48 (F := Ideal) x0 x1) ?_ ?_ hp).trans (v48_at x0 x1 i j _)
    · rfl
    · rfl
  · rw [feat_group _ _ _ _ _ _ _ _ _ _ _ k 14 hp]
    refine (cat_piece _ _ i j k 14 (val_main_v50 (F := Ideal) x0 x1) ?_ ?_ hp).trans (v50_at x0 x1 i j _)
    · rfl
    · rfl

/-! ## The two layers -/

/-- The hidden layer at (i, j, h): the positive part of the first linear layer on the feature vector. -/
theorem hidden_apply (x0 : (⟨S1024x1024x16, .f32⟩ : BufTy).Contents (Elt Ideal)) (x1 : (⟨S1024x1024x16, .i1⟩ : BufTy).Contents (Elt Ideal))
    (x2 : (⟨S64x240, .f32⟩ : BufTy).Contents (Elt Ideal)) (x3 : (⟨S64, .f32⟩ : BufTy).Contents (Elt Ideal))
    (i j : Fin 1024) (h : Fin 64) :
    val_main_v56 (F := Ideal) x0 x1 x2 x3 (ix3 i j h)
      = max ((∑ k : Fin 240, val_main_v51 (F := Ideal) x0 x1 (ix3 i j k) * x2 (ix2 h k)) + x3 (ix1 h)) (0 : EReal) := by
  rw [val_main_v56_apply, val_main_v55_apply, val_main_v52_apply, val_main_v54_apply, val_main_v53_apply,
    val_main_call2_v0_apply, val_main_call2_cst_apply, maxfI, addfI]
  generalize val_main_v51 (F := Ideal) x0 x1 = y
  have e1 : ∀ k : Fin 240, lidx_main_v52 (ix3 i j h) k = ix3 i j k := fun k => by idx3
  have e2 : ∀ k : Fin 240, ridx_main_v52 (ix3 i j h) k = ix2 h k := fun k => by idx2
  have e3 : idx_main_v53 (idx_main_v54 (ix3 i j h)) = ix1 h := by idx1
  have e0 : (FloatOps.ofBits (F := Ideal) .f32 0x00000000#32 : EReal) = 0 := Ideal.ofBits_zero_f32
  rw [e0, e3]
  simp only [e1, e2]

/-- The output at (i, j, o): the second linear layer on the hidden layer. -/
theorem out_apply (x0 : (⟨S1024x1024x16, .f32⟩ : BufTy).Contents (Elt Ideal)) (x1 : (⟨S1024x1024x16, .i1⟩ : BufTy).Contents (Elt Ideal))
    (x2 : (⟨S64x240, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (i j : Fin 1024) (o : Fin 64) :
    val_main_v60 (F := Ideal) x0 x1 x2 x3 x4 x5 (ix3 i j o)
      = (∑ h : Fin 64, val_main_v56 (F := Ideal) x0 x1 x2 x3 (ix3 i j h) * x4 (ix2 o h)) + x5 (ix1 o) := by
  rw [val_main_v60_apply, val_main_v57_apply, val_main_v59_apply, val_main_v58_apply, addfI]
  generalize val_main_v56 (F := Ideal) x0 x1 x2 x3 = y
  have e1 : ∀ k : Fin 64, lidx_main_v57 (ix3 i j o) k = ix3 i j k := fun k => by idx3
  have e2 : ∀ k : Fin 64, ridx_main_v57 (ix3 i j o) k = ix2 o k := fun k => by idx2
  have e3 : idx_main_v58 (idx_main_v59 (ix3 i j o)) = ix1 o := by idx1
  rw [e3]
  simp only [e1, e2]

/-- **The reference at a position is the specification**: the two-layer map on the feature vector of the ten
    ingredients seen from (i, j). -/
theorem ref_apply (x0 : (⟨S1024x1024x16, .f32⟩ : BufTy).Contents (Elt Ideal)) (x1 : (⟨S1024x1024x16, .i1⟩ : BufTy).Contents (Elt Ideal))
    (x2 : (⟨S64x240, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (i j : Fin 1024) (o : Fin 64) :
    val_main_v60 (F := Ideal) x0 x1 x2 x3 x4 x5 (ix3 i j o)
      = Cert.Spec.mlp
          (Cert.Spec.feat (Cert.Spec.eye i j)
            (fun ch => val_main_v2 (F := Ideal) x0 x1 (ix2 j ch)) (fun ch => val_main_v2 (F := Ideal) x0 x1 (ix2 i ch))
            (fun ch => val_main_v4 (F := Ideal) x0 x1 (ix2 j ch)) (fun ch => val_main_v4 (F := Ideal) x0 x1 (ix2 i ch))
            (fun ch => val_main_v5 (F := Ideal) x0 x1 (ix2 j ch)) (fun ch => val_main_v5 (F := Ideal) x0 x1 (ix2 i ch))
            (fun ch => val_main_v34 (F := Ideal) x0 x1 (ix3 i j ch)) (fun ch => val_main_v0 (F := Ideal) x0 x1 (ix3 i j ch))
            (fun ch => val_main_v3 (F := Ideal) x0 x1 (ix1 ch)) (fun ch => val_main_v6 (F := Ideal) x0 x1 (ix1 ch)))
          (fun h k => x2 (ix2 h k)) (fun h => x3 (ix1 h)) (fun o' h => x4 (ix2 o' h)) (fun o' => x5 (ix1 o')) o := by
  rw [out_apply]
  simp only [hidden_apply, feat_apply]
  rfl

end Cert.RefSide

end
-- ==== Proof.Result.lean ====
/-
  The result both programs compute, entry by entry: at (i, j, o) the two-layer map of the 240 features at (i, j) —
  the diagonal entries, row sums and column sums at j and at i, the transposed and the plain masked entry, the trace
  and the total, the diagonal's indicator — all read off the masked input as the reference's named stages compute them.
-/
import proofs.«101839_j68650757259668_2_alg».proof.Proof.Gen.ReferenceIdeal.Read
import proofs.«101839_j68650757259668_2_alg».proof.Proof.Spec
import Idealize.ShloMosaic.Lib.ValueIdx

noncomputable section

namespace Cert.Result

open Cert.ReferenceIdeal Cert.ReferenceIdeal.Read Idealize.ShloMosaic Idealize.ShloMosaic.ValueIdx

/-- Entry (i, j, o) of the result, of the six argument arrays. -/
def entry (x0 : (⟨S1024x1024x16, .f32⟩ : BufTy).Contents (Elt Ideal)) (x1 : (⟨S1024x1024x16, .i1⟩ : BufTy).Contents (Elt Ideal))
    (x2 : (⟨S64x240, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (i j : Fin 1024) (o : Fin 64) : EReal :=
  Cert.Spec.mlp
    (Cert.Spec.feat (Cert.Spec.eye i j)
      (fun ch => val_main_v2 (F := Ideal) x0 x1 (ix2 j ch)) (fun ch => val_main_v2 (F := Ideal) x0 x1 (ix2 i ch))
      (fun ch => val_main_v4 (F := Ideal) x0 x1 (ix2 j ch)) (fun ch => val_main_v4 (F := Ideal) x0 x1 (ix2 i ch))
      (fun ch => val_main_v5 (F := Ideal) x0 x1 (ix2 j ch)) (fun ch => val_main_v5 (F := Ideal) x0 x1 (ix2 i ch))
      (fun ch => val_main_v34 (F := Ideal) x0 x1 (ix3 i j ch)) (fun ch => val_main_v0 (F := Ideal) x0 x1 (ix3 i j ch))
      (fun ch => val_main_v3 (F := Ideal) x0 x1 (ix1 ch)) (fun ch => val_main_v6 (F := Ideal) x0 x1 (ix1 ch)))
    (fun h k => x2 (ix2 h k)) (fun h => x3 (ix1 h)) (fun o' h => x4 (ix2 o' h)) (fun o' => x5 (ix1 o')) o

/-- The whole result array. -/
def arr (x0 : (⟨S1024x1024x16, .f32⟩ : BufTy).Contents (Elt Ideal)) (x1 : (⟨S1024x1024x16, .i1⟩ : BufTy).Contents (Elt Ideal))
    (x2 : (⟨S64x240, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal)) :
    (⟨S1024x1024x64, .f32⟩ : BufTy).Contents (Elt Ideal) :=
  fun idx => entry x0 x1 x2 x3 x4 x5 (idx 0) (idx 1) (idx 2)

theorem arr_apply (x0 : (⟨S1024x1024x16, .f32⟩ : BufTy).Contents (Elt Ideal)) (x1 : (⟨S1024x1024x16, .i1⟩ : BufTy).Contents (Elt Ideal))
    (x2 : (⟨S64x240, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (i j : Fin 1024) (o : Fin 64) : arr x0 x1 x2 x3 x4 x5 (ix3 i j o) = entry x0 x1 x2 x3 x4 x5 i j o := rfl

end Cert.Result

end
-- ==== Proof.Bridge.lean ====
/-
  The two idealized programs compute one array. The kernel program's result, read off its frame run, is at every
  entry the two-layer map of the features of the arrays its host operations hand the region; those arrays are the
  reference's own named stages of the same arguments (the masked input, its transpose, the diagonal, the row and
  column sums, the trace; the total as a sum of the row sums, which regroups the reference's one sum over both axes;
  the weights unchanged by the change of format, the biases re-laid), so every entry is the reference's entry.
-/
import proofs.«101839_j68650757259668_2_alg».proof.Defs
import proofs.«101839_j68650757259668_2_alg».proof.Proof.KI.Value
import proofs.«101839_j68650757259668_2_alg».proof.Proof.KB.Run
import proofs.«101839_j68650757259668_2_alg».proof.Proof.HostPrefix
import proofs.«101839_j68650757259668_2_alg».proof.Proof.RefFeat
import proofs.«101839_j68650757259668_2_alg».proof.Proof.Result
import proofs.«101839_j68650757259668_2_alg».proof.Proof.Gen.Pre_finite_inputs
import proofs.«101839_j68650757259668_2_alg».proof.Proof.Gen.ReferenceIdeal.Run
import proofs.«101839_j68650757259668_2_alg».proof.Proof.Gen.ReferenceIdeal.Read

noncomputable section

namespace Cert.Bridge

open Idealize.ShloMosaic Idealize.ShloMosaic.TcCoe Idealize.ShloMosaic.ValueIdx Idealize.SL.Sem

section Kernel

open Cert.KernelIdeal Cert.KernelIdeal.Gen Cert.KernelIdeal.Fr Cert.KernelIdeal.Val Cert.KernelSide.Host

variable (m : (ℓ : Loc nD τ sig) → Buf (Elt Ideal) ℓ) (c : Dev nD)

/-- Each entry of the kernel program's result is the common entry of the launch arguments. -/
theorem entryK_eq (i j : Fin 1024) (o : Fin 64) :
    entryK m c i j o
      = Cert.Result.entry (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) i j o := by
  have h0 : V m c main_v0 = Cert.ReferenceIdeal.Read.val_main_v0 (F := Ideal) (m ((c : Thread nD τ).loc main_arg0)) (m ((c : Thread nD τ).loc main_arg1)) := v0_eq m c
  have h1 : V m c main_v1 = Cert.ReferenceIdeal.Read.val_main_v34 (F := Ideal) (m ((c : Thread nD τ).loc main_arg0)) (m ((c : Thread nD τ).loc main_arg1)) := v1_eq m c
  have h3 : V m c main_v3 = Cert.ReferenceIdeal.Read.val_main_v2 (F := Ideal) (m ((c : Thread nD τ).loc main_arg0)) (m ((c : Thread nD τ).loc main_arg1)) := v3_eq m c
  have h6 : V m c main_v6 = Cert.ReferenceIdeal.Read.val_main_v4 (F := Ideal) (m ((c : Thread nD τ).loc main_arg0)) (m ((c : Thread nD τ).loc main_arg1)) := v6_eq m c
  have h7 : V m c main_v7 = Cert.ReferenceIdeal.Read.val_main_v5 (F := Ideal) (m ((c : Thread nD τ).loc main_arg0)) (m ((c : Thread nD τ).loc main_arg1)) := v7_eq m c
  have h5 : ∀ ch : Fin 16, V m c main_v5 (ix2 0 ch) = Cert.ReferenceIdeal.Read.val_main_v3 (F := Ideal) (m ((c : Thread nD τ).loc main_arg0)) (m ((c : Thread nD τ).loc main_arg1)) (ix1 ch) := v5_apply m c
  have h9 : ∀ ch : Fin 16, V m c main_v9 (ix2 0 ch) = Cert.ReferenceIdeal.Read.val_main_v6 (F := Ideal) (m ((c : Thread nD τ).loc main_arg0)) (m ((c : Thread nD τ).loc main_arg1)) (ix1 ch) := v9_apply m c
  have h10 : ∀ (h : Fin 64) (k : Fin 240), V m c main_v10 (ix2 h k) = m ((c : Thread nD τ).loc main_arg2) (ix2 h k) := v10_apply m c
  have h11 : ∀ (o' h : Fin 64), V m c main_v11 (ix2 o' h) = m ((c : Thread nD τ).loc main_arg4) (ix2 o' h) := v11_apply m c
  have h12 : ∀ h : Fin 64, V m c main_v12 (ix2 0 h) = m ((c : Thread nD τ).loc main_arg3) (ix1 h) := v12_apply m c
  have h13 : ∀ o' : Fin 64, V m c main_v13 (ix2 0 o') = m ((c : Thread nD τ).loc main_arg5) (ix1 o') := v13_apply m c
  unfold entryK Cert.Result.entry
  rw [h0, h1, h3, h6, h7]
  simp only [h5, h9, h10, h11, h12, h13]

end Kernel

/-! ## The claims -/

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the same result array: the kernel program's
    run ends at its result array, the reference's at its last stage, and entry by entry both are the common entry. -/
theorem algebraic : Cert.algebraic_KernelIdeal_ReferenceIdeal := by
  intro m ρ m' ρ' _ hagree
  refine ⟨fun c => Cert.KernelIdeal.Val.arrK m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v60_eq, (hagree c).1, (hagree c).2.1, (hagree c).2.2.1, (hagree c).2.2.2.1,
    (hagree c).2.2.2.2.1, (hagree c).2.2.2.2.2]
  funext idx
  obtain ⟨i, j, o, rfl⟩ : ∃ (i j : Fin 1024) (o : Fin 64), idx = ix3 i j o := ⟨idx 0, idx 1, idx 2, eq_ix3 idx⟩
  refine (Cert.RefSide.ref_apply _ _ _ _ _ _ i j o).trans ?_
  exact (entryK_eq m c i j o).symm

end Cert.Bridge

end
-- ==== Proof.lean ====
/-
  The proof of `Cert.Claim` for the pairwise-feature kernel: a 1024 × 1024 grid of node pairs with 16 channels is
  masked; from it the diagonal, the trace, the row sums, the column sums and the total are taken; at every pair (i, j)
  fifteen permutation-equivariant basis terms (240 features) are formed from those and from the entry and its
  transpose, and a two-layer map with a positive part between the layers is applied. The kernel program computes
  the small sums on the host and the features and both layers block by block (64 × 64 pairs per grid point) inside
  one pipelined region; the reference computes everything on whole arrays.

  • The three frames: the two kernel programs (word-level and idealized, one proof read at either instance) run
    through the host operations, the region — whose fifteen windows stage twelve arrays, three of them twice, so those
    three are dealt in halves between their two reading windows — and end with the arguments untouched
    (Proof/KB, Proof/KI: Entry, Body, Data, Run); the reference's frame is its run with the result dropped.
  • `preserves` is trivial: the idealization rewrote nothing.
  • `algebraic`: the kernel program's result array read off its frame run, entry by entry (Proof/KI/Value,
    Proof/KernelFeat), the host operations' arrays as the reference's stages (Proof/HostPrefix), the reference's result
    entry by entry (Proof/RefFeat), both the common entry of Proof/Result over Proof/Spec; joined in Proof/Bridge.
    No finiteness is used: on the extended reals the only law needed between the two sides regroups one sum.
-/
import proofs.«101839_j68650757259668_2_alg».proof.Defs
import proofs.«101839_j68650757259668_2_alg».proof.Proof.Bridge
import proofs.«101839_j68650757259668_2_alg».proof.Proof.Gen.Kernel
import proofs.«101839_j68650757259668_2_alg».proof.Proof.Gen.Kernel.Skeleton
import proofs.«101839_j68650757259668_2_alg».proof.Proof.Gen.Kernel.Launch
import proofs.«101839_j68650757259668_2_alg».proof.Proof.Gen.Kernel.Points
import proofs.«101839_j68650757259668_2_alg».proof.Proof.Gen.KernelIdeal
import proofs.«101839_j68650757259668_2_alg».proof.Proof.Gen.KernelIdeal.Skeleton
import proofs.«101839_j68650757259668_2_alg».proof.Proof.Gen.KernelIdeal.Launch
import proofs.«101839_j68650757259668_2_alg».proof.Proof.Gen.KernelIdeal.Points
import proofs.«101839_j68650757259668_2_alg».proof.Proof.Gen.ReferenceIdeal
import proofs.«101839_j68650757259668_2_alg».proof.Proof.Gen.Pre_finite_inputs
import proofs.«101839_j68650757259668_2_alg».proof.Proof.Gen.ReferenceIdeal.Run
import proofs.«101839_j68650757259668_2_alg».proof.Proof.Gen.ReferenceIdeal.Read
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Bridge.frame_k, Cert.Bridge.frame_ki, Cert.Bridge.frame_ri, Cert.Bridge.preserves, Cert.Bridge.algebraic⟩

end Cert.Proof

end
